-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S1024x2048 : Shape := ⟨2, ![1024, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn_part3 {F : FTy → Type} [FloatOps F] (main_arg11 : FVec F S2048x2048 .f32) (main_arg12 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  main_v63

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x2048 .f32) (main_arg1 : FVec F S1024x2048 .f32) (main_arg2 : FVec F S1024x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S2048x2048 : Shape := ⟨2, ![2048, 2048]⟩
abbrev S1024x2048 : Shape := ⟨2, ![1024, 2048]⟩
abbrev S128x512 : Shape := ⟨2, ![128, 512]⟩
abbrev S128x2048 : Shape := ⟨2, ![128, 2048]⟩
abbrev S512x2048 : Shape := ⟨2, ![512, 2048]⟩
abbrev S128 : Shape := ⟨1, ![128]⟩
abbrev S128x1 : Shape := ⟨2, ![128, 1]⟩

abbrev nBuf : Space → Nat
  | .hbm => 20
  | .vmem => 37
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S2048x2048, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2048x2048, .bf16⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .bf16⟩
  | .local _ .vmem, ⟨24, _⟩ => ⟨S128x2048, .bf16⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x512, .f32⟩
  | .local _ .vmem, ⟨30, _⟩ => ⟨S128x512, .f32⟩
  | .local _ .vmem, ⟨31, _⟩ => ⟨S2048x2048, .bf16⟩
  | .local _ .vmem, ⟨32, _⟩ => ⟨S128x2048, .f32⟩
  | .local _ .vmem, ⟨33, _⟩ => ⟨S128x2048, .f32⟩
  | .local _ .vmem, ⟨34, _⟩ => ⟨S128x2048, .f32⟩
  | .local _ .vmem, ⟨35, _⟩ => ⟨S128x2048, .f32⟩
  | .local _ .vmem, ⟨36, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc1_sem0_0 : DmaSem sig := 25
abbrev cc1_sem0_1 : DmaSem sig := 26
abbrev cc1_sem1_0 : DmaSem sig := 27
abbrev cc1_sem2_0 : DmaSem sig := 28
abbrev cc1_sem2_1 : DmaSem sig := 29
abbrev cc1_sem3_0 : DmaSem sig := 30
abbrev cc1_sem3_1 : DmaSem sig := 31

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_28 : BitVec 32 := 0#32
  let v42 : BitVec 1 := Scalar.cmpi .ne v41 c0_i32_28
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![16, 4], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  concatenates_S1024x2048_S1024x2048_S2048x2048_d0 : Shape.Concatenates [S1024x2048, S1024x2048] S2048x2048 0
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  h_S512x2048 : 0 < S512x2048.numel
  shapeCasts_S512x2048_S512x2048 : S512x2048.ShapeCasts S512x2048
  inb_S128x512_S128x512_0_0 : ∀ a, (![0, 0] : Fin 2 → Nat) a + S128x512.size a ≤ S128x512.size a
  h_S128x512 : 0 < S128x512.numel
  packedbf16_S128x2048_S128x2048_0_0 : (Rect.unit (s := S128x2048) ![0, 0] S128x2048.size inb_S128x2048_S128x2048_0_0).PackedRows (EltTy.packing .bf16)
  reduces_S128x2048_S128 : S128x2048.Reduces [1] S128
  shapeCasts_S128_S128x1 : S128.ShapeCasts S128x1
  broadcasts_S128x1_S128x2048 : S128x1.Broadcasts S128x2048
  dot_S128x512_S512x2048_S128x2048_1_0_0_1_n_n_wf : DotDims.WF S128x512 S512x2048 S128x2048 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S2048x2048.size a
  hwx0_0 : ∀ i : grid0.Coords, EltTy.bits .f32 = 32 ∨ (Rect.block (s := S2048x2048) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S2048x2048.size a
  hwx0_1 : ∀ i : grid0.Coords, EltTy.bits .f32 = 32 ∨ (Rect.block (s := S2048x2048) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x2048.size a
  hwx0_2 : ∀ i : grid0.Coords, EltTy.bits .f32 = 32 ∨ (Rect.block (s := S2048x2048) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S2048x2048.size a
  hwx0_3 : ∀ i : grid0.Coords, EltTy.bits .f32 = 32 ∨ (Rect.block (s := S2048x2048) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .f32 = 32 ∨ (Rect.block (s := S2048x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .f32 = 32 ∨ (Rect.block (s := S2048x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .f32 = 32 ∨ (Rect.block (s := S2048x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .f32 = 32 ∨ (Rect.block (s := S2048x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .f32 = 32 ∨ (Rect.block (s := S2048x2048) S128x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S2048x2048.size a
  hwx0_12 : ∀ i : grid0.Coords, EltTy.bits .bf16 = 32 ∨ (Rect.block (s := S2048x2048) S128x2048.size (cc0_transform_12 i) (hinb0_12 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x2048.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S2048x2048.size a
  hwx1_0 : ∀ i : grid1.Coords, EltTy.bits .f32 = 32 ∨ (Rect.block (s := S2048x2048) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S2048x2048.size a
  hwx1_2 : ∀ i : grid1.Coords, EltTy.bits .f32 = 32 ∨ (Rect.block (s := S2048x2048) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S2048x2048.size a
  hwx1_3 : ∀ i : grid1.Coords, EltTy.bits .f32 = 32 ∨ (Rect.block (s := S2048x2048) S128x2048.size (cc1_transform_3 i) (hinb1_3 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_arg3) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S128x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S128x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_2) S128x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | ⟨_ + 13, h⟩ => absurd h (Nat.not_lt.2 (Nat.le_add_left _ _))

abbrev win1_0 : Pipeline.Window sig grid1 :=
  Pipeline.Window.ofSpec (Memref.whole main_arg11) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩

abbrev nBuf : Space → Nat
  | .hbm => 68
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x2048, .f32⟩
  | .hbm, ⟨67, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  concatenates_S1024x2048_S1024x2048_S2048x2048_d0 : Shape.Concatenates [S1024x2048, S1024x2048] S2048x2048 0
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.KB0Base.lean ====
/-
  The gates kernel (the first launch) on its 16 × 4 grid: what its proof is stated over. The second grid coordinate
  k walks the four 512-wide slabs of the contraction of the four gate products; each row block's four accumulators
  live in scratch buffers that are cleared at k = 0, added to at every k, and at k = 3 combined with the biases and
  the previous cell state into the new cell state, the hidden state and its narrow copy, the only points where the
  three output blocks are stored. Here: the two conditions on the grid point in closed form, where the output
  windows are idle, the staging memrefs at a point, each window's block at a point, and the region's invariant
  opened into the four accumulators, the other scoped buffers and the generator register.
-/
import proofs.«112212_j88502096101611_2_alg».proof.Proof.Gen.Kernel.Launch
import proofs.«112212_j88502096101611_2_alg».proof.Proof.Gen.Kernel.Skeleton
import proofs.«112212_j88502096101611_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Region0

/-- k = 0: the accumulators are cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- k = 3: the gates are combined and the three outputs stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-! Away from k = 3 the output windows are idle and their blocks are not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
theorem liveAt0_12 : ∀ t : Fin cfg0.N, cond0_1 (grid0.coords t) → cfg0.idle 12 (grid0.coords t) = false := by decide +kernel

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x2048 .bf16 := win0_12.stage (cfg0.slots t 12)
abbrev hs0_12 (t : Fin cfg0.N) : (ms0_12 t).IsWhole := hstage0_12 ((cfg0.slots t 12).cast nbuf0_12)
/-- The accumulators: whole scoped buffers of the kernel's own. -/
abbrev scM0_0 : Memref sig .tc .vmem S128x2048 .f32 := Memref.whole cc0_scratch0
abbrev scM0_1 : Memref sig .tc .vmem S128x2048 .f32 := Memref.whole cc0_scratch1
abbrev scM0_2 : Memref sig .tc .vmem S128x2048 .f32 := Memref.whole cc0_scratch2
abbrev scM0_3 : Memref sig .tc .vmem S128x2048 .f32 := Memref.whole cc0_scratch3

/-- The scoped buffers of the core that this kernel never names: the second launch's staging buffers and scratch. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the four accumulators as memrefs owned at some contents, beside the scoped buffers
    the kernel never names and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped0 c) ∗ (∃ r, prngReg c r)) := by
  unfold Pipeline.ΦA otherScoped0; rw [scopedRest0_eq]; simp only [scM0_0, scM0_1, scM0_2, scM0_3, owns_whole]; try rfl

end Cert.Kernel.Hand

end
-- ==== Proof.KB0RunA.lean ====
/-
  The gates kernel's body at a grid point with k = 0: the four accumulators are cleared, then each takes its first slab product. What the body's stores leave in the three output blocks
  and the four accumulators is found by running it; the proof is the run.
-/
import proofs.«112212_j88502096101611_2_alg».proof.Proof.KB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output blocks' buffers and in the accumulators at such a point,
    with the body's triple over them: the input blocks are handed back as found, the idle output blocks too. -/
noncomputable def kernelRun0_A (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) :
    Σ' (L10 : List (View.Piece (Elt F) S128x2048 .f32)) (L11 : List (View.Piece (Elt F) S128x2048 .f32)) (L12 : List (View.Piece (Elt F) S128x2048 .bf16)) (LS0 : List (View.Piece (Elt F) S128x2048 .f32)) (LS1 : List (View.Piece (Elt F) S128x2048 .f32)) (LS2 : List (View.Piece (Elt F) S128x2048 .f32)), { LS3 : List (View.Piece (Elt F) S128x2048 .f32) //
      ∀ (xi10 : Vec F S128x2048 .f32) (xi11 : Vec F S128x2048 .f32) (xi12 : Vec F S128x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, ?_, fun xi10 xi11 xi12 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]; · iexists _; iexact HS2
    iexists _; iexact HS3

end Cert.Kernel.Hand

end
-- ==== Proof.KB0RunB.lean ====
/-
  The gates kernel's body at a grid point with k = 1, 2: each accumulator takes one more slab product. What the body's stores leave in the three output blocks
  and the four accumulators is found by running it; the proof is the run.
-/
import proofs.«112212_j88502096101611_2_alg».proof.Proof.KB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output blocks' buffers and in the accumulators at such a point,
    with the body's triple over them: the input blocks are handed back as found, the idle output blocks too. -/
noncomputable def kernelRun0_B (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    Σ' (L10 : List (View.Piece (Elt F) S128x2048 .f32)) (L11 : List (View.Piece (Elt F) S128x2048 .f32)) (L12 : List (View.Piece (Elt F) S128x2048 .bf16)) (LS0 : List (View.Piece (Elt F) S128x2048 .f32)) (LS1 : List (View.Piece (Elt F) S128x2048 .f32)) (LS2 : List (View.Piece (Elt F) S128x2048 .f32)), { LS3 : List (View.Piece (Elt F) S128x2048 .f32) //
      ∀ (xi10 : Vec F S128x2048 .f32) (xi11 : Vec F S128x2048 .f32) (xi12 : Vec F S128x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, ?_, fun xi10 xi11 xi12 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]; · iexists _; iexact HS2
    iexists _; iexact HS3

end Cert.Kernel.Hand

end
-- ==== Proof.KB0RunC.lean ====
/-
  The gates kernel's body at a grid point with k = 3: each accumulator takes its last slab product, and the cell state, the hidden state and its narrow copy are computed from accumulators + biases and stored. What the body's stores leave in the three output blocks
  and the four accumulators is found by running it; the proof is the run.
-/
import proofs.«112212_j88502096101611_2_alg».proof.Proof.KB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output blocks' buffers and in the accumulators at such a point,
    with the body's triple over them: the input blocks are handed back as found. -/
noncomputable def kernelRun0_C (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    Σ' (L10 : List (View.Piece (Elt F) S128x2048 .f32)) (L11 : List (View.Piece (Elt F) S128x2048 .f32)) (L12 : List (View.Piece (Elt F) S128x2048 .bf16)) (LS0 : List (View.Piece (Elt F) S128x2048 .f32)) (LS1 : List (View.Piece (Elt F) S128x2048 .f32)) (LS2 : List (View.Piece (Elt F) S128x2048 .f32)), { LS3 : List (View.Piece (Elt F) S128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    iexists _; iexact HS3

end Cert.Kernel.Hand

end
-- ==== Proof.KB0Frame.lean ====
/-
  The gates kernel's launch, point by point. After the body at grid point t = 4·i + k each of the four accumulators
  holds the sum of the first k + 1 slab products of its gate for row block i (cleared at k = 0), and at k = 3 the
  three output blocks hold the new cell state, the hidden state and its narrow copy; between the points of one row
  block the accumulators are carried in the region's invariant at exactly those contents. From this: the proof data
  of the pipeline (what every window's buffer holds after each point) and the body's obligation at every point.
-/
import proofs.«112212_j88502096101611_2_alg».proof.Proof.KB0RunA
import proofs.«112212_j88502096101611_2_alg».proof.Proof.KB0RunB
import proofs.«112212_j88502096101611_2_alg».proof.Proof.KB0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of a point with k = 0 cover accumulator 0. -/
theorem scover0_A_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1 S128x2048.size (by sl_kernel_rfl) y
/-- The stores of a point with k = 0 cover accumulator 1. -/
theorem scover0_A_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1 S128x2048.size (by sl_kernel_rfl) y
/-- The stores of a point with k = 0 cover accumulator 2. -/
theorem scover0_A_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.1 S128x2048.size (by sl_kernel_rfl) y
/-- The stores of a point with k = 0 cover accumulator 3. -/
theorem scover0_A_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.2.1 S128x2048.size (by sl_kernel_rfl) y
/-- The stores of a point with k = 1, 2 cover accumulator 0. -/
theorem scover0_B_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1 S128x2048.size (by sl_kernel_rfl) y
/-- The stores of a point with k = 1, 2 cover accumulator 1. -/
theorem scover0_B_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1 S128x2048.size (by sl_kernel_rfl) y
/-- The stores of a point with k = 1, 2 cover accumulator 2. -/
theorem scover0_B_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1 S128x2048.size (by sl_kernel_rfl) y
/-- The stores of a point with k = 1, 2 cover accumulator 3. -/
theorem scover0_B_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1 S128x2048.size (by sl_kernel_rfl) y
/-- The stores of a point with k = 3 cover accumulator 0. -/
theorem scover0_C_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1 S128x2048.size (by sl_kernel_rfl) y
/-- The stores of a point with k = 3 cover accumulator 1. -/
theorem scover0_C_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1 S128x2048.size (by sl_kernel_rfl) y
/-- The stores of a point with k = 3 cover accumulator 2. -/
theorem scover0_C_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1 S128x2048.size (by sl_kernel_rfl) y
/-- The stores of a point with k = 3 cover accumulator 3. -/
theorem scover0_C_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1 S128x2048.size (by sl_kernel_rfl) y
/-- The stores of a point with k = 3 cover output block 10. -/
theorem cover0_C_10 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).1 S128x2048.size (by sl_kernel_rfl) y
/-- The stores of a point with k = 3 cover output block 11. -/
theorem cover0_C_11 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.1 S128x2048.size (by sl_kernel_rfl) y
/-- The stores of a point with k = 3 cover output block 12. -/
theorem cover0_C_12 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.1 S128x2048.size (by sl_kernel_rfl) y

section Region0
variable (V : (c : Dev nD) → (b : Ref sig .tc) → Buf (Elt F) ((c : Thread nD τ).loc b))

/-- The body's run at a point with k = 0, on the point's staging memrefs and input blocks. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
    ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
/-- The body's run at a point with k = 1, 2, from what the point before left in the accumulators. -/
abbrev runB0 (c : Dev nD) (t : Fin cfg0.N) (h0 : ¬t.val % 4 = 0) (h1 : ¬t.val % 4 = 3) (xs0 : Vec F S128x2048 .f32) (xs1 : Vec F S128x2048 .f32) (xs2 : Vec F S128x2048 .f32) (xs3 : Vec F S128x2048 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1 xs2 xs3
/-- The body's run at a point with k = 3. -/
abbrev runC0 (c : Dev nD) (t : Fin cfg0.N) (h0 : ¬t.val % 4 = 0) (h1 : t.val % 4 = 3) (xs0 : Vec F S128x2048 .f32) (xs1 : Vec F S128x2048 .f32) (xs2 : Vec F S128x2048 .f32) (xs3 : Vec F S128x2048 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1 xs2 xs3

/-- The four accumulators' contents. -/
abbrev Acc4 (F : FTy → Type) : Type := Vec F S128x2048 .f32 × Vec F S128x2048 .f32 × Vec F S128x2048 .f32 × Vec F S128x2048 .f32
/-- The three output blocks' contents. -/
abbrev Out3 (F : FTy → Type) : Type := Vec F S128x2048 .f32 × Vec F S128x2048 .f32 × Vec F S128x2048 .bf16

def acc0_A (c : Dev nD) (t : Fin cfg0.N) (h0 : t.val % 4 = 0) : Acc4 F :=
  (View.canon (runA0 V c t h0).2.2.2.1, View.canon (runA0 V c t h0).2.2.2.2.1, View.canon (runA0 V c t h0).2.2.2.2.2.1, View.canon (runA0 V c t h0).2.2.2.2.2.2.1)
def acc0_B (c : Dev nD) (t : Fin cfg0.N) (h0 : ¬t.val % 4 = 0) (h1 : ¬t.val % 4 = 3) (a : Acc4 F) : Acc4 F :=
  (View.canon (runB0 V c t h0 h1 a.1 a.2.1 a.2.2.1 a.2.2.2).2.2.2.1, View.canon (runB0 V c t h0 h1 a.1 a.2.1 a.2.2.1 a.2.2.2).2.2.2.2.1, View.canon (runB0 V c t h0 h1 a.1 a.2.1 a.2.2.1 a.2.2.2).2.2.2.2.2.1, View.canon (runB0 V c t h0 h1 a.1 a.2.1 a.2.2.1 a.2.2.2).2.2.2.2.2.2.1)
def acc0_C (c : Dev nD) (t : Fin cfg0.N) (h0 : ¬t.val % 4 = 0) (h1 : t.val % 4 = 3) (a : Acc4 F) : Acc4 F :=
  (View.canon (runC0 V c t h0 h1 a.1 a.2.1 a.2.2.1 a.2.2.2).2.2.2.1, View.canon (runC0 V c t h0 h1 a.1 a.2.1 a.2.2.1 a.2.2.2).2.2.2.2.1, View.canon (runC0 V c t h0 h1 a.1 a.2.1 a.2.2.1 a.2.2.2).2.2.2.2.2.1, View.canon (runC0 V c t h0 h1 a.1 a.2.1 a.2.2.1 a.2.2.2).2.2.2.2.2.2.1)
def out0_C (c : Dev nD) (t : Fin cfg0.N) (h0 : ¬t.val % 4 = 0) (h1 : t.val % 4 = 3) (a : Acc4 F) : Out3 F :=
  (View.canon (runC0 V c t h0 h1 a.1 a.2.1 a.2.2.1 a.2.2.2).1, View.canon (runC0 V c t h0 h1 a.1 a.2.1 a.2.2.1 a.2.2.2).2.1, View.canon (runC0 V c t h0 h1 a.1 a.2.1 a.2.2.1 a.2.2.2).2.2.1)

/-- The accumulators after the body at position `n`, by recursion on the position: they restart at every k = 0
    and otherwise continue from the point before. -/
def accAt0 (c : Dev nD) : (n : ℕ) → n < cfg0.N → Acc4 F
  | 0, hn => acc0_A V c ⟨0, hn⟩ (Nat.zero_mod _)
  | n + 1, hn =>
    if h0 : (n + 1) % 4 = 0 then acc0_A V c ⟨n + 1, hn⟩ h0
    else if h1 : (n + 1) % 4 = 3 then acc0_C V c ⟨n + 1, hn⟩ h0 h1 (accAt0 c n (Nat.lt_of_succ_lt hn))
    else acc0_B V c ⟨n + 1, hn⟩ h0 h1 (accAt0 c n (Nat.lt_of_succ_lt hn))

theorem accAt0_A (c : Dev nD) (t : Fin cfg0.N) (h0 : t.val % 4 = 0) : accAt0 V c t.val t.isLt = acc0_A V c t h0 := by
  obtain ⟨n, hn⟩ := t
  cases n with
  | zero => rfl
  | succ n => exact dif_pos h0
theorem accAt0_B (c : Dev nD) (t : Fin cfg0.N) (h0 : ¬t.val % 4 = 0) (h1 : ¬t.val % 4 = 3) :
    accAt0 V c t.val t.isLt = acc0_B V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt0_C (c : Dev nD) (t : Fin cfg0.N) (h0 : ¬t.val % 4 = 0) (h1 : t.val % 4 = 3) :
    accAt0 V c t.val t.isLt = acc0_C V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- What nothing reads: the output blocks' named contents at a point that does not store them. -/
def idleOut0 : Out3 F := (View.canon [], View.canon [], View.canon [])

/-- The output blocks after the body at point `t`: stored at k = 3 from what the point before left in the accumulators. -/
def outAt0 (c : Dev nD) (t : Fin cfg0.N) : Out3 F :=
  if h1 : t.val % 4 = 3 then out0_C V c t (by omega) h1 (accAt0 V c (t.val - 1) (Nat.lt_of_le_of_lt (Nat.sub_le _ _) t.isLt))
  else idleOut0
theorem outAt0_C (c : Dev nD) (t : Fin cfg0.N) (h0 : ¬t.val % 4 = 0) (h1 : t.val % 4 = 3) :
    outAt0 V c t = out0_C V c t h0 h1 (accAt0 V c (t.val - 1) (Nat.lt_of_le_of_lt (Nat.sub_le _ _) t.isLt)) := dif_pos h1

/-- The region's invariant before position `n`: the class's before the first point; afterwards the accumulators at
    what the point before left in them, beside the scoped buffers the kernel never names and the generator register. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2.1 ∗ owns (c : Thread nD τ) scM0_2 fullShare (accAt0 V c (n - 1) (by omega)).2.2.1 ∗ owns (c : Thread nD τ) scM0_3 fullShare (accAt0 V c (n - 1) (by omega)).2.2.2 ∗ otherScoped0 c) ∗ (∃ r, prngReg c r)) := by
  cases n with
  | zero => exact absurd rfl hz
  | succ n => rfl

/-- The pipeline's proof data: the arrays as the region finds them; after the body each input's buffer at its
    block, the outputs' at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outAt0 V c t).1
    | ⟨11, _⟩ => (outAt0 V c t).2.1
    | ⟨12, _⟩ => (outAt0 V c t).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outAt0 V c t).1 := by dsimp only [dat0]
theorem after0_11 (c : Dev nD) (t : Fin cfg0.N) : (dat0 V c).after 11 t = (outAt0 V c t).2.1 := by dsimp only [dat0]
theorem after0_12 (c : Dev nD) (t : Fin cfg0.N) : (dat0 V c).after 12 t = (outAt0 V c t).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) : (dat0 V c).leavesExact 5 t = owns (c : Thread nD τ) (ms0_5 t) fullShare (iblk0 V c 5 t) := by
  unfold Dat.leavesExact; rw [liveAt0_5 t, after0_5]
theorem leaves0_6 (c : Dev nD) (t : Fin cfg0.N) : (dat0 V c).leavesExact 6 t = owns (c : Thread nD τ) (ms0_6 t) fullShare (iblk0 V c 6 t) := by
  unfold Dat.leavesExact; rw [liveAt0_6 t, after0_6]
theorem leaves0_7 (c : Dev nD) (t : Fin cfg0.N) : (dat0 V c).leavesExact 7 t = owns (c : Thread nD τ) (ms0_7 t) fullShare (iblk0 V c 7 t) := by
  unfold Dat.leavesExact; rw [liveAt0_7 t, after0_7]
theorem leaves0_8 (c : Dev nD) (t : Fin cfg0.N) : (dat0 V c).leavesExact 8 t = owns (c : Thread nD τ) (ms0_8 t) fullShare (iblk0 V c 8 t) := by
  unfold Dat.leavesExact; rw [liveAt0_8 t, after0_8]
theorem leaves0_9 (c : Dev nD) (t : Fin cfg0.N) : (dat0 V c).leavesExact 9 t = owns (c : Thread nD τ) (ms0_9 t) fullShare (iblk0 V c 9 t) := by
  unfold Dat.leavesExact; rw [liveAt0_9 t, after0_9]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

set_option maxHeartbeats 16000000 in
/-- The body at any point: the inputs' buffers hold their blocks; the point's k selects the case; the invariant
    hands the body the accumulators at what the point before left (at anything before the first point) and takes
    them back at this point's contents; the output blocks are handed back as found unless k = 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9]
  have hN : t.val < 64 := lt_of_lt_of_eq t.isLt (show cfg0.N = 64 from N_0)
  by_cases h0 : t.val % 4 = 0
  · have hc1 : ¬cond0_1 (grid0.coords t) := fun h => by have := (hcond0_1 t).mp h; omega
    rw [Dat.leavesExact_idle (dat0 V c) 10 t (idleAt0_10 t hc1) (noFlush0_10 t hc1),
      Dat.leavesExact_idle (dat0 V c) 11 t (idleAt0_11 t hc1) (noFlush0_11 t hc1),
      Dat.leavesExact_idle (dat0 V c) 12 t (idleAt0_12 t hc1) (noFlush0_12 t hc1)]
    rw [accAt0_A V c t h0]
    unfold acc0_A; (try dsimp only)
    by_cases hz : t.val = 0
    · rw [PhiS0_castSucc V c t, PhiS0_zero V c _ _ hz, PhiA0_eq]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA0 V c t h0).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_A_0 c _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_A_1 c _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_A_2 c _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_A_3 c _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12
    · rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA0 V c t h0).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_A_0 c _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_A_1 c _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_A_2 c _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_A_3 c _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12
  · have hz : t.val ≠ 0 := fun h => h0 (by rw [h])
    by_cases h1 : t.val % 4 = 3
    · have hc1 : cond0_1 (grid0.coords t) := (hcond0_1 t).mpr h1
      rw [show (dat0 V c).leavesExact 10 t = owns (c : Thread nD τ) (ms0_10 t) fullShare ((dat0 V c).after 10 t) from by
          unfold Dat.leavesExact; rw [liveAt0_10 t hc1],
        show (dat0 V c).leavesExact 11 t = owns (c : Thread nD τ) (ms0_11 t) fullShare ((dat0 V c).after 11 t) from by
          unfold Dat.leavesExact; rw [liveAt0_11 t hc1],
        show (dat0 V c).leavesExact 12 t = owns (c : Thread nD τ) (ms0_12 t) fullShare ((dat0 V c).after 12 t) from by
          unfold Dat.leavesExact; rw [liveAt0_12 t hc1],
        after0_10, after0_11, after0_12]
      rw [accAt0_C V c t h0 h1, outAt0_C V c t h0 h1]
      unfold acc0_C out0_C; (try dsimp only)
      rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runC0 V c t h0 h1 _ _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_C_0 c _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_C_1 c _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_C_2 c _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_C_3 c _ _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (cover0_C_10 c _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_eq_canon _ _ _ (cover0_C_11 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_eq_canon _ _ _ (cover0_C_12 c _ _ _ _ _ _ _ _ _ _ _ _ _ _ _ _ _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 10 t (idleAt0_10 t hc1) (noFlush0_10 t hc1),
        Dat.leavesExact_idle (dat0 V c) 11 t (idleAt0_11 t hc1) (noFlush0_11 t hc1),
        Dat.leavesExact_idle (dat0 V c) 12 t (idleAt0_12 t hc1) (noFlush0_12 t hc1)]
      rw [accAt0_B V c t h0 h1]
      unfold acc0_B; (try dsimp only)
      rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB0 V c t h0 h1 _ _ _ _).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_B_0 c _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_B_1 c _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_B_2 c _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_B_3 c _ _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end Region0

end Cert.Kernel.Hand

end
-- ==== Proof.KB1Base.lean ====
/-
  The softmax kernel (the second launch) on its 16 × 4 grid: what its proof is stated over. The second grid
  coordinate k walks the four 512-wide slabs of the contraction; the row block's accumulator lives in a scratch
  buffer that is cleared at k = 0, added to at every k, and turned into the row-wise softmax at k = 3, the only
  points where the output block is stored. Here: the two conditions on the grid point in closed form, where the
  output window is idle, the staging memrefs at a point, each window's block at a point, and the region's
  invariant opened into the scratch buffer and the generator register.
-/
import proofs.«112212_j88502096101611_2_alg».proof.Proof.Gen.Kernel.Launch
import proofs.«112212_j88502096101611_2_alg».proof.Proof.Gen.Kernel.Skeleton
import proofs.«112212_j88502096101611_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- k = 0: the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- k = 3: the softmax of the finished row block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S128x2048 .f32 := (Memref.whole cc1_stg3_0 : Memref sig .tc .vmem S128x2048 .f32).view
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x2048 .f32 := Memref.whole cc1_scratch0
abbrev VS1_0 : View sig .tc .vmem S128x2048 .f32 := scM1_0.view

/-- The class invariant with the accumulator as a memref owned at some contents, beside the scoped buffers the
    kernel never names and the generator register. -/
theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.KB1RunA.lean ====
/-
  The softmax kernel's body at a grid point with k = 0: the accumulator is cleared, then the first slab's product is added. What the body's stores leave in the output block and
  in the accumulator is found by running it; the proof is the run.
-/
import proofs.«112212_j88502096101611_2_alg».proof.Proof.KB1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer and in the accumulator at such a point, with
    the body's triple over them: the input blocks are handed back as found, the idle output block too. -/
noncomputable def kernelRun1_A (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S2048x2048 .bf16) (x2 : Vec F S128x2048 .f32) :
    Σ' (L3 : List (View.Piece (Elt F) S128x2048 .f32)), { LS0 : List (View.Piece (Elt F) S128x2048 .f32) //
      ∀ (xi3 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__softmax_kernel i arg2 harg2 arg3 harg3 arg4 harg4 arg5 harg5 arg6 harg6) K } := by
  refine ⟨[], ?_, fun xi3 E K => ?run⟩
  case run =>
    simp only [cc1__softmax_kernel_eq_skeleton]; unfold cc1__softmax_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB1RunB.lean ====
/-
  The softmax kernel's body at a grid point with k = 1, 2: one more slab's product is added to the accumulator. What the body's stores leave in the output block and
  in the accumulator is found by running it; the proof is the run.
-/
import proofs.«112212_j88502096101611_2_alg».proof.Proof.KB1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer and in the accumulator at such a point, with
    the body's triple over them: the input blocks are handed back as found, the idle output block too. -/
noncomputable def kernelRun1_B (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S2048x2048 .bf16) (x2 : Vec F S128x2048 .f32) (xs0 : Vec F S128x2048 .f32) :
    Σ' (L3 : List (View.Piece (Elt F) S128x2048 .f32)), { LS0 : List (View.Piece (Elt F) S128x2048 .f32) //
      ∀ (xi3 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__softmax_kernel i arg2 harg2 arg3 harg3 arg4 harg4 arg5 harg5 arg6 harg6) K } := by
  refine ⟨[], ?_, fun xi3 E K => ?run⟩
  case run =>
    simp only [cc1__softmax_kernel_eq_skeleton]; unfold cc1__softmax_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB1RunC.lean ====
/-
  The softmax kernel's body at a grid point with k = 3: the last slab's product is added and the row-wise softmax of accumulator + bias is stored. What the body's stores leave in the output block and
  in the accumulator is found by running it; the proof is the run.
-/
import proofs.«112212_j88502096101611_2_alg».proof.Proof.KB1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer and in the accumulator at such a point, with
    the body's triple over them: the input blocks are handed back as found. -/
noncomputable def kernelRun1_C (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) :
    Σ' (L3 : List (View.Piece (Elt F) S128x2048 .f32)), { LS0 : List (View.Piece (Elt F) S128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__softmax_kernel i arg2 harg2 arg3 harg3 arg4 harg4 arg5 harg5 arg6 harg6) K } := by
  refine ⟨?_, ?_, fun E K => ?run⟩
  case run =>
    simp only [cc1__softmax_kernel_eq_skeleton]; unfold cc1__softmax_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Hand

end
-- ==== Proof.KB1Frame.lean ====
/-
  The softmax kernel's launch, point by point. After the body at grid point t = 4·i + k the accumulator holds the
  sum of the first k + 1 slab products of row block i (cleared at k = 0), and at k = 3 the output block holds the
  row-wise softmax of accumulator + bias; between the points of one row block the accumulator is carried in the
  region's invariant at exactly those contents. From this: the proof data of the pipeline (what every window's
  buffer holds after each point) and the body's obligation at every point.
-/
import proofs.«112212_j88502096101611_2_alg».proof.Proof.KB1RunA
import proofs.«112212_j88502096101611_2_alg».proof.Proof.KB1RunB
import proofs.«112212_j88502096101611_2_alg».proof.Proof.KB1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of a point with k = 0 cover the accumulator. -/
theorem scover1_A (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S2048x2048 .bf16) (x2 : Vec F S128x2048 .f32) (y : S128x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x2048.size (by sl_kernel_rfl) y
/-- The stores of a point with k = 1, 2 cover the accumulator. -/
theorem scover1_B (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S2048x2048 .bf16) (x2 : Vec F S128x2048 .f32) (xs0 : Vec F S128x2048 .f32) (y : S128x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x2048.size (by sl_kernel_rfl) y
/-- The stores of a point with k = 3 cover the accumulator, -/
theorem scover1_C (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) (y : S128x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x2048.size (by sl_kernel_rfl) y
/-- and the output block. -/
theorem cover1_C (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) (y : S128x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S128x2048.size (by sl_kernel_rfl) y

section Region1
variable (V : (c : Dev nD) → (b : Ref sig .tc) → Buf (Elt F) ((c : Thread nD τ).loc b))

/-- The accumulator after a point with k = 0. -/
def acc1_A (c : Dev nD) (t : Fin cfg1.N) (h0 : t.val % 4 = 0) : Vec F S128x2048 .f32 :=
  View.canon (kernelRun1_A c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t)).2.1
/-- The accumulator after a point with k = 1, 2, from what the point before left in it. -/
def acc1_B (c : Dev nD) (t : Fin cfg1.N) (h0 : ¬t.val % 4 = 0) (h1 : ¬t.val % 4 = 3) (xs0 : Vec F S128x2048 .f32) : Vec F S128x2048 .f32 :=
  View.canon (kernelRun1_B c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) (fun h => h1 ((hcond1_1 t).mp h)) (iblk1 V c 0 t) (iblk1 V c 1 t) (iblk1 V c 2 t) xs0).2.1
/-- The accumulator after a point with k = 3, -/
def acc1_C (c : Dev nD) (t : Fin cfg1.N) (h0 : ¬t.val % 4 = 0) (h1 : t.val % 4 = 3) (xs0 : Vec F S128x2048 .f32) : Vec F S128x2048 .f32 :=
  View.canon (kernelRun1_C c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr h1) (iblk1 V c 0 t) (iblk1 V c 1 t) (iblk1 V c 2 t) xs0).2.1
/-- and the output block there. -/
def out1_C (c : Dev nD) (t : Fin cfg1.N) (h0 : ¬t.val % 4 = 0) (h1 : t.val % 4 = 3) (xs0 : Vec F S128x2048 .f32) : Vec F S128x2048 .f32 :=
  View.canon (kernelRun1_C c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr h1) (iblk1 V c 0 t) (iblk1 V c 1 t) (iblk1 V c 2 t) xs0).1

/-- What nothing reads: the output block's named contents at a point that does not store it. -/
def idleOut1 : Vec F S128x2048 .f32 := View.canon []

/-- The output block and the accumulator after the body at position `n`, by recursion on the position: the
    accumulator restarts at every k = 0 and otherwise continues from the point before. -/
def outsAt1 (c : Dev nD) : (n : ℕ) → n < cfg1.N → Vec F S128x2048 .f32 × Vec F S128x2048 .f32
  | 0, hn => (idleOut1, acc1_A V c ⟨0, hn⟩ (Nat.zero_mod _))
  | n + 1, hn =>
    if h0 : (n + 1) % 4 = 0 then (idleOut1, acc1_A V c ⟨n + 1, hn⟩ h0)
    else if h1 : (n + 1) % 4 = 3 then
      (out1_C V c ⟨n + 1, hn⟩ h0 h1 (outsAt1 c n (Nat.lt_of_succ_lt hn)).2, acc1_C V c ⟨n + 1, hn⟩ h0 h1 (outsAt1 c n (Nat.lt_of_succ_lt hn)).2)
    else (idleOut1, acc1_B V c ⟨n + 1, hn⟩ h0 h1 (outsAt1 c n (Nat.lt_of_succ_lt hn)).2)

theorem outsAt1_A (c : Dev nD) (t : Fin cfg1.N) (h0 : t.val % 4 = 0) :
    outsAt1 V c t.val t.isLt = (idleOut1, acc1_A V c t h0) := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = (idleOut1, acc1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 4 = 0) (h1 : t.val % 4 = 3) :
    outsAt1 V c t.val t.isLt = (out1_C V c t h0 h1 (outsAt1 V c (t.val - 1) (Nat.lt_of_le_of_lt (Nat.sub_le _ _) t.isLt)).2,
      acc1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-- The region's invariant before position `n`: the class's before the first point; afterwards the accumulator at
    what the point before left in it, beside the scoped buffers the kernel never names and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The pipeline's proof data: the arrays as the region finds them; after the body each input's buffer at its
    block, the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the point's k selects the case; the invariant
    hands the body the accumulator at what the point before left (at anything before the first point) and takes it
    back at this point's contents; the output block is handed back as found unless k = 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 4 = 0
  · have hc1 : ¬cond1_1 (grid1.coords t) := fun h => by have := (hcond1_1 t).mp h; omega
    rw [Dat.leavesExact_idle (dat1 V c) 3 t (idleAt1_3 t hc1) (noFlush1_3 t hc1)]
    rw [outsAt1_A V c t h0]
    unfold acc1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C acc1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold acc1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, HR⟩, Hg⟩
  isplitl [HS0 HR]
  · isplitl [HS0]
    · iexists _; iexact HS0
    iexact HR
  iexact Hg

end Region1

end Cert.Kernel.Hand

end
-- ==== Proof.KBRun.lean ====
/-
  The whole program: three host operations (the two inputs narrowed and stacked into one matrix), the gates launch,
  the softmax launch. The unscoped buffers' contents are followed from the launch memory through the three items:
  after the host operations, after the first launch (its three result arrays at what its write-backs leave), after
  the second launch (its result array likewise). Every weakly fair execution terminates, and at the end every
  unscoped buffer holds the last of these contents; the argument arrays are among the buffers nothing writes.
-/
import proofs.«112212_j88502096101611_2_alg».proof.Proof.KB0Frame
import proofs.«112212_j88502096101611_2_alg».proof.Proof.KB1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The arguments end as launched: no host operation writes one, and a launch reads it through an input window or
    does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 5).trans (((dat0 (V1 m ρ) c).arrAt_in 5 rfl _).trans (A_eq0 (V1 m ρ) c 5))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 6).trans (((dat0 (V1 m ρ) c).arrAt_in 6 rfl _).trans (A_eq0 (V1 m ρ) c 6))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 7).trans (((dat0 (V1 m ρ) c).arrAt_in 7 rfl _).trans (A_eq0 (V1 m ρ) c 7))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 8).trans (((dat0 (V1 m ρ) c).arrAt_in 8 rfl _).trans (A_eq0 (V1 m ρ) c 8))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := (W2_arr m ρ c 3).trans (((dat0 (V1 m ρ) c).arrAt_in 3 rfl _).trans (A_eq0 (V1 m ρ) c 3))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := (W2_arr m ρ c 9).trans (((dat0 (V1 m ρ) c).arrAt_in 9 rfl _).trans (A_eq0 (V1 m ρ) c 9))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := (W3_arr m ρ c 0).trans (((dat1 (V2 m ρ) c).arrAt_in 0 rfl _).trans (A_eq1 (V2 m ρ) c 0))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := (W3_arr m ρ c 2).trans (((dat1 (V2 m ρ) c).arrAt_in 2 rfl _).trans (A_eq1 (V2 m ρ) c 2))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- The first two results are the first launch's, untouched by the second. -/
theorem W3_main_v3_0 (c : Dev nD) : W3 m ρ c (Proc.devRef .tc main_v3_0) = (dat0 (V1 m ρ) c).arrAt 10 cfg0.N :=
  (W3_of_ne m ρ c main_v3_0 (by decide)).trans (W2_arr m ρ c 10)
theorem W3_main_v3_1 (c : Dev nD) : W3 m ρ c (Proc.devRef .tc main_v3_1) = (dat0 (V1 m ρ) c).arrAt 11 cfg0.N :=
  (W3_of_ne m ρ c main_v3_1 (by decide)).trans (W2_arr m ρ c 11)
/-- The third is the second launch's. -/
theorem W3_main_v4 (c : Dev nD) : W3 m ρ c (Proc.devRef .tc main_v4) = (dat1 (V2 m ρ) c).arrAt 3 cfg1.N :=
  W3_arr m ρ c 3

abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Launch 0 over the thread state: entered from every unscoped buffer at the contents before it, left at the
    contents after it. Its arrays are split out of the unscoped buffers and put back at what the pipeline leaves;
    the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the
    contents after it. Its arrays are split out of the unscoped buffers and put back at what the pipeline leaves;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state has every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩) (run_all m ρ)

end Cert.Kernel.Hand

end
-- ==== Proof.KI0Base.lean ====
/-
  The gates kernel (the first launch) on its 16 × 4 grid: what its proof is stated over. The second grid coordinate
  k walks the four 512-wide slabs of the contraction of the four gate products; each row block's four accumulators
  live in scratch buffers that are cleared at k = 0, added to at every k, and at k = 3 combined with the biases and
  the previous cell state into the new cell state, the hidden state and its narrow copy, the only points where the
  three output blocks are stored. Here: the two conditions on the grid point in closed form, where the output
  windows are idle, the staging memrefs at a point, each window's block at a point, and the region's invariant
  opened into the four accumulators, the other scoped buffers and the generator register.
-/
import proofs.«112212_j88502096101611_2_alg».proof.Proof.Gen.KernelIdeal.Launch
import proofs.«112212_j88502096101611_2_alg».proof.Proof.Gen.KernelIdeal.Skeleton
import proofs.«112212_j88502096101611_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Region0

/-- k = 0: the accumulators are cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- k = 3: the gates are combined and the three outputs stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-! Away from k = 3 the output windows are idle and their blocks are not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
theorem liveAt0_12 : ∀ t : Fin cfg0.N, cond0_1 (grid0.coords t) → cfg0.idle 12 (grid0.coords t) = false := by decide +kernel

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x2048 .bf16 := win0_12.stage (cfg0.slots t 12)
abbrev hs0_12 (t : Fin cfg0.N) : (ms0_12 t).IsWhole := hstage0_12 ((cfg0.slots t 12).cast nbuf0_12)
/-- The accumulators: whole scoped buffers of the kernel's own. -/
abbrev scM0_0 : Memref sig .tc .vmem S128x2048 .f32 := Memref.whole cc0_scratch0
abbrev scM0_1 : Memref sig .tc .vmem S128x2048 .f32 := Memref.whole cc0_scratch1
abbrev scM0_2 : Memref sig .tc .vmem S128x2048 .f32 := Memref.whole cc0_scratch2
abbrev scM0_3 : Memref sig .tc .vmem S128x2048 .f32 := Memref.whole cc0_scratch3

/-- The scoped buffers of the core that this kernel never names: the second launch's staging buffers and scratch. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the four accumulators as memrefs owned at some contents, beside the scoped buffers
    the kernel never names and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped0 c) ∗ (∃ r, prngReg c r)) := by
  unfold Pipeline.ΦA otherScoped0; rw [scopedRest0_eq]; simp only [scM0_0, scM0_1, scM0_2, scM0_3, owns_whole]; try rfl

end Cert.KernelIdeal.Hand

end
-- ==== Proof.KI0RunA.lean ====
/-
  The gates kernel's body at a grid point with k = 0: the four accumulators are cleared, then each takes its first slab product. What the body's stores leave in the three output blocks
  and the four accumulators is found by running it; the proof is the run.
-/
import proofs.«112212_j88502096101611_2_alg».proof.Proof.KI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output blocks' buffers and in the accumulators at such a point,
    with the body's triple over them: the input blocks are handed back as found, the idle output blocks too. -/
noncomputable def kernelRun0_A (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) :
    Σ' (L10 : List (View.Piece (Elt F) S128x2048 .f32)) (L11 : List (View.Piece (Elt F) S128x2048 .f32)) (L12 : List (View.Piece (Elt F) S128x2048 .bf16)) (LS0 : List (View.Piece (Elt F) S128x2048 .f32)) (LS1 : List (View.Piece (Elt F) S128x2048 .f32)) (LS2 : List (View.Piece (Elt F) S128x2048 .f32)), { LS3 : List (View.Piece (Elt F) S128x2048 .f32) //
      ∀ (xi10 : Vec F S128x2048 .f32) (xi11 : Vec F S128x2048 .f32) (xi12 : Vec F S128x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, ?_, fun xi10 xi11 xi12 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]; · iexists _; iexact HS2
    iexists _; iexact HS3

end Cert.KernelIdeal.Hand

end
-- ==== Proof.KI0RunB.lean ====
/-
  The gates kernel's body at a grid point with k = 1, 2: each accumulator takes one more slab product. What the body's stores leave in the three output blocks
  and the four accumulators is found by running it; the proof is the run.
-/
import proofs.«112212_j88502096101611_2_alg».proof.Proof.KI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output blocks' buffers and in the accumulators at such a point,
    with the body's triple over them: the input blocks are handed back as found, the idle output blocks too. -/
noncomputable def kernelRun0_B (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    Σ' (L10 : List (View.Piece (Elt F) S128x2048 .f32)) (L11 : List (View.Piece (Elt F) S128x2048 .f32)) (L12 : List (View.Piece (Elt F) S128x2048 .bf16)) (LS0 : List (View.Piece (Elt F) S128x2048 .f32)) (LS1 : List (View.Piece (Elt F) S128x2048 .f32)) (LS2 : List (View.Piece (Elt F) S128x2048 .f32)), { LS3 : List (View.Piece (Elt F) S128x2048 .f32) //
      ∀ (xi10 : Vec F S128x2048 .f32) (xi11 : Vec F S128x2048 .f32) (xi12 : Vec F S128x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, ?_, fun xi10 xi11 xi12 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]; · iexists _; iexact HS2
    iexists _; iexact HS3

end Cert.KernelIdeal.Hand

end
-- ==== Proof.KI0RunC.lean ====
/-
  The gates kernel's body at a grid point with k = 3: each accumulator takes its last slab product, and the cell state, the hidden state and its narrow copy are computed from accumulators + biases and stored. What the body's stores leave in the three output blocks
  and the four accumulators is found by running it; the proof is the run.
-/
import proofs.«112212_j88502096101611_2_alg».proof.Proof.KI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the output blocks' buffers and in the accumulators at such a point,
    with the body's triple over them: the input blocks are handed back as found. -/
noncomputable def kernelRun0_C (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    Σ' (L10 : List (View.Piece (Elt F) S128x2048 .f32)) (L11 : List (View.Piece (Elt F) S128x2048 .f32)) (L12 : List (View.Piece (Elt F) S128x2048 .bf16)) (LS0 : List (View.Piece (Elt F) S128x2048 .f32)) (LS1 : List (View.Piece (Elt F) S128x2048 .f32)) (LS2 : List (View.Piece (Elt F) S128x2048 .f32)), { LS3 : List (View.Piece (Elt F) S128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    iexists _; iexact HS3

end Cert.KernelIdeal.Hand

end
-- ==== Proof.KI0Frame.lean ====
/-
  The gates kernel's launch, point by point. After the body at grid point t = 4·i + k each of the four accumulators
  holds the sum of the first k + 1 slab products of its gate for row block i (cleared at k = 0), and at k = 3 the
  three output blocks hold the new cell state, the hidden state and its narrow copy; between the points of one row
  block the accumulators are carried in the region's invariant at exactly those contents. From this: the proof data
  of the pipeline (what every window's buffer holds after each point) and the body's obligation at every point.
-/
import proofs.«112212_j88502096101611_2_alg».proof.Proof.KI0RunA
import proofs.«112212_j88502096101611_2_alg».proof.Proof.KI0RunB
import proofs.«112212_j88502096101611_2_alg».proof.Proof.KI0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of a point with k = 0 cover accumulator 0. -/
theorem scover0_A_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1 S128x2048.size (by sl_kernel_rfl) y
/-- The stores of a point with k = 0 cover accumulator 1. -/
theorem scover0_A_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1 S128x2048.size (by sl_kernel_rfl) y
/-- The stores of a point with k = 0 cover accumulator 2. -/
theorem scover0_A_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.1 S128x2048.size (by sl_kernel_rfl) y
/-- The stores of a point with k = 0 cover accumulator 3. -/
theorem scover0_A_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.2.1 S128x2048.size (by sl_kernel_rfl) y
/-- The stores of a point with k = 1, 2 cover accumulator 0. -/
theorem scover0_B_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1 S128x2048.size (by sl_kernel_rfl) y
/-- The stores of a point with k = 1, 2 cover accumulator 1. -/
theorem scover0_B_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1 S128x2048.size (by sl_kernel_rfl) y
/-- The stores of a point with k = 1, 2 cover accumulator 2. -/
theorem scover0_B_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1 S128x2048.size (by sl_kernel_rfl) y
/-- The stores of a point with k = 1, 2 cover accumulator 3. -/
theorem scover0_B_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1 S128x2048.size (by sl_kernel_rfl) y
/-- The stores of a point with k = 3 cover accumulator 0. -/
theorem scover0_C_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1 S128x2048.size (by sl_kernel_rfl) y
/-- The stores of a point with k = 3 cover accumulator 1. -/
theorem scover0_C_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1 S128x2048.size (by sl_kernel_rfl) y
/-- The stores of a point with k = 3 cover accumulator 2. -/
theorem scover0_C_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1 S128x2048.size (by sl_kernel_rfl) y
/-- The stores of a point with k = 3 cover accumulator 3. -/
theorem scover0_C_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1 S128x2048.size (by sl_kernel_rfl) y
/-- The stores of a point with k = 3 cover output block 10. -/
theorem cover0_C_10 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).1 S128x2048.size (by sl_kernel_rfl) y
/-- The stores of a point with k = 3 cover output block 11. -/
theorem cover0_C_11 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.1 S128x2048.size (by sl_kernel_rfl) y
/-- The stores of a point with k = 3 cover output block 12. -/
theorem cover0_C_12 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) (y : S128x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.1 S128x2048.size (by sl_kernel_rfl) y

section Region0
variable (V : (c : Dev nD) → (b : Ref sig .tc) → Buf (Elt F) ((c : Thread nD τ).loc b))

/-- The body's run at a point with k = 0, on the point's staging memrefs and input blocks. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
    ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
/-- The body's run at a point with k = 1, 2, from what the point before left in the accumulators. -/
abbrev runB0 (c : Dev nD) (t : Fin cfg0.N) (h0 : ¬t.val % 4 = 0) (h1 : ¬t.val % 4 = 3) (xs0 : Vec F S128x2048 .f32) (xs1 : Vec F S128x2048 .f32) (xs2 : Vec F S128x2048 .f32) (xs3 : Vec F S128x2048 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1 xs2 xs3
/-- The body's run at a point with k = 3. -/
abbrev runC0 (c : Dev nD) (t : Fin cfg0.N) (h0 : ¬t.val % 4 = 0) (h1 : t.val % 4 = 3) (xs0 : Vec F S128x2048 .f32) (xs1 : Vec F S128x2048 .f32) (xs2 : Vec F S128x2048 .f32) (xs3 : Vec F S128x2048 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1 xs2 xs3

/-- The four accumulators' contents. -/
abbrev Acc4 (F : FTy → Type) : Type := Vec F S128x2048 .f32 × Vec F S128x2048 .f32 × Vec F S128x2048 .f32 × Vec F S128x2048 .f32
/-- The three output blocks' contents. -/
abbrev Out3 (F : FTy → Type) : Type := Vec F S128x2048 .f32 × Vec F S128x2048 .f32 × Vec F S128x2048 .bf16

def acc0_A (c : Dev nD) (t : Fin cfg0.N) (h0 : t.val % 4 = 0) : Acc4 F :=
  (View.canon (runA0 V c t h0).2.2.2.1, View.canon (runA0 V c t h0).2.2.2.2.1, View.canon (runA0 V c t h0).2.2.2.2.2.1, View.canon (runA0 V c t h0).2.2.2.2.2.2.1)
def acc0_B (c : Dev nD) (t : Fin cfg0.N) (h0 : ¬t.val % 4 = 0) (h1 : ¬t.val % 4 = 3) (a : Acc4 F) : Acc4 F :=
  (View.canon (runB0 V c t h0 h1 a.1 a.2.1 a.2.2.1 a.2.2.2).2.2.2.1, View.canon (runB0 V c t h0 h1 a.1 a.2.1 a.2.2.1 a.2.2.2).2.2.2.2.1, View.canon (runB0 V c t h0 h1 a.1 a.2.1 a.2.2.1 a.2.2.2).2.2.2.2.2.1, View.canon (runB0 V c t h0 h1 a.1 a.2.1 a.2.2.1 a.2.2.2).2.2.2.2.2.2.1)
def acc0_C (c : Dev nD) (t : Fin cfg0.N) (h0 : ¬t.val % 4 = 0) (h1 : t.val % 4 = 3) (a : Acc4 F) : Acc4 F :=
  (View.canon (runC0 V c t h0 h1 a.1 a.2.1 a.2.2.1 a.2.2.2).2.2.2.1, View.canon (runC0 V c t h0 h1 a.1 a.2.1 a.2.2.1 a.2.2.2).2.2.2.2.1, View.canon (runC0 V c t h0 h1 a.1 a.2.1 a.2.2.1 a.2.2.2).2.2.2.2.2.1, View.canon (runC0 V c t h0 h1 a.1 a.2.1 a.2.2.1 a.2.2.2).2.2.2.2.2.2.1)
def out0_C (c : Dev nD) (t : Fin cfg0.N) (h0 : ¬t.val % 4 = 0) (h1 : t.val % 4 = 3) (a : Acc4 F) : Out3 F :=
  (View.canon (runC0 V c t h0 h1 a.1 a.2.1 a.2.2.1 a.2.2.2).1, View.canon (runC0 V c t h0 h1 a.1 a.2.1 a.2.2.1 a.2.2.2).2.1, View.canon (runC0 V c t h0 h1 a.1 a.2.1 a.2.2.1 a.2.2.2).2.2.1)

/-- The accumulators after the body at position `n`, by recursion on the position: they restart at every k = 0
    and otherwise continue from the point before. -/
def accAt0 (c : Dev nD) : (n : ℕ) → n < cfg0.N → Acc4 F
  | 0, hn => acc0_A V c ⟨0, hn⟩ (Nat.zero_mod _)
  | n + 1, hn =>
    if h0 : (n + 1) % 4 = 0 then acc0_A V c ⟨n + 1, hn⟩ h0
    else if h1 : (n + 1) % 4 = 3 then acc0_C V c ⟨n + 1, hn⟩ h0 h1 (accAt0 c n (Nat.lt_of_succ_lt hn))
    else acc0_B V c ⟨n + 1, hn⟩ h0 h1 (accAt0 c n (Nat.lt_of_succ_lt hn))

theorem accAt0_A (c : Dev nD) (t : Fin cfg0.N) (h0 : t.val % 4 = 0) : accAt0 V c t.val t.isLt = acc0_A V c t h0 := by
  obtain ⟨n, hn⟩ := t
  cases n with
  | zero => rfl
  | succ n => exact dif_pos h0
theorem accAt0_B (c : Dev nD) (t : Fin cfg0.N) (h0 : ¬t.val % 4 = 0) (h1 : ¬t.val % 4 = 3) :
    accAt0 V c t.val t.isLt = acc0_B V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt0_C (c : Dev nD) (t : Fin cfg0.N) (h0 : ¬t.val % 4 = 0) (h1 : t.val % 4 = 3) :
    accAt0 V c t.val t.isLt = acc0_C V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- What nothing reads: the output blocks' named contents at a point that does not store them. -/
def idleOut0 : Out3 F := (View.canon [], View.canon [], View.canon [])

/-- The output blocks after the body at point `t`: stored at k = 3 from what the point before left in the accumulators. -/
def outAt0 (c : Dev nD) (t : Fin cfg0.N) : Out3 F :=
  if h1 : t.val % 4 = 3 then out0_C V c t (by omega) h1 (accAt0 V c (t.val - 1) (Nat.lt_of_le_of_lt (Nat.sub_le _ _) t.isLt))
  else idleOut0
theorem outAt0_C (c : Dev nD) (t : Fin cfg0.N) (h0 : ¬t.val % 4 = 0) (h1 : t.val % 4 = 3) :
    outAt0 V c t = out0_C V c t h0 h1 (accAt0 V c (t.val - 1) (Nat.lt_of_le_of_lt (Nat.sub_le _ _) t.isLt)) := dif_pos h1

/-- The region's invariant before position `n`: the class's before the first point; afterwards the accumulators at
    what the point before left in them, beside the scoped buffers the kernel never names and the generator register. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2.1 ∗ owns (c : Thread nD τ) scM0_2 fullShare (accAt0 V c (n - 1) (by omega)).2.2.1 ∗ owns (c : Thread nD τ) scM0_3 fullShare (accAt0 V c (n - 1) (by omega)).2.2.2 ∗ otherScoped0 c) ∗ (∃ r, prngReg c r)) := by
  cases n with
  | zero => exact absurd rfl hz
  | succ n => rfl

/-- The pipeline's proof data: the arrays as the region finds them; after the body each input's buffer at its
    block, the outputs' at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outAt0 V c t).1
    | ⟨11, _⟩ => (outAt0 V c t).2.1
    | ⟨12, _⟩ => (outAt0 V c t).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outAt0 V c t).1 := by dsimp only [dat0]
theorem after0_11 (c : Dev nD) (t : Fin cfg0.N) : (dat0 V c).after 11 t = (outAt0 V c t).2.1 := by dsimp only [dat0]
theorem after0_12 (c : Dev nD) (t : Fin cfg0.N) : (dat0 V c).after 12 t = (outAt0 V c t).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) : (dat0 V c).leavesExact 5 t = owns (c : Thread nD τ) (ms0_5 t) fullShare (iblk0 V c 5 t) := by
  unfold Dat.leavesExact; rw [liveAt0_5 t, after0_5]
theorem leaves0_6 (c : Dev nD) (t : Fin cfg0.N) : (dat0 V c).leavesExact 6 t = owns (c : Thread nD τ) (ms0_6 t) fullShare (iblk0 V c 6 t) := by
  unfold Dat.leavesExact; rw [liveAt0_6 t, after0_6]
theorem leaves0_7 (c : Dev nD) (t : Fin cfg0.N) : (dat0 V c).leavesExact 7 t = owns (c : Thread nD τ) (ms0_7 t) fullShare (iblk0 V c 7 t) := by
  unfold Dat.leavesExact; rw [liveAt0_7 t, after0_7]
theorem leaves0_8 (c : Dev nD) (t : Fin cfg0.N) : (dat0 V c).leavesExact 8 t = owns (c : Thread nD τ) (ms0_8 t) fullShare (iblk0 V c 8 t) := by
  unfold Dat.leavesExact; rw [liveAt0_8 t, after0_8]
theorem leaves0_9 (c : Dev nD) (t : Fin cfg0.N) : (dat0 V c).leavesExact 9 t = owns (c : Thread nD τ) (ms0_9 t) fullShare (iblk0 V c 9 t) := by
  unfold Dat.leavesExact; rw [liveAt0_9 t, after0_9]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

set_option maxHeartbeats 16000000 in
/-- The body at any point: the inputs' buffers hold their blocks; the point's k selects the case; the invariant
    hands the body the accumulators at what the point before left (at anything before the first point) and takes
    them back at this point's contents; the output blocks are handed back as found unless k = 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9]
  have hN : t.val < 64 := lt_of_lt_of_eq t.isLt (show cfg0.N = 64 from N_0)
  by_cases h0 : t.val % 4 = 0
  · have hc1 : ¬cond0_1 (grid0.coords t) := fun h => by have := (hcond0_1 t).mp h; omega
    rw [Dat.leavesExact_idle (dat0 V c) 10 t (idleAt0_10 t hc1) (noFlush0_10 t hc1),
      Dat.leavesExact_idle (dat0 V c) 11 t (idleAt0_11 t hc1) (noFlush0_11 t hc1),
      Dat.leavesExact_idle (dat0 V c) 12 t (idleAt0_12 t hc1) (noFlush0_12 t hc1)]
    rw [accAt0_A V c t h0]
    unfold acc0_A; (try dsimp only)
    by_cases hz : t.val = 0
    · rw [PhiS0_castSucc V c t, PhiS0_zero V c _ _ hz, PhiA0_eq]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA0 V c t h0).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_A_0 c _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_A_1 c _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_A_2 c _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_A_3 c _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12
    · rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA0 V c t h0).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_A_0 c _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_A_1 c _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_A_2 c _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_A_3 c _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12
  · have hz : t.val ≠ 0 := fun h => h0 (by rw [h])
    by_cases h1 : t.val % 4 = 3
    · have hc1 : cond0_1 (grid0.coords t) := (hcond0_1 t).mpr h1
      rw [show (dat0 V c).leavesExact 10 t = owns (c : Thread nD τ) (ms0_10 t) fullShare ((dat0 V c).after 10 t) from by
          unfold Dat.leavesExact; rw [liveAt0_10 t hc1],
        show (dat0 V c).leavesExact 11 t = owns (c : Thread nD τ) (ms0_11 t) fullShare ((dat0 V c).after 11 t) from by
          unfold Dat.leavesExact; rw [liveAt0_11 t hc1],
        show (dat0 V c).leavesExact 12 t = owns (c : Thread nD τ) (ms0_12 t) fullShare ((dat0 V c).after 12 t) from by
          unfold Dat.leavesExact; rw [liveAt0_12 t hc1],
        after0_10, after0_11, after0_12]
      rw [accAt0_C V c t h0 h1, outAt0_C V c t h0 h1]
      unfold acc0_C out0_C; (try dsimp only)
      rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runC0 V c t h0 h1 _ _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_C_0 c _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_C_1 c _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_C_2 c _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_C_3 c _ _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_eq_canon _ _ _ (cover0_C_10 c _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_eq_canon _ _ _ (cover0_C_11 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_eq_canon _ _ _ (cover0_C_12 c _ _ _ _ _ _ _ _ _ _ _ _ _ _ _ _ _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 10 t (idleAt0_10 t hc1) (noFlush0_10 t hc1),
        Dat.leavesExact_idle (dat0 V c) 11 t (idleAt0_11 t hc1) (noFlush0_11 t hc1),
        Dat.leavesExact_idle (dat0 V c) 12 t (idleAt0_12 t hc1) (noFlush0_12 t hc1)]
      rw [accAt0_B V c t h0 h1]
      unfold acc0_B; (try dsimp only)
      rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB0 V c t h0 h1 _ _ _ _).2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_eq_canon _ _ _ (scover0_B_0 c _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (scover0_B_1 c _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (scover0_B_2 c _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_eq_canon _ _ _ (scover0_B_3 c _ _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end Region0

end Cert.KernelIdeal.Hand

end
-- ==== Proof.KI1Base.lean ====
/-
  The softmax kernel (the second launch) on its 16 × 4 grid: what its proof is stated over. The second grid
  coordinate k walks the four 512-wide slabs of the contraction; the row block's accumulator lives in a scratch
  buffer that is cleared at k = 0, added to at every k, and turned into the row-wise softmax at k = 3, the only
  points where the output block is stored. Here: the two conditions on the grid point in closed form, where the
  output window is idle, the staging memrefs at a point, each window's block at a point, and the region's
  invariant opened into the scratch buffer and the generator register.
-/
import proofs.«112212_j88502096101611_2_alg».proof.Proof.Gen.KernelIdeal.Launch
import proofs.«112212_j88502096101611_2_alg».proof.Proof.Gen.KernelIdeal.Skeleton
import proofs.«112212_j88502096101611_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- k = 0: the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- k = 3: the softmax of the finished row block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S128x2048 .f32 := (Memref.whole cc1_stg3_0 : Memref sig .tc .vmem S128x2048 .f32).view
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x2048 .f32 := Memref.whole cc1_scratch0
abbrev VS1_0 : View sig .tc .vmem S128x2048 .f32 := scM1_0.view

/-- The class invariant with the accumulator as a memref owned at some contents, beside the scoped buffers the
    kernel never names and the generator register. -/
theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI1RunA.lean ====
/-
  The softmax kernel's body at a grid point with k = 0: the accumulator is cleared, then the first slab's product is added. What the body's stores leave in the output block and
  in the accumulator is found by running it; the proof is the run.
-/
import proofs.«112212_j88502096101611_2_alg».proof.Proof.KI1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer and in the accumulator at such a point, with
    the body's triple over them: the input blocks are handed back as found, the idle output block too. -/
noncomputable def kernelRun1_A (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S2048x2048 .bf16) (x2 : Vec F S128x2048 .f32) :
    Σ' (L3 : List (View.Piece (Elt F) S128x2048 .f32)), { LS0 : List (View.Piece (Elt F) S128x2048 .f32) //
      ∀ (xi3 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__softmax_kernel i arg2 harg2 arg3 harg3 arg4 harg4 arg5 harg5 arg6 harg6) K } := by
  refine ⟨[], ?_, fun xi3 E K => ?run⟩
  case run =>
    simp only [cc1__softmax_kernel_eq_skeleton]; unfold cc1__softmax_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI1RunB.lean ====
/-
  The softmax kernel's body at a grid point with k = 1, 2: one more slab's product is added to the accumulator. What the body's stores leave in the output block and
  in the accumulator is found by running it; the proof is the run.
-/
import proofs.«112212_j88502096101611_2_alg».proof.Proof.KI1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer and in the accumulator at such a point, with
    the body's triple over them: the input blocks are handed back as found, the idle output block too. -/
noncomputable def kernelRun1_B (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S2048x2048 .bf16) (x2 : Vec F S128x2048 .f32) (xs0 : Vec F S128x2048 .f32) :
    Σ' (L3 : List (View.Piece (Elt F) S128x2048 .f32)), { LS0 : List (View.Piece (Elt F) S128x2048 .f32) //
      ∀ (xi3 : Vec F S128x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__softmax_kernel i arg2 harg2 arg3 harg3 arg4 harg4 arg5 harg5 arg6 harg6) K } := by
  refine ⟨[], ?_, fun xi3 E K => ?run⟩
  case run =>
    simp only [cc1__softmax_kernel_eq_skeleton]; unfold cc1__softmax_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI1RunC.lean ====
/-
  The softmax kernel's body at a grid point with k = 3: the last slab's product is added and the row-wise softmax of accumulator + bias is stored. What the body's stores leave in the output block and
  in the accumulator is found by running it; the proof is the run.
-/
import proofs.«112212_j88502096101611_2_alg».proof.Proof.KI1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's buffer and in the accumulator at such a point, with
    the body's triple over them: the input blocks are handed back as found. -/
noncomputable def kernelRun1_C (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) :
    Σ' (L3 : List (View.Piece (Elt F) S128x2048 .f32)), { LS0 : List (View.Piece (Elt F) S128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__softmax_kernel i arg2 harg2 arg3 harg3 arg4 harg4 arg5 harg5 arg6 harg6) K } := by
  refine ⟨?_, ?_, fun E K => ?run⟩
  case run =>
    simp only [cc1__softmax_kernel_eq_skeleton]; unfold cc1__softmax_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Hand

end
-- ==== Proof.KI1Frame.lean ====
/-
  The softmax kernel's launch, point by point. After the body at grid point t = 4·i + k the accumulator holds the
  sum of the first k + 1 slab products of row block i (cleared at k = 0), and at k = 3 the output block holds the
  row-wise softmax of accumulator + bias; between the points of one row block the accumulator is carried in the
  region's invariant at exactly those contents. From this: the proof data of the pipeline (what every window's
  buffer holds after each point) and the body's obligation at every point.
-/
import proofs.«112212_j88502096101611_2_alg».proof.Proof.KI1RunA
import proofs.«112212_j88502096101611_2_alg».proof.Proof.KI1RunB
import proofs.«112212_j88502096101611_2_alg».proof.Proof.KI1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of a point with k = 0 cover the accumulator. -/
theorem scover1_A (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S2048x2048 .bf16) (x2 : Vec F S128x2048 .f32) (y : S128x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x2048.size (by sl_kernel_rfl) y
/-- The stores of a point with k = 1, 2 cover the accumulator. -/
theorem scover1_B (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S2048x2048 .bf16) (x2 : Vec F S128x2048 .f32) (xs0 : Vec F S128x2048 .f32) (y : S128x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x2048.size (by sl_kernel_rfl) y
/-- The stores of a point with k = 3 cover the accumulator, -/
theorem scover1_C (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) (y : S128x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x2048.size (by sl_kernel_rfl) y
/-- and the output block. -/
theorem cover1_C (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) (y : S128x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S128x2048.size (by sl_kernel_rfl) y

section Region1
variable (V : (c : Dev nD) → (b : Ref sig .tc) → Buf (Elt F) ((c : Thread nD τ).loc b))

/-- The accumulator after a point with k = 0. -/
def acc1_A (c : Dev nD) (t : Fin cfg1.N) (h0 : t.val % 4 = 0) : Vec F S128x2048 .f32 :=
  View.canon (kernelRun1_A c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t)).2.1
/-- The accumulator after a point with k = 1, 2, from what the point before left in it. -/
def acc1_B (c : Dev nD) (t : Fin cfg1.N) (h0 : ¬t.val % 4 = 0) (h1 : ¬t.val % 4 = 3) (xs0 : Vec F S128x2048 .f32) : Vec F S128x2048 .f32 :=
  View.canon (kernelRun1_B c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) (fun h => h1 ((hcond1_1 t).mp h)) (iblk1 V c 0 t) (iblk1 V c 1 t) (iblk1 V c 2 t) xs0).2.1
/-- The accumulator after a point with k = 3, -/
def acc1_C (c : Dev nD) (t : Fin cfg1.N) (h0 : ¬t.val % 4 = 0) (h1 : t.val % 4 = 3) (xs0 : Vec F S128x2048 .f32) : Vec F S128x2048 .f32 :=
  View.canon (kernelRun1_C c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr h1) (iblk1 V c 0 t) (iblk1 V c 1 t) (iblk1 V c 2 t) xs0).2.1
/-- and the output block there. -/
def out1_C (c : Dev nD) (t : Fin cfg1.N) (h0 : ¬t.val % 4 = 0) (h1 : t.val % 4 = 3) (xs0 : Vec F S128x2048 .f32) : Vec F S128x2048 .f32 :=
  View.canon (kernelRun1_C c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr h1) (iblk1 V c 0 t) (iblk1 V c 1 t) (iblk1 V c 2 t) xs0).1

/-- What nothing reads: the output block's named contents at a point that does not store it. -/
def idleOut1 : Vec F S128x2048 .f32 := View.canon []

/-- The output block and the accumulator after the body at position `n`, by recursion on the position: the
    accumulator restarts at every k = 0 and otherwise continues from the point before. -/
def outsAt1 (c : Dev nD) : (n : ℕ) → n < cfg1.N → Vec F S128x2048 .f32 × Vec F S128x2048 .f32
  | 0, hn => (idleOut1, acc1_A V c ⟨0, hn⟩ (Nat.zero_mod _))
  | n + 1, hn =>
    if h0 : (n + 1) % 4 = 0 then (idleOut1, acc1_A V c ⟨n + 1, hn⟩ h0)
    else if h1 : (n + 1) % 4 = 3 then
      (out1_C V c ⟨n + 1, hn⟩ h0 h1 (outsAt1 c n (Nat.lt_of_succ_lt hn)).2, acc1_C V c ⟨n + 1, hn⟩ h0 h1 (outsAt1 c n (Nat.lt_of_succ_lt hn)).2)
    else (idleOut1, acc1_B V c ⟨n + 1, hn⟩ h0 h1 (outsAt1 c n (Nat.lt_of_succ_lt hn)).2)

theorem outsAt1_A (c : Dev nD) (t : Fin cfg1.N) (h0 : t.val % 4 = 0) :
    outsAt1 V c t.val t.isLt = (idleOut1, acc1_A V c t h0) := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = (idleOut1, acc1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 4 = 0) (h1 : t.val % 4 = 3) :
    outsAt1 V c t.val t.isLt = (out1_C V c t h0 h1 (outsAt1 V c (t.val - 1) (Nat.lt_of_le_of_lt (Nat.sub_le _ _) t.isLt)).2,
      acc1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-- The region's invariant before position `n`: the class's before the first point; afterwards the accumulator at
    what the point before left in it, beside the scoped buffers the kernel never names and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The pipeline's proof data: the arrays as the region finds them; after the body each input's buffer at its
    block, the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the point's k selects the case; the invariant
    hands the body the accumulator at what the point before left (at anything before the first point) and takes it
    back at this point's contents; the output block is handed back as found unless k = 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 4 = 0
  · have hc1 : ¬cond1_1 (grid1.coords t) := fun h => by have := (hcond1_1 t).mp h; omega
    rw [Dat.leavesExact_idle (dat1 V c) 3 t (idleAt1_3 t hc1) (noFlush1_3 t hc1)]
    rw [outsAt1_A V c t h0]
    unfold acc1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C acc1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold acc1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, HR⟩, Hg⟩
  isplitl [HS0 HR]
  · isplitl [HS0]
    · iexists _; iexact HS0
    iexact HR
  iexact Hg

end Region1

end Cert.KernelIdeal.Hand

end
-- ==== Proof.KIRun.lean ====
/-
  The whole program: three host operations (the two inputs narrowed and stacked into one matrix), the gates launch,
  the softmax launch. The unscoped buffers' contents are followed from the launch memory through the three items:
  after the host operations, after the first launch (its three result arrays at what its write-backs leave), after
  the second launch (its result array likewise). Every weakly fair execution terminates, and at the end every
  unscoped buffer holds the last of these contents; the argument arrays are among the buffers nothing writes.
-/
import proofs.«112212_j88502096101611_2_alg».proof.Proof.KI0Frame
import proofs.«112212_j88502096101611_2_alg».proof.Proof.KI1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The arguments end as launched: no host operation writes one, and a launch reads it through an input window or
    does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 5).trans (((dat0 (V1 m ρ) c).arrAt_in 5 rfl _).trans (A_eq0 (V1 m ρ) c 5))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 6).trans (((dat0 (V1 m ρ) c).arrAt_in 6 rfl _).trans (A_eq0 (V1 m ρ) c 6))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 7).trans (((dat0 (V1 m ρ) c).arrAt_in 7 rfl _).trans (A_eq0 (V1 m ρ) c 7))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 8).trans (((dat0 (V1 m ρ) c).arrAt_in 8 rfl _).trans (A_eq0 (V1 m ρ) c 8))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := (W2_arr m ρ c 3).trans (((dat0 (V1 m ρ) c).arrAt_in 3 rfl _).trans (A_eq0 (V1 m ρ) c 3))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := (W2_arr m ρ c 9).trans (((dat0 (V1 m ρ) c).arrAt_in 9 rfl _).trans (A_eq0 (V1 m ρ) c 9))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := (W3_arr m ρ c 0).trans (((dat1 (V2 m ρ) c).arrAt_in 0 rfl _).trans (A_eq1 (V2 m ρ) c 0))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := (W3_arr m ρ c 2).trans (((dat1 (V2 m ρ) c).arrAt_in 2 rfl _).trans (A_eq1 (V2 m ρ) c 2))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- The first two results are the first launch's, untouched by the second. -/
theorem W3_main_v3_0 (c : Dev nD) : W3 m ρ c (Proc.devRef .tc main_v3_0) = (dat0 (V1 m ρ) c).arrAt 10 cfg0.N :=
  (W3_of_ne m ρ c main_v3_0 (by decide)).trans (W2_arr m ρ c 10)
theorem W3_main_v3_1 (c : Dev nD) : W3 m ρ c (Proc.devRef .tc main_v3_1) = (dat0 (V1 m ρ) c).arrAt 11 cfg0.N :=
  (W3_of_ne m ρ c main_v3_1 (by decide)).trans (W2_arr m ρ c 11)
/-- The third is the second launch's. -/
theorem W3_main_v4 (c : Dev nD) : W3 m ρ c (Proc.devRef .tc main_v4) = (dat1 (V2 m ρ) c).arrAt 3 cfg1.N :=
  W3_arr m ρ c 3

abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Launch 0 over the thread state: entered from every unscoped buffer at the contents before it, left at the
    contents after it. Its arrays are split out of the unscoped buffers and put back at what the pipeline leaves;
    the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at the
    contents after it. Its arrays are split out of the unscoped buffers and put back at what the pipeline leaves;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state has every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩) (run_all m ρ)

end Cert.KernelIdeal.Hand

end
-- ==== Proof.Spec.lean ====
/-
  What the cell computes, entry by entry on the extended reals. With c the 2048 × 2048 matrix of the previous
  hidden state stacked on the input, each gate is a matrix product plus a bias passed through the logistic
  function or the hyperbolic tangent,

      cell   = σ(w₁c + b₁) · cell₀ + σ(w₂c + b₂) · tanh(w₃c + b₃),
      hidden = σ(w₄c + b₄) · tanh(cell),
      out    = softmax over each row of (w₅ · hidden + b₅),

  the softmax written as exp(x − row maximum) divided by the row's sum of those exponentials, the maximum taken
  as a fold of max from −∞.
-/
import Idealize.ShloMosaic.PureOps.Ideal
import Idealize.ShloMosaic.Lib.ValueIdx

noncomputable section

namespace Cert.Lstm

open Idealize.ShloMosaic Idealize.ShloMosaic.ValueIdx

/-- The shape of every full matrix here. -/
abbrev Sq : Shape := ⟨2, ![2048, 2048]⟩
/-- A 2048 × 2048 matrix of extended reals. -/
abbrev Mat : Type := Sq.Idx → EReal

/-- Entry (p, j) of w·c + b. -/
def gate (w c b : Mat) (p j : Fin 2048) : EReal :=
  (∑ l : Fin 2048, w (ix2 p l) * c (ix2 l j)) + b (ix2 p j)

/-- Entry (p, j) of the new cell state. -/
def cellE (cell0 c w1 b1 w2 b2 w3 b3 : Mat) (p j : Fin 2048) : EReal :=
  Ideal.logistic (gate w1 c b1 p j) * cell0 (ix2 p j) + Ideal.logistic (gate w2 c b2 p j) * Ideal.tanh (gate w3 c b3 p j)

/-- Entry (p, j) of the new hidden state. -/
def hiddenE (cell0 c w1 b1 w2 b2 w3 b3 w4 b4 : Mat) (p j : Fin 2048) : EReal :=
  Ideal.logistic (gate w4 c b4 p j) * Ideal.tanh (cellE cell0 c w1 b1 w2 b2 w3 b3 p j)

/-- The new cell state as a matrix. -/
def cellM (cell0 c w1 b1 w2 b2 w3 b3 : Mat) : Mat := fun i => cellE cell0 c w1 b1 w2 b2 w3 b3 (i 0) (i 1)
/-- The new hidden state as a matrix. -/
def hiddenM (cell0 c w1 b1 w2 b2 w3 b3 w4 b4 : Mat) : Mat := fun i => hiddenE cell0 c w1 b1 w2 b2 w3 b3 w4 b4 (i 0) (i 1)

/-- The maximum of row p of a matrix given by entries, as a fold of max from −∞ (the f32 word 0xFF800000). -/
def rowMax (L : Fin 2048 → Fin 2048 → EReal) (p : Fin 2048) : EReal :=
  (Finset.univ : Finset (Fin 2048)).fold max (Ideal.ofBits .f32 0xFF800000#32) (fun k => L p k)

/-- Entry (p, j) of the row-wise softmax of w·h + b. -/
def softE (w h b : Mat) (p j : Fin 2048) : EReal :=
  Ideal.div (Ideal.exp (gate w h b p j - rowMax (gate w h b) p))
    (∑ k : Fin 2048, Ideal.exp (gate w h b p k - rowMax (gate w h b) p))

/-- The row-wise softmax of w·h + b as a matrix. -/
def softM (w h b : Mat) : Mat := fun i => softE w h b (i 0) (i 1)

theorem cellM_ix2 (cell0 c w1 b1 w2 b2 w3 b3 : Mat) (p j : Fin 2048) :
    cellM cell0 c w1 b1 w2 b2 w3 b3 (ix2 p j) = cellE cell0 c w1 b1 w2 b2 w3 b3 p j := rfl
theorem hiddenM_ix2 (cell0 c w1 b1 w2 b2 w3 b3 w4 b4 : Mat) (p j : Fin 2048) :
    hiddenM cell0 c w1 b1 w2 b2 w3 b3 w4 b4 (ix2 p j) = hiddenE cell0 c w1 b1 w2 b2 w3 b3 w4 b4 p j := rfl
theorem softM_ix2 (w h b : Mat) (p j : Fin 2048) : softM w h b (ix2 p j) = softE w h b p j := rfl

end Cert.Lstm

end
-- ==== Proof.KIHost.lean ====
/-
  What the three host operations leave. They narrow the previous hidden state and the input to the 16-bit format —
  on the extended reals a change of format is the identity — and stack the two into one matrix. So, entering the
  first launch, the stacked buffer holds the concatenation of the two argument arrays themselves, and every other
  argument array is as launched, since no host operation writes one.
-/
import proofs.«112212_j88502096101611_2_alg».proof.Proof.KIRun
import proofs.«112212_j88502096101611_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! ## The stacked matrix -/

/-- Entering the first launch the stacked buffer holds the previous hidden state's rows above the input's. -/
theorem V1_v2 (m : (ℓ : Loc nD τ sig) → Buf (Elt Ideal) ℓ) (ρ : Dev nD → PrngReg) (c : Dev nD) :
    (V1 (F := Ideal) m ρ c main_v2 : Cert.Lstm.Mat)
      = concatenate S2048x2048 0 [⟨S1024x2048, m ((c : Thread nD τ).loc main_arg1)⟩, ⟨S1024x2048, m ((c : Thread nD τ).loc main_arg2)⟩]
          concatenates_S1024x2048_S1024x2048_S2048x2048_d0 := by
  show StableHlo.after hostOps0 (W0 m ρ c) (Proc.devRef .tc main_v2) = _
  after_results
  rfl

/-! ## The arguments no host operation writes -/

section
variable {F : FTy → Type} [FloatOps F] (m : (ℓ : Loc nD τ sig) → Buf (Elt F) ℓ) (ρ : Dev nD → PrngReg)

theorem V1_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg3 (c : Dev nD) : V1 m ρ c main_arg3 = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg4 (c : Dev nD) : V1 m ρ c main_arg4 = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg5 (c : Dev nD) : V1 m ρ c main_arg5 = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg6 (c : Dev nD) : V1 m ρ c main_arg6 = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg7 (c : Dev nD) : V1 m ρ c main_arg7 = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg8 (c : Dev nD) : V1 m ρ c main_arg8 = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg9 (c : Dev nD) : V1 m ρ c main_arg9 = m ((c : Thread nD τ).loc main_arg9) :=
  (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg10 (c : Dev nD) : V1 m ρ c main_arg10 = m ((c : Thread nD τ).loc main_arg10) :=
  (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg11 (c : Dev nD) : V1 m ρ c main_arg11 = m ((c : Thread nD τ).loc main_arg11) :=
  (StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg12 (c : Dev nD) : V1 m ρ c main_arg12 = m ((c : Thread nD τ).loc main_arg12) :=
  (StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

end

end Cert.KernelIdeal.Hand

end
-- ==== Proof.KI0Value.lean ====
/-
  What the gates kernel's body leaves, as values. At every point each of the four accumulators ends at
  (its contents before, or the zero block at k = 0) + its weight block times the 512-row slab of the stacked input
  the point's k selects; at k = 3 the three output blocks end at the cell state, the hidden state and its narrow
  copy computed from the finished accumulators, the bias blocks and the previous cell state's block.
-/
import proofs.«112212_j88502096101611_2_alg».proof.Proof.KI0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

/-- The 512-row slab of the stacked input that a point with second coordinate k reads: rows 512·k onwards. -/
def slab0 (i : grid0.Coords) (x4 : Vec F S2048x2048 .bf16) : Vec F S512x2048 .bf16 :=
  View.ld x4 (Rect.unit (s := S2048x2048) (k0_off1 i) S512x2048.size (k0_off1_inb i))

theorem acc0_A_val_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.1 = k0_pay11 (slab0 i x4) (k0_pay6 (F := F)) x0 := by
  unfold kernelRun0_A
  dsimp only
  sl_unfold_run_names
  rw [View.canon_cons_unit_zero (S := S128x2048) hz0, View.readCov_unit_zero (S := S128x2048) _ hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_A_val_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.1 = k0_pay12 (slab0 i x4) (k0_pay7 (F := F)) x1 := by
  unfold kernelRun0_A
  dsimp only
  sl_unfold_run_names
  rw [View.canon_cons_unit_zero (S := S128x2048) hz0, View.readCov_unit_zero (S := S128x2048) _ hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_A_val_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.1 = k0_pay1 (k0_pay13 (slab0 i x4) (k0_pay8 (F := F)) x2) := by
  unfold kernelRun0_A
  dsimp only
  sl_unfold_run_names
  rw [View.canon_cons_unit_zero (S := S128x2048) hz0, View.readCov_unit_zero (S := S128x2048) _ hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_A_val_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9).2.2.2.2.2.2.1 = k0_pay2 (k0_pay10 (slab0 i x4)) (k0_pay9 (F := F)) x3 := by
  unfold kernelRun0_A
  dsimp only
  sl_unfold_run_names
  rw [View.canon_cons_unit_zero (S := S128x2048) hz0, View.readCov_unit_zero (S := S128x2048) _ hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_B_val_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1 = k0_pay11 (slab0 i x4) xs0 x0 := by
  unfold kernelRun0_B
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_B_val_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1 = k0_pay12 (slab0 i x4) xs1 x1 := by
  unfold kernelRun0_B
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_B_val_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1 = k0_pay1 (k0_pay13 (slab0 i x4) xs2 x2) := by
  unfold kernelRun0_B
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_B_val_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1 = k0_pay2 (k0_pay10 (slab0 i x4)) xs3 x3 := by
  unfold kernelRun0_B
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_C_val_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.1 = k0_pay11 (slab0 i x4) xs0 x0 := by
  unfold kernelRun0_C
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_C_val_1 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.1 = k0_pay12 (slab0 i x4) xs1 x1 := by
  unfold kernelRun0_C
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_C_val_2 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.1 = k0_pay1 (k0_pay13 (slab0 i x4) xs2 x2) := by
  unfold kernelRun0_C
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem acc0_C_val_3 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.2.2.2.2.1 = k0_pay2 (k0_pay10 (slab0 i x4)) xs3 x3 := by
  unfold kernelRun0_C
  dsimp only
  sl_unfold_run_names
  rw [View.canon_unit_zero hz0]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem out0_C_val_10 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).1 = k0_pay3 (k0_pay11 (slab0 i x4) xs0 x0) x6 (k0_pay12 (slab0 i x4) xs1 x1) x7 (k0_pay1 (k0_pay13 (slab0 i x4) xs2 x2)) x8 x5 := by
  unfold kernelRun0_C
  dsimp only
  sl_unfold_run_names
  rw [View.canon_unit_zero hz0]
  simp only [fun (v : View sig .tc .vmem S128x2048 .f32) (w : S128x2048.Idx → Elt F .f32) => View.readCov_unit_zero (S := S128x2048) v hz0 inb_S128x2048_S128x2048_0_0 w, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem out0_C_val_11 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.1 = k0_pay4 (k0_pay11 (slab0 i x4) xs0 x0) x6 (k0_pay12 (slab0 i x4) xs1 x1) x7 (k0_pay1 (k0_pay13 (slab0 i x4) xs2 x2)) x8 (k0_pay2 (k0_pay10 (slab0 i x4)) xs3 x3) x9 x5 := by
  unfold kernelRun0_C
  dsimp only
  sl_unfold_run_names
  rw [View.canon_unit_zero hz0]
  simp only [fun (v : View sig .tc .vmem S128x2048 .f32) (w : S128x2048.Idx → Elt F .f32) => View.readCov_unit_zero (S := S128x2048) v hz0 inb_S128x2048_S128x2048_0_0 w, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl
theorem out0_C_val_12 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S2048x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .bf16) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (arg18 : Memref sig .tc .vmem S128x2048 .f32) (harg18 : arg18.IsWhole) (hc0 : ¬cond0_0 i) (hc1 : cond0_1 i)
    (x0 : Vec F S128x512 .f32) (x1 : Vec F S128x512 .f32) (x2 : Vec F S128x512 .f32) (x3 : Vec F S128x512 .f32) (x4 : Vec F S2048x2048 .bf16) (x5 : Vec F S128x2048 .f32) (x6 : Vec F S128x2048 .f32) (x7 : Vec F S128x2048 .f32) (x8 : Vec F S128x2048 .f32) (x9 : Vec F S128x2048 .f32) (xs0 : Vec F S128x2048 .f32) (xs1 : Vec F S128x2048 .f32) (xs2 : Vec F S128x2048 .f32) (xs3 : Vec F S128x2048 .f32) :
    View.canon (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3).2.2.1 = k0_pay5 (k0_pay11 (slab0 i x4) xs0 x0) x6 (k0_pay12 (slab0 i x4) xs1 x1) x7 (k0_pay1 (k0_pay13 (slab0 i x4) xs2 x2)) x8 (k0_pay2 (k0_pay10 (slab0 i x4)) xs3 x3) x9 x5 := by
  unfold kernelRun0_C
  dsimp only
  sl_unfold_run_names
  rw [View.canon_unit_zero hz0]
  simp only [fun (v : View sig .tc .vmem S128x2048 .f32) (w : S128x2048.Idx → Elt F .f32) => View.readCov_unit_zero (S := S128x2048) v hz0 inb_S128x2048_S128x2048_0_0 w, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x2048) hz0, View.ld_unit_zero (S := S128x512) hz0]
  rfl

end Cert.KernelIdeal.Hand

end
-- ==== Proof.KI0Step.lean ====
/-
  One grid point of the gates launch, as values. With S the 512-row slab of the stacked input the point selects and
  the ten input blocks at the point: at k = 0 the four accumulators end at one accumulation step from their cleared
  contents; at k ≠ 0 at one accumulation step from what the point before left; and at k = 3 the three stored blocks
  are the cell state, the hidden state and its narrow copy computed from the finished accumulators, the four bias
  blocks and the previous cell state's block.
-/
import proofs.«112212_j88502096101611_2_alg».proof.Proof.KI0Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region0
variable (V : (c : Dev nD) → (b : Ref sig .tc) → Buf (Elt F) ((c : Thread nD τ).loc b))

/-- The accumulators after a point with k = 0: one accumulation step each from the cleared contents. -/
theorem acc0_step_A (c : Dev nD) (t : Fin cfg0.N) (h0 : t.val % 4 = 0) :
    accAt0 V c t.val t.isLt
      = (k0_pay11 (slab0 (grid0.coords t) (iblk0 V c 4 t)) (k0_pay6 (F := F)) (iblk0 V c 0 t),
         k0_pay12 (slab0 (grid0.coords t) (iblk0 V c 4 t)) (k0_pay7 (F := F)) (iblk0 V c 1 t),
         k0_pay1 (k0_pay13 (slab0 (grid0.coords t) (iblk0 V c 4 t)) (k0_pay8 (F := F)) (iblk0 V c 2 t)),
         k0_pay2 (k0_pay10 (slab0 (grid0.coords t) (iblk0 V c 4 t))) (k0_pay9 (F := F)) (iblk0 V c 3 t)) := by
  rw [accAt0_A V c t h0]
  unfold acc0_A
  refine congrArg₂ Prod.mk ?_ (congrArg₂ Prod.mk ?_ (congrArg₂ Prod.mk ?_ ?_))
  · exact acc0_A_val_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  · exact acc0_A_val_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  · exact acc0_A_val_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  · exact acc0_A_val_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

/-- The accumulators after a point with k ≠ 0: one accumulation step each from what the point before left. -/
theorem acc0_step_BC (c : Dev nD) (t : Fin cfg0.N) (h0 : ¬t.val % 4 = 0) :
    accAt0 V c t.val t.isLt
      = (k0_pay11 (slab0 (grid0.coords t) (iblk0 V c 4 t)) (accAt0 V c (t.val - 1) (Nat.lt_of_le_of_lt (Nat.sub_le _ _) t.isLt)).1 (iblk0 V c 0 t),
         k0_pay12 (slab0 (grid0.coords t) (iblk0 V c 4 t)) (accAt0 V c (t.val - 1) (Nat.lt_of_le_of_lt (Nat.sub_le _ _) t.isLt)).2.1 (iblk0 V c 1 t),
         k0_pay1 (k0_pay13 (slab0 (grid0.coords t) (iblk0 V c 4 t)) (accAt0 V c (t.val - 1) (Nat.lt_of_le_of_lt (Nat.sub_le _ _) t.isLt)).2.2.1 (iblk0 V c 2 t)),
         k0_pay2 (k0_pay10 (slab0 (grid0.coords t) (iblk0 V c 4 t))) (accAt0 V c (t.val - 1) (Nat.lt_of_le_of_lt (Nat.sub_le _ _) t.isLt)).2.2.2 (iblk0 V c 3 t)) := by
  by_cases h1 : t.val % 4 = 3
  · rw [accAt0_C V c t h0 h1]
    unfold acc0_C
    refine congrArg₂ Prod.mk ?_ (congrArg₂ Prod.mk ?_ (congrArg₂ Prod.mk ?_ ?_))
    · exact acc0_C_val_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
    · exact acc0_C_val_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
    · exact acc0_C_val_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
    · exact acc0_C_val_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
  · rw [accAt0_B V c t h0 h1]
    unfold acc0_B
    refine congrArg₂ Prod.mk ?_ (congrArg₂ Prod.mk ?_ (congrArg₂ Prod.mk ?_ ?_))
    · exact acc0_B_val_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
    · exact acc0_B_val_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
    · exact acc0_B_val_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
    · exact acc0_B_val_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
        (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
        (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2

/-- The three blocks stored at a point with k = 3, from the finished accumulators, the bias blocks and the
    previous cell state's block. -/
theorem out0_step (c : Dev nD) (t : Fin cfg0.N) (h1 : t.val % 4 = 3) :
    outAt0 V c t
      = (k0_pay3 (accAt0 V c t.val t.isLt).1 (iblk0 V c 6 t) (accAt0 V c t.val t.isLt).2.1 (iblk0 V c 7 t) (accAt0 V c t.val t.isLt).2.2.1 (iblk0 V c 8 t) (iblk0 V c 5 t),
         k0_pay4 (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t),
         k0_pay5 (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t)) := by
  have h0 : ¬t.val % 4 = 0 := by omega
  rw [acc0_step_BC V c t h0, outAt0_C V c t h0 h1]
  dsimp only
  unfold out0_C
  refine congrArg₂ Prod.mk ?_ (congrArg₂ Prod.mk ?_ ?_)
  · exact out0_C_val_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
      (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
  · exact out0_C_val_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
      (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2
  · exact out0_C_val_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _)
      (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
      (accAt0 V c (t.val - 1) (Nat.lt_of_le_of_lt (Nat.sub_le _ _) t.isLt)).1 (accAt0 V c (t.val - 1) (Nat.lt_of_le_of_lt (Nat.sub_le _ _) t.isLt)).2.1 (accAt0 V c (t.val - 1) (Nat.lt_of_le_of_lt (Nat.sub_le _ _) t.isLt)).2.2.1 (accAt0 V c (t.val - 1) (Nat.lt_of_le_of_lt (Nat.sub_le _ _) t.isLt)).2.2.2

end Region0

end Cert.KernelIdeal.Hand

end
-- ==== Proof.KIIdx.lean ====
/-
  Row r of the i-th block of 128 rows, and position l of the s-th slab of 512 positions, as indices below 2048.
-/
import Mathlib.Data.Fin.Basic

namespace Cert.KernelIdeal.Hand

/-- Row r of row block i (of 128 rows). -/
def rowOf (i : ℕ) (r : Fin 128) : Fin 2048 := ⟨(128 * i + r.val) % 2048, Nat.mod_lt _ (by decide)⟩
/-- Position l of slab s (of 512 positions). -/
def colOf (s : ℕ) (l : Fin 512) : Fin 2048 := ⟨(512 * s + l.val) % 2048, Nat.mod_lt _ (by decide)⟩

theorem rowOf_val (i : ℕ) (r : Fin 128) : (rowOf i r).val = (128 * i + r.val) % 2048 := rfl
theorem colOf_val (s : ℕ) (l : Fin 512) : (colOf s l).val = (512 * s + l.val) % 2048 := rfl

end Cert.KernelIdeal.Hand
-- ==== Proof.LibRectLoad.lean ====
/-
  A load through a unit-stride rectangle, read at an index: entry y of the loaded box is the array's entry at
  offset + y, coordinate by coordinate.
-/
import Idealize.ShloMosaic.Lib.Pipeline.FrameBody

noncomputable section

namespace Idealize.ShloMosaic.View

/-- Entry `y` of a box loaded through the unit-stride rectangle at offsets `off` is the array at `k`, where `k` is
    `off + y` on every axis. -/
theorem ld_unit_at {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  show off a + 1 * (y a).val = (k a).val
  rw [hk a, Nat.one_mul]

end Idealize.ShloMosaic.View

end
-- ==== Proof.KI0Blocks.lean ====
/-
  The gates launch's input blocks read at an entry. The grid is 16 × 4 and point t is (t / 4, t % 4): row block
  t / 4 of 128 rows, slab t % 4 of 512 positions along the contraction. A weight window's block at t is the
  128 × 512 block (t / 4, t % 4) of its matrix; the stacked input is resident whole and the body reads from it the
  512 rows of slab t % 4; a bias window's block, and the previous cell state's, is the 128-row block t / 4 across all
  2048 columns; the three result windows sit at row block t / 4 likewise.
-/
import proofs.«112212_j88502096101611_2_alg».proof.Proof.KI0Value
import proofs.«112212_j88502096101611_2_alg».proof.Proof.KIIdx
import proofs.«112212_j88502096101611_2_alg».proof.Proof.LibRectLoad
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## Where the windows' blocks sit at each grid point, decided over the grid -/

/-- The four weight windows sit at block (t / 4, t % 4). -/
theorem idx0_weights : ∀ t : Fin cfg0.N, win0_0.index t 0 = t.val / 4 ∧ win0_0.index t 1 = t.val % 4
      ∧ win0_1.index t 0 = t.val / 4 ∧ win0_1.index t 1 = t.val % 4
      ∧ win0_2.index t 0 = t.val / 4 ∧ win0_2.index t 1 = t.val % 4
      ∧ win0_3.index t 0 = t.val / 4 ∧ win0_3.index t 1 = t.val % 4 :=
  (by decide +kernel : ∀ t : Fin grid0.N, _)

/-- The stacked input is one block, and the body's load from it starts at row 512 · (t % 4), column 0. -/
theorem idx0_stacked : ∀ t : Fin cfg0.N, win0_4.index t 0 = 0 ∧ win0_4.index t 1 = 0
      ∧ k0_off1 (grid0.coords t) 0 = 512 * (t.val % 4) ∧ k0_off1 (grid0.coords t) 1 = 0 :=
  (by decide +kernel : ∀ t : Fin grid0.N, _)

/-- The previous cell state's window and the four bias windows sit at row block t / 4. -/
theorem idx0_rows : ∀ t : Fin cfg0.N, win0_5.index t 0 = t.val / 4 ∧ win0_5.index t 1 = 0
      ∧ win0_6.index t 0 = t.val / 4 ∧ win0_6.index t 1 = 0
      ∧ win0_7.index t 0 = t.val / 4 ∧ win0_7.index t 1 = 0
      ∧ win0_8.index t 0 = t.val / 4 ∧ win0_8.index t 1 = 0
      ∧ win0_9.index t 0 = t.val / 4 ∧ win0_9.index t 1 = 0 :=
  (by decide +kernel : ∀ t : Fin grid0.N, _)

/-- The three result windows sit at row block t / 4. -/
theorem idx0_results : ∀ t : Fin cfg0.N, win0_10.index t 0 = t.val / 4 ∧ win0_10.index t 1 = 0
      ∧ win0_11.index t 0 = t.val / 4 ∧ win0_11.index t 1 = 0
      ∧ win0_12.index t 0 = t.val / 4 ∧ win0_12.index t 1 = 0 :=
  (by decide +kernel : ∀ t : Fin grid0.N, _)

/-- All of them together. -/
theorem idx0_facts (t : Fin cfg0.N) :
    (win0_0.index t 0 = t.val / 4 ∧ win0_0.index t 1 = t.val % 4
      ∧ win0_1.index t 0 = t.val / 4 ∧ win0_1.index t 1 = t.val % 4
      ∧ win0_2.index t 0 = t.val / 4 ∧ win0_2.index t 1 = t.val % 4
      ∧ win0_3.index t 0 = t.val / 4 ∧ win0_3.index t 1 = t.val % 4)
    ∧ (win0_4.index t 0 = 0 ∧ win0_4.index t 1 = 0
      ∧ k0_off1 (grid0.coords t) 0 = 512 * (t.val % 4) ∧ k0_off1 (grid0.coords t) 1 = 0)
    ∧ (win0_5.index t 0 = t.val / 4 ∧ win0_5.index t 1 = 0
      ∧ win0_6.index t 0 = t.val / 4 ∧ win0_6.index t 1 = 0
      ∧ win0_7.index t 0 = t.val / 4 ∧ win0_7.index t 1 = 0
      ∧ win0_8.index t 0 = t.val / 4 ∧ win0_8.index t 1 = 0
      ∧ win0_9.index t 0 = t.val / 4 ∧ win0_9.index t 1 = 0)
    ∧ (win0_10.index t 0 = t.val / 4 ∧ win0_10.index t 1 = 0
      ∧ win0_11.index t 0 = t.val / 4 ∧ win0_11.index t 1 = 0
      ∧ win0_12.index t 0 = t.val / 4 ∧ win0_12.index t 1 = 0) :=
  ⟨idx0_weights t, idx0_stacked t, idx0_rows t, idx0_results t⟩

section Region0
variable (V : (c : Dev nD) → (b : Ref sig .tc) → Buf (Elt Ideal) ((c : Thread nD τ).loc b))

/-! ## The weight blocks -/

/-- The first gate's weight block at point t, entry (r, l): the matrix at row r of row block t / 4, position l of slab t % 4. -/
theorem iblk0_0_apply (c : Dev nD) (t : Fin cfg0.N) (r : Fin 128) (l : Fin 512) :
    (iblk0 V c 0 t : Vec Ideal S128x512 .f32) (ix2 r l)
      = (V c main_arg3 : S2048x2048.Idx → EReal) (ix2 (rowOf (t.val / 4) r) (colOf (t.val % 4) l)) := by
  have hN : t.val < 64 := lt_of_lt_of_eq t.isLt (show cfg0.N = 64 from N_0)
  obtain ⟨h0, h1, -⟩ := idx0_weights t
  unfold iblk0
  rw [View.read_apply]
  show (V c main_arg3 : S2048x2048.Idx → EReal) _ = _
  refine congrArg _ (funext fun a => Fin.ext ?_)
  match a with
  | ⟨0, _⟩ => show win0_0.index t 0 * 128 + 1 * r.val = (128 * (t.val / 4) + r.val) % 2048; rw [h0]; have := r.isLt; omega
  | ⟨1, _⟩ => show win0_0.index t 1 * 512 + 1 * l.val = (512 * (t.val % 4) + l.val) % 2048; rw [h1]; have := l.isLt; omega

/-- The second gate's weight block at point t, entry (r, l): the matrix at row r of row block t / 4, position l of slab t % 4. -/
theorem iblk0_1_apply (c : Dev nD) (t : Fin cfg0.N) (r : Fin 128) (l : Fin 512) :
    (iblk0 V c 1 t : Vec Ideal S128x512 .f32) (ix2 r l)
      = (V c main_arg5 : S2048x2048.Idx → EReal) (ix2 (rowOf (t.val / 4) r) (colOf (t.val % 4) l)) := by
  have hN : t.val < 64 := lt_of_lt_of_eq t.isLt (show cfg0.N = 64 from N_0)
  obtain ⟨-, -, h0, h1, -⟩ := idx0_weights t
  unfold iblk0
  rw [View.read_apply]
  show (V c main_arg5 : S2048x2048.Idx → EReal) _ = _
  refine congrArg _ (funext fun a => Fin.ext ?_)
  match a with
  | ⟨0, _⟩ => show win0_1.index t 0 * 128 + 1 * r.val = (128 * (t.val / 4) + r.val) % 2048; rw [h0]; have := r.isLt; omega
  | ⟨1, _⟩ => show win0_1.index t 1 * 512 + 1 * l.val = (512 * (t.val % 4) + l.val) % 2048; rw [h1]; have := l.isLt; omega

/-- The third gate's weight block at point t, entry (r, l): the matrix at row r of row block t / 4, position l of slab t % 4. -/
theorem iblk0_2_apply (c : Dev nD) (t : Fin cfg0.N) (r : Fin 128) (l : Fin 512) :
    (iblk0 V c 2 t : Vec Ideal S128x512 .f32) (ix2 r l)
      = (V c main_arg7 : S2048x2048.Idx → EReal) (ix2 (rowOf (t.val / 4) r) (colOf (t.val % 4) l)) := by
  have hN : t.val < 64 := lt_of_lt_of_eq t.isLt (show cfg0.N = 64 from N_0)
  obtain ⟨-, -, -, -, h0, h1, -⟩ := idx0_weights t
  unfold iblk0
  rw [View.read_apply]
  show (V c main_arg7 : S2048x2048.Idx → EReal) _ = _
  refine congrArg _ (funext fun a => Fin.ext ?_)
  match a with
  | ⟨0, _⟩ => show win0_2.index t 0 * 128 + 1 * r.val = (128 * (t.val / 4) + r.val) % 2048; rw [h0]; have := r.isLt; omega
  | ⟨1, _⟩ => show win0_2.index t 1 * 512 + 1 * l.val = (512 * (t.val % 4) + l.val) % 2048; rw [h1]; have := l.isLt; omega

/-- The fourth gate's weight block at point t, entry (r, l): the matrix at row r of row block t / 4, position l of slab t % 4. -/
theorem iblk0_3_apply (c : Dev nD) (t : Fin cfg0.N) (r : Fin 128) (l : Fin 512) :
    (iblk0 V c 3 t : Vec Ideal S128x512 .f32) (ix2 r l)
      = (V c main_arg9 : S2048x2048.Idx → EReal) (ix2 (rowOf (t.val / 4) r) (colOf (t.val % 4) l)) := by
  have hN : t.val < 64 := lt_of_lt_of_eq t.isLt (show cfg0.N = 64 from N_0)
  obtain ⟨-, -, -, -, -, -, h0, h1⟩ := idx0_weights t
  unfold iblk0
  rw [View.read_apply]
  show (V c main_arg9 : S2048x2048.Idx → EReal) _ = _
  refine congrArg _ (funext fun a => Fin.ext ?_)
  match a with
  | ⟨0, _⟩ => show win0_3.index t 0 * 128 + 1 * r.val = (128 * (t.val / 4) + r.val) % 2048; rw [h0]; have := r.isLt; omega
  | ⟨1, _⟩ => show win0_3.index t 1 * 512 + 1 * l.val = (512 * (t.val % 4) + l.val) % 2048; rw [h1]; have := l.isLt; omega

/-! ## The slab of the stacked input -/

/-- The slab of the resident stacked input that point t reads, entry (l, j): the stacked input at position l of
    slab t % 4, column j. -/
theorem slab0_apply (c : Dev nD) (t : Fin cfg0.N) (l : Fin 512) (j : Fin 2048) :
    (slab0 (grid0.coords t) (iblk0 V c 4 t) : Vec Ideal S512x2048 .bf16) (ix2 l j)
      = (V c main_v2 : S2048x2048.Idx → EReal) (ix2 (colOf (t.val % 4) l) j) := by
  have hN : t.val < 64 := lt_of_lt_of_eq t.isLt (show cfg0.N = 64 from N_0)
  obtain ⟨h0, h1, ho0, ho1⟩ := idx0_stacked t
  unfold slab0
  refine (View.ld_unit_at (iblk0 V c 4 t : Vec Ideal S2048x2048 .bf16) (k0_off1 (grid0.coords t)) S512x2048.size
    (k0_off1_inb (grid0.coords t)) (ix2 l j) (ix2 (colOf (t.val % 4) l) j) ?_).trans ?_
  · intro a
    match a with
    | ⟨0, _⟩ => show (512 * (t.val % 4) + l.val) % 2048 = k0_off1 (grid0.coords t) 0 + l.val; rw [ho0]; have := l.isLt; omega
    | ⟨1, _⟩ => show j.val = k0_off1 (grid0.coords t) 1 + j.val; rw [ho1]; omega
  · unfold iblk0
    rw [View.read_apply]
    show (V c main_v2 : S2048x2048.Idx → EReal) _ = _
    refine congrArg _ (funext fun a => Fin.ext ?_)
    match a with
    | ⟨0, _⟩ => show win0_4.index t 0 * 2048 + 1 * ((512 * (t.val % 4) + l.val) % 2048) = (512 * (t.val % 4) + l.val) % 2048; rw [h0]; omega
    | ⟨1, _⟩ => show win0_4.index t 1 * 2048 + 1 * j.val = j.val; rw [h1]; omega

/-! ## The row blocks -/

/-- The previous cell state block at point t, entry (r, j): the matrix at row r of row block t / 4, column j. -/
theorem iblk0_5_apply (c : Dev nD) (t : Fin cfg0.N) (r : Fin 128) (j : Fin 2048) :
    (iblk0 V c 5 t : Vec Ideal S128x2048 .f32) (ix2 r j)
      = (V c main_arg0 : S2048x2048.Idx → EReal) (ix2 (rowOf (t.val / 4) r) j) := by
  have hN : t.val < 64 := lt_of_lt_of_eq t.isLt (show cfg0.N = 64 from N_0)
  obtain ⟨h0, h1, -⟩ := idx0_rows t
  unfold iblk0
  rw [View.read_apply]
  show (V c main_arg0 : S2048x2048.Idx → EReal) _ = _
  refine congrArg _ (funext fun a => Fin.ext ?_)
  match a with
  | ⟨0, _⟩ => show win0_5.index t 0 * 128 + 1 * r.val = (128 * (t.val / 4) + r.val) % 2048; rw [h0]; have := r.isLt; omega
  | ⟨1, _⟩ => show win0_5.index t 1 * 2048 + 1 * j.val = j.val; rw [h1]; omega

/-- The first gate's bias block at point t, entry (r, j): the matrix at row r of row block t / 4, column j. -/
theorem iblk0_6_apply (c : Dev nD) (t : Fin cfg0.N) (r : Fin 128) (j : Fin 2048) :
    (iblk0 V c 6 t : Vec Ideal S128x2048 .f32) (ix2 r j)
      = (V c main_arg4 : S2048x2048.Idx → EReal) (ix2 (rowOf (t.val / 4) r) j) := by
  have hN : t.val < 64 := lt_of_lt_of_eq t.isLt (show cfg0.N = 64 from N_0)
  obtain ⟨-, -, h0, h1, -⟩ := idx0_rows t
  unfold iblk0
  rw [View.read_apply]
  show (V c main_arg4 : S2048x2048.Idx → EReal) _ = _
  refine congrArg _ (funext fun a => Fin.ext ?_)
  match a with
  | ⟨0, _⟩ => show win0_6.index t 0 * 128 + 1 * r.val = (128 * (t.val / 4) + r.val) % 2048; rw [h0]; have := r.isLt; omega
  | ⟨1, _⟩ => show win0_6.index t 1 * 2048 + 1 * j.val = j.val; rw [h1]; omega

/-- The second gate's bias block at point t, entry (r, j): the matrix at row r of row block t / 4, column j. -/
theorem iblk0_7_apply (c : Dev nD) (t : Fin cfg0.N) (r : Fin 128) (j : Fin 2048) :
    (iblk0 V c 7 t : Vec Ideal S128x2048 .f32) (ix2 r j)
      = (V c main_arg6 : S2048x2048.Idx → EReal) (ix2 (rowOf (t.val / 4) r) j) := by
  have hN : t.val < 64 := lt_of_lt_of_eq t.isLt (show cfg0.N = 64 from N_0)
  obtain ⟨-, -, -, -, h0, h1, -⟩ := idx0_rows t
  unfold iblk0
  rw [View.read_apply]
  show (V c main_arg6 : S2048x2048.Idx → EReal) _ = _
  refine congrArg _ (funext fun a => Fin.ext ?_)
  match a with
  | ⟨0, _⟩ => show win0_7.index t 0 * 128 + 1 * r.val = (128 * (t.val / 4) + r.val) % 2048; rw [h0]; have := r.isLt; omega
  | ⟨1, _⟩ => show win0_7.index t 1 * 2048 + 1 * j.val = j.val; rw [h1]; omega

/-- The third gate's bias block at point t, entry (r, j): the matrix at row r of row block t / 4, column j. -/
theorem iblk0_8_apply (c : Dev nD) (t : Fin cfg0.N) (r : Fin 128) (j : Fin 2048) :
    (iblk0 V c 8 t : Vec Ideal S128x2048 .f32) (ix2 r j)
      = (V c main_arg8 : S2048x2048.Idx → EReal) (ix2 (rowOf (t.val / 4) r) j) := by
  have hN : t.val < 64 := lt_of_lt_of_eq t.isLt (show cfg0.N = 64 from N_0)
  obtain ⟨-, -, -, -, -, -, h0, h1, -⟩ := idx0_rows t
  unfold iblk0
  rw [View.read_apply]
  show (V c main_arg8 : S2048x2048.Idx → EReal) _ = _
  refine congrArg _ (funext fun a => Fin.ext ?_)
  match a with
  | ⟨0, _⟩ => show win0_8.index t 0 * 128 + 1 * r.val = (128 * (t.val / 4) + r.val) % 2048; rw [h0]; have := r.isLt; omega
  | ⟨1, _⟩ => show win0_8.index t 1 * 2048 + 1 * j.val = j.val; rw [h1]; omega

/-- The fourth gate's bias block at point t, entry (r, j): the matrix at row r of row block t / 4, column j. -/
theorem iblk0_9_apply (c : Dev nD) (t : Fin cfg0.N) (r : Fin 128) (j : Fin 2048) :
    (iblk0 V c 9 t : Vec Ideal S128x2048 .f32) (ix2 r j)
      = (V c main_arg10 : S2048x2048.Idx → EReal) (ix2 (rowOf (t.val / 4) r) j) := by
  have hN : t.val < 64 := lt_of_lt_of_eq t.isLt (show cfg0.N = 64 from N_0)
  obtain ⟨-, -, -, -, -, -, -, -, h0, h1⟩ := idx0_rows t
  unfold iblk0
  rw [View.read_apply]
  show (V c main_arg10 : S2048x2048.Idx → EReal) _ = _
  refine congrArg _ (funext fun a => Fin.ext ?_)
  match a with
  | ⟨0, _⟩ => show win0_9.index t 0 * 128 + 1 * r.val = (128 * (t.val / 4) + r.val) % 2048; rw [h0]; have := r.isLt; omega
  | ⟨1, _⟩ => show win0_9.index t 1 * 2048 + 1 * j.val = j.val; rw [h1]; omega

end Region0

end Cert.KernelIdeal.Hand

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KIPay.lean ====
/-
  The kernels' arithmetic read at one entry on the extended reals.

  * One accumulation step: the accumulator's entry plus the 512-term dot product of the weight block's row with
    the slab's column (a narrowing of the weights is the identity here, and a product into the zero accumulator is
    the plain sum).
  * The gates: the cell state's entry σ(a₁ + b₁)·c₀ + σ(a₂ + b₂)·tanh(a₃ + b₃) and the hidden state's
    σ(a₄ + b₄)·tanh(cell), from the four accumulators' and biases' entries.
  * The softmax of a block's row: exp(x − row maximum) over the row's sum of such exponentials, the maximum a fold
    of max from −∞ over the row and the column forms of the two row reductions read at coordinates.
-/
import proofs.«112212_j88502096101611_2_alg».proof.Proof.Gen.KernelIdeal.Skeleton
import proofs.«112212_j88502096101611_2_alg».proof.Proof.LibPlainDot
import proofs.«112212_j88502096101611_2_alg».proof.Proof.LibKeepdims
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx Idealize.ShloMosaic.ValueKeepdims

/-- A weight block times a slab into the zero accumulator, at entry (r, j): the 512-term dot product. -/
theorem prod_apply (wb : Vec Ideal S128x512 .f32) (sl : FVec Ideal S512x2048 .bf16) (r : Fin 128) (j : Fin 2048) :
    matmul dot_S128x512_S512x2048_S128x2048_1_0_0_1_n_n none (truncf .bf16 wb bitsLt_bf16_f32 : FVec Ideal S128x512 .bf16) sl
        (constant (F := Ideal) S128x2048 .f32 0x00000000#32) (ix2 r j)
      = ∑ l : Fin 512, wb (ix2 r l) * sl (ix2 l j) :=
  Cert.Lib.PlainDot.matmul_zero_apply (M := 128) (K := 512) (N := 2048) none (truncf .bf16 wb bitsLt_bf16_f32 : FVec Ideal S128x512 .bf16) sl r j

/-- The softmax kernel's accumulation step at an entry. -/
theorem k1_pay2_apply (sl : Vec Ideal S512x2048 .bf16) (a : Vec Ideal S128x2048 .f32) (wb : Vec Ideal S128x512 .f32) (r : Fin 128) (j : Fin 2048) :
    k1_pay2 (F := Ideal) sl a wb (ix2 r j) = a (ix2 r j) + ∑ l : Fin 512, wb (ix2 r l) * sl (ix2 l j) := by
  unfold k1_pay2
  simp only [shapeCast_self]
  exact congrArg (a (ix2 r j) + ·) (prod_apply wb sl r j)

/-- The gates kernel's four accumulation steps at an entry. -/
theorem k0_pay11_apply (sl : Vec Ideal S512x2048 .bf16) (a : Vec Ideal S128x2048 .f32) (wb : Vec Ideal S128x512 .f32) (r : Fin 128) (j : Fin 2048) :
    k0_pay11 (F := Ideal) sl a wb (ix2 r j) = a (ix2 r j) + ∑ l : Fin 512, wb (ix2 r l) * sl (ix2 l j) := by
  unfold k0_pay11 k0_pay10
  simp only [shapeCast_self]
  exact congrArg (a (ix2 r j) + ·) (prod_apply wb sl r j)
theorem k0_pay12_apply (sl : Vec Ideal S512x2048 .bf16) (a : Vec Ideal S128x2048 .f32) (wb : Vec Ideal S128x512 .f32) (r : Fin 128) (j : Fin 2048) :
    k0_pay12 (F := Ideal) sl a wb (ix2 r j) = a (ix2 r j) + ∑ l : Fin 512, wb (ix2 r l) * sl (ix2 l j) := by
  unfold k0_pay12 k0_pay10
  simp only [shapeCast_self]
  exact congrArg (a (ix2 r j) + ·) (prod_apply wb sl r j)
theorem k0_pay13_apply (sl : Vec Ideal S512x2048 .bf16) (a : Vec Ideal S128x2048 .f32) (wb : Vec Ideal S128x512 .f32) (r : Fin 128) (j : Fin 2048) :
    k0_pay1 (F := Ideal) (k0_pay13 sl a wb) (ix2 r j) = a (ix2 r j) + ∑ l : Fin 512, wb (ix2 r l) * sl (ix2 l j) := by
  unfold k0_pay1 k0_pay13 k0_pay10
  simp only [shapeCast_self]
  exact congrArg (a (ix2 r j) + ·) (prod_apply wb sl r j)
theorem k0_pay2_apply (sl : Vec Ideal S512x2048 .bf16) (a : Vec Ideal S128x2048 .f32) (wb : Vec Ideal S128x512 .f32) (r : Fin 128) (j : Fin 2048) :
    k0_pay2 (F := Ideal) (k0_pay10 sl) a wb (ix2 r j) = a (ix2 r j) + ∑ l : Fin 512, wb (ix2 r l) * sl (ix2 l j) := by
  unfold k0_pay2 k0_pay10
  simp only [shapeCast_self]
  exact congrArg (a (ix2 r j) + ·) (prod_apply wb sl r j)

/-- The cleared accumulator is zero at every entry. -/
theorem zero_apply (i : S128x2048.Idx) : (k1_pay1 (F := Ideal)) i = 0 := by
  unfold k1_pay1; simp only [shapeCast_self]; exact Ideal.ofBits_zero_f32
theorem zero6_apply (i : S128x2048.Idx) : (k0_pay6 (F := Ideal)) i = 0 := by
  unfold k0_pay6; simp only [shapeCast_self]; exact Ideal.ofBits_zero_f32
theorem zero7_apply (i : S128x2048.Idx) : (k0_pay7 (F := Ideal)) i = 0 := by
  unfold k0_pay7; simp only [shapeCast_self]; exact Ideal.ofBits_zero_f32
theorem zero8_apply (i : S128x2048.Idx) : (k0_pay8 (F := Ideal)) i = 0 := by
  unfold k0_pay8; simp only [shapeCast_self]; exact Ideal.ofBits_zero_f32
theorem zero9_apply (i : S128x2048.Idx) : (k0_pay9 (F := Ideal)) i = 0 := by
  unfold k0_pay9; simp only [shapeCast_self]; exact Ideal.ofBits_zero_f32

/-- The cell state at an entry. -/
theorem k0_pay3_apply (a1 b1 a2 b2 a3 b3 c0 : Vec Ideal S128x2048 .f32) (i : S128x2048.Idx) :
    k0_pay3 (F := Ideal) a1 b1 a2 b2 a3 b3 c0 i
      = Ideal.logistic (a1 i + b1 i) * c0 i + Ideal.logistic (a2 i + b2 i) * Ideal.tanh (a3 i + b3 i) := rfl
/-- The hidden state at an entry, and its narrow copy. -/
theorem k0_pay4_apply (a1 b1 a2 b2 a3 b3 a4 b4 c0 : Vec Ideal S128x2048 .f32) (i : S128x2048.Idx) :
    k0_pay4 (F := Ideal) a1 b1 a2 b2 a3 b3 a4 b4 c0 i
      = Ideal.logistic (a4 i + b4 i) * Ideal.tanh (Ideal.logistic (a1 i + b1 i) * c0 i + Ideal.logistic (a2 i + b2 i) * Ideal.tanh (a3 i + b3 i)) := rfl
theorem k0_pay5_apply (a1 b1 a2 b2 a3 b3 a4 b4 c0 : Vec Ideal S128x2048 .f32) (i : S128x2048.Idx) :
    k0_pay5 (F := Ideal) a1 b1 a2 b2 a3 b3 a4 b4 c0 i = k0_pay4 (F := Ideal) a1 b1 a2 b2 a3 b3 a4 b4 c0 i := rfl

/-- The row maximum of a block's sum a + b, kept as a column and spread back over the row, at entry (r, k). -/
theorem rowmax_apply (x : FVec Ideal S128x2048 .f32) (r : Fin 128) (k : Fin 2048) :
    broadcastTo S128x2048 (shapeCast S128x1 (multiReduction (F := Ideal) .maximumf [1] S128 x 0xFF800000#32 reduces_S128x2048_S128 (.inl rfl) rfl) shapeCasts_S128_S128x1) broadcasts_S128x1_S128x2048 (ix2 r k)
      = (Finset.univ : Finset (Fin 2048)).fold max (Ideal.ofBits .f32 0xFF800000#32) (fun k' => x (ix2 r k')) :=
  (broadcastTo_a1_ab_apply (a := 128) (b := 2048) _ broadcasts_S128x1_S128x2048 r k).trans <|
    (shapeCast_a_a1_apply (a := 128) _ shapeCasts_S128_S128x1 r (0 : Fin 1)).trans <|
      multiReduction_maximumf_row (a := 128) (b := 2048) x 0xFF800000#32 reduces_S128x2048_S128 (.inl rfl) rfl r

/-- The row sum of a block, kept as a column and spread back over the row, at entry (r, k). -/
theorem rowsum_apply (x : FVec Ideal S128x2048 .f32) (r : Fin 128) (k : Fin 2048) :
    broadcastTo S128x2048 (shapeCast S128x1 (multiReduction (F := Ideal) .add [1] S128 x 0x00000000#32 reduces_S128x2048_S128 (.inl rfl) rfl) shapeCasts_S128_S128x1) broadcasts_S128x1_S128x2048 (ix2 r k)
      = ∑ k' : Fin 2048, x (ix2 r k') :=
  (broadcastTo_a1_ab_apply (a := 128) (b := 2048) _ broadcasts_S128x1_S128x2048 r k).trans <|
    (shapeCast_a_a1_apply (a := 128) _ shapeCasts_S128_S128x1 r (0 : Fin 1)).trans <|
      multiReduction_add_row (a := 128) (b := 2048) x 0x00000000#32 reduces_S128x2048_S128 (.inl rfl) rfl r

/-- The softmax of a block at entry (r, j). -/
theorem k1_pay3_apply (a b : FVec Ideal S128x2048 .f32) (r : Fin 128) (j : Fin 2048) :
    k1_pay3 (F := Ideal) a b (ix2 r j)
      = Ideal.div (Ideal.exp ((a (ix2 r j) + b (ix2 r j)) - (Finset.univ : Finset (Fin 2048)).fold max (Ideal.ofBits .f32 0xFF800000#32) (fun k => a (ix2 r k) + b (ix2 r k))))
          (∑ k : Fin 2048, Ideal.exp ((a (ix2 r k) + b (ix2 r k)) - (Finset.univ : Finset (Fin 2048)).fold max (Ideal.ofBits .f32 0xFF800000#32) (fun k' => a (ix2 r k') + b (ix2 r k')))) := by
  have hexp : ∀ k : Fin 2048, exp (F := Ideal) (subf (addf a b) (broadcastTo S128x2048 (shapeCast S128x1 (multiReduction (F := Ideal) .maximumf [1] S128 (addf a b) 0xFF800000#32 reduces_S128x2048_S128 (.inl rfl) rfl) shapeCasts_S128_S128x1) broadcasts_S128x1_S128x2048)) (ix2 r k)
      = Ideal.exp ((a (ix2 r k) + b (ix2 r k)) - (Finset.univ : Finset (Fin 2048)).fold max (Ideal.ofBits .f32 0xFF800000#32) (fun k' => a (ix2 r k') + b (ix2 r k'))) := fun k =>
    congrArg (fun z => Ideal.exp ((a (ix2 r k) + b (ix2 r k)) - z)) (rowmax_apply (addf a b) r k)
  unfold k1_pay3
  refine (divf_apply _ _ (ix2 r j)).trans ?_
  refine congrArg₂ Ideal.div (hexp j) ?_
  refine (rowsum_apply _ r j).trans ?_
  exact Finset.sum_congr rfl fun k _ => hexp k

end Cert.KernelIdeal.Pay

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.KI0Final.lean ====
/-
  The gates launch's three result arrays on the extended reals. Row block i of each result is stored at the grid
  point (i, 3); by then each of the four accumulators holds the four slab products of its gate's weight row block
  with the stacked input, which sum to the full 2048-term products; with the bias blocks these are the four gates'
  entries, and the stored blocks are the cell state σ(g₁)·cell₀ + σ(g₂)·tanh(g₃), the hidden state σ(g₄)·tanh(cell)
  and the hidden state once more in the narrow format, which on the extended reals is the same matrix. Block by
  block the three arrays are therefore the specification's cell and hidden matrices.
-/
import proofs.«112212_j88502096101611_2_alg».proof.Proof.KI0Step
import proofs.«112212_j88502096101611_2_alg».proof.Proof.KI0Blocks
import proofs.«112212_j88502096101611_2_alg».proof.Proof.KIPay
import proofs.«112212_j88502096101611_2_alg».proof.Proof.LibBlockSum
import proofs.«112212_j88502096101611_2_alg».proof.Proof.Spec
import proofs.«112212_j88502096101611_2_alg».proof.Proof.KIIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## Sums that restart every fourth step -/

/-- A quantity that at every position ≡ 0 (mod 4) is that position's term, and at every other position is its value
    at the position before plus that position's term, is at position n the sum of the terms of the positions
    4·(n / 4) … n: the terms 0 … n % 4 of group n / 4. -/
theorem sum_restart {β : Type} [AddCommMonoid β] (N : ℕ) (f : (n : ℕ) → n < N → β) (part : ℕ → ℕ → β)
    (hA : ∀ (n : ℕ) (h : n < N), n % 4 = 0 → f n h = part (n / 4) (n % 4))
    (hB : ∀ (n : ℕ) (h : n + 1 < N), ¬(n + 1) % 4 = 0 →
      f (n + 1) h = f n (Nat.lt_of_succ_lt h) + part ((n + 1) / 4) ((n + 1) % 4)) :
    ∀ (n : ℕ) (h : n < N), f n h = ∑ s ∈ Finset.range (n % 4 + 1), part (n / 4) s
  | 0, h => by
    rw [hA 0 h rfl]
    show part (0 / 4) (0 % 4) = ∑ s ∈ Finset.range 1, part (0 / 4) s
    rw [Finset.sum_range_one]
  | n + 1, h => by
    by_cases h0 : (n + 1) % 4 = 0
    · rw [hA (n + 1) h h0, h0, Finset.sum_range_one]
    · rw [hB n h h0, sum_restart N f part hA hB n (Nat.lt_of_succ_lt h)]
      have e1 : (n + 1) / 4 = n / 4 := by omega
      have e2 : (n + 1) % 4 = n % 4 + 1 := by omega
      rw [e1, e2]
      exact (Finset.sum_range_succ (fun s => part (n / 4) s) (n % 4 + 1)).symm

/-! ## One slab's share of a product -/

/-- One slab's contribution to entry (r, j) of row block i of W · X: its 512-term partial product. -/
def part0 (W X : Cert.Lstm.Mat) (i s : ℕ) (r : Fin 128) (j : Fin 2048) : EReal :=
  ∑ l : Fin 512, W (ix2 (rowOf i r) (colOf s l)) * X (ix2 (colOf s l) j)

/-- The four slabs' contributions sum to the full 2048-term product. -/
theorem parts0_sum (W X : Cert.Lstm.Mat) (i : ℕ) (r : Fin 128) (j : Fin 2048) :
    ∑ s ∈ Finset.range 4, part0 W X i s r j = ∑ l : Fin 2048, W (ix2 (rowOf i r) l) * X (ix2 l j) := by
  have hb := Cert.Lib.BlockSum.sum_blocks 4 512 (fun q : Fin (4 * 512) =>
    W (ix2 (rowOf i r) (q : Fin 2048)) * X (ix2 (q : Fin 2048) j))
  refine Eq.trans ?_ hb.symm
  rw [Finset.sum_range]
  refine Finset.sum_congr rfl fun s _ => Finset.sum_congr rfl fun l _ => ?_
  have hc : colOf s.val l = (Cert.Lib.BlockSum.at_ s l : Fin 2048) := Fin.ext (by
    show (512 * s.val + l.val) % 2048 = s.val * 512 + l.val
    have := s.isLt; have := l.isLt; omega)
  rw [hc]

section Region0
variable (V : (c : Dev nD) → (b : Ref sig .tc) → Buf (Elt Ideal) ((c : Thread nD τ).loc b))

/-- The launch's operand arrays as matrices of extended reals: the previous cell state, the stacked input, and the
    four gates' weights and biases. -/
abbrev mC0 (c : Dev nD) : Cert.Lstm.Mat := V c main_arg0
abbrev mCat (c : Dev nD) : Cert.Lstm.Mat := V c main_v2
abbrev mW1 (c : Dev nD) : Cert.Lstm.Mat := V c main_arg3
abbrev mB1 (c : Dev nD) : Cert.Lstm.Mat := V c main_arg4
abbrev mW2 (c : Dev nD) : Cert.Lstm.Mat := V c main_arg5
abbrev mB2 (c : Dev nD) : Cert.Lstm.Mat := V c main_arg6
abbrev mW3 (c : Dev nD) : Cert.Lstm.Mat := V c main_arg7
abbrev mB3 (c : Dev nD) : Cert.Lstm.Mat := V c main_arg8
abbrev mW4 (c : Dev nD) : Cert.Lstm.Mat := V c main_arg9
abbrev mB4 (c : Dev nD) : Cert.Lstm.Mat := V c main_arg10

/-! ## One point's step, accumulator by accumulator -/

/-- The first accumulator after a point with k = 0. -/
theorem accA_1 (c : Dev nD) (t : Fin cfg0.N) (h0 : t.val % 4 = 0) :
    (accAt0 V c t.val t.isLt).1 = k0_pay11 (slab0 (grid0.coords t) (iblk0 V c 4 t)) (k0_pay6 (F := Ideal)) (iblk0 V c 0 t) :=
  congrArg Prod.fst (acc0_step_A V c t h0)
/-- The first accumulator after a point with k ≠ 0. -/
theorem accBC_1 (c : Dev nD) (t : Fin cfg0.N) (h0 : ¬t.val % 4 = 0) :
    (accAt0 V c t.val t.isLt).1 = k0_pay11 (slab0 (grid0.coords t) (iblk0 V c 4 t)) (accAt0 V c (t.val - 1) (Nat.lt_of_le_of_lt (Nat.sub_le _ _) t.isLt)).1 (iblk0 V c 0 t) :=
  congrArg Prod.fst (acc0_step_BC V c t h0)
/-- The first accumulation step at point t, at entry (r, j): the accumulator's entry plus the point's slab's
    contribution to the first gate's product. -/
theorem step0_1_apply (c : Dev nD) (t : Fin cfg0.N) (a : Vec Ideal S128x2048 .f32) (r : Fin 128) (j : Fin 2048) :
    (k0_pay11 (slab0 (grid0.coords t) (iblk0 V c 4 t)) a (iblk0 V c 0 t) : Vec Ideal S128x2048 .f32) (ix2 r j)
      = a (ix2 r j) + part0 (mW1 V c) (mCat V c) (t.val / 4) (t.val % 4) r j :=
  (Pay.k0_pay11_apply (slab0 (grid0.coords t) (iblk0 V c 4 t)) a (iblk0 V c 0 t) r j).trans
    (congrArg (a (ix2 r j) + ·) (Finset.sum_congr rfl fun l _ => congrArg₂ (· * ·) (iblk0_0_apply V c t r l) (slab0_apply V c t l j)))
/-- After point n the first accumulator's entry (r, j) is the sum of the contributions of the slabs 0 … n % 4 of
    row block n / 4, the sum restarting at every k = 0. -/
theorem acc0_eq_1 (c : Dev nD) (r : Fin 128) (j : Fin 2048) (n : ℕ) (h : n < cfg0.N) :
    (accAt0 V c n h).1 (ix2 r j) = ∑ s ∈ Finset.range (n % 4 + 1), part0 (mW1 V c) (mCat V c) (n / 4) s r j :=
  sum_restart cfg0.N (fun n h => (accAt0 V c n h).1 (ix2 r j)) (fun i s => part0 (mW1 V c) (mCat V c) i s r j)
    (fun n h h0 => (congrFun (accA_1 V c ⟨n, h⟩ h0) (ix2 r j)).trans
      ((step0_1_apply V c ⟨n, h⟩ _ r j).trans (by rw [Pay.zero6_apply, zero_add])))
    (fun n h h0 => (congrFun (accBC_1 V c ⟨n + 1, h⟩ h0) (ix2 r j)).trans (step0_1_apply V c ⟨n + 1, h⟩ _ r j))
    n h
/-- At a point with k = 3 the finished first accumulator plus its bias block is the row block of the first gate. -/
theorem gate0_1 (c : Dev nD) (t : Fin cfg0.N) (h3 : t.val % 4 = 3) (r : Fin 128) (j : Fin 2048) :
    (accAt0 V c t.val t.isLt).1 (ix2 r j) + (iblk0 V c 6 t : Vec Ideal S128x2048 .f32) (ix2 r j)
      = Cert.Lstm.gate (mW1 V c) (mCat V c) (mB1 V c) (rowOf (t.val / 4) r) j := by
  rw [acc0_eq_1 V c r j t.val t.isLt, h3, parts0_sum (mW1 V c) (mCat V c) (t.val / 4) r j, iblk0_6_apply V c t r j]
  rfl

/-- The second accumulator after a point with k = 0. -/
theorem accA_2 (c : Dev nD) (t : Fin cfg0.N) (h0 : t.val % 4 = 0) :
    (accAt0 V c t.val t.isLt).2.1 = k0_pay12 (slab0 (grid0.coords t) (iblk0 V c 4 t)) (k0_pay7 (F := Ideal)) (iblk0 V c 1 t) :=
  congrArg (fun p => p.2.1) (acc0_step_A V c t h0)
/-- The second accumulator after a point with k ≠ 0. -/
theorem accBC_2 (c : Dev nD) (t : Fin cfg0.N) (h0 : ¬t.val % 4 = 0) :
    (accAt0 V c t.val t.isLt).2.1 = k0_pay12 (slab0 (grid0.coords t) (iblk0 V c 4 t)) (accAt0 V c (t.val - 1) (Nat.lt_of_le_of_lt (Nat.sub_le _ _) t.isLt)).2.1 (iblk0 V c 1 t) :=
  congrArg (fun p => p.2.1) (acc0_step_BC V c t h0)
/-- The second accumulation step at point t, at entry (r, j): the accumulator's entry plus the point's slab's
    contribution to the second gate's product. -/
theorem step0_2_apply (c : Dev nD) (t : Fin cfg0.N) (a : Vec Ideal S128x2048 .f32) (r : Fin 128) (j : Fin 2048) :
    (k0_pay12 (slab0 (grid0.coords t) (iblk0 V c 4 t)) a (iblk0 V c 1 t) : Vec Ideal S128x2048 .f32) (ix2 r j)
      = a (ix2 r j) + part0 (mW2 V c) (mCat V c) (t.val / 4) (t.val % 4) r j :=
  (Pay.k0_pay12_apply (slab0 (grid0.coords t) (iblk0 V c 4 t)) a (iblk0 V c 1 t) r j).trans
    (congrArg (a (ix2 r j) + ·) (Finset.sum_congr rfl fun l _ => congrArg₂ (· * ·) (iblk0_1_apply V c t r l) (slab0_apply V c t l j)))
/-- After point n the second accumulator's entry (r, j) is the sum of the contributions of the slabs 0 … n % 4 of
    row block n / 4, the sum restarting at every k = 0. -/
theorem acc0_eq_2 (c : Dev nD) (r : Fin 128) (j : Fin 2048) (n : ℕ) (h : n < cfg0.N) :
    (accAt0 V c n h).2.1 (ix2 r j) = ∑ s ∈ Finset.range (n % 4 + 1), part0 (mW2 V c) (mCat V c) (n / 4) s r j :=
  sum_restart cfg0.N (fun n h => (accAt0 V c n h).2.1 (ix2 r j)) (fun i s => part0 (mW2 V c) (mCat V c) i s r j)
    (fun n h h0 => (congrFun (accA_2 V c ⟨n, h⟩ h0) (ix2 r j)).trans
      ((step0_2_apply V c ⟨n, h⟩ _ r j).trans (by rw [Pay.zero7_apply, zero_add])))
    (fun n h h0 => (congrFun (accBC_2 V c ⟨n + 1, h⟩ h0) (ix2 r j)).trans (step0_2_apply V c ⟨n + 1, h⟩ _ r j))
    n h
/-- At a point with k = 3 the finished second accumulator plus its bias block is the row block of the second gate. -/
theorem gate0_2 (c : Dev nD) (t : Fin cfg0.N) (h3 : t.val % 4 = 3) (r : Fin 128) (j : Fin 2048) :
    (accAt0 V c t.val t.isLt).2.1 (ix2 r j) + (iblk0 V c 7 t : Vec Ideal S128x2048 .f32) (ix2 r j)
      = Cert.Lstm.gate (mW2 V c) (mCat V c) (mB2 V c) (rowOf (t.val / 4) r) j := by
  rw [acc0_eq_2 V c r j t.val t.isLt, h3, parts0_sum (mW2 V c) (mCat V c) (t.val / 4) r j, iblk0_7_apply V c t r j]
  rfl

/-- The third accumulator after a point with k = 0. -/
theorem accA_3 (c : Dev nD) (t : Fin cfg0.N) (h0 : t.val % 4 = 0) :
    (accAt0 V c t.val t.isLt).2.2.1 = k0_pay1 (k0_pay13 (slab0 (grid0.coords t) (iblk0 V c 4 t)) (k0_pay8 (F := Ideal)) (iblk0 V c 2 t)) :=
  congrArg (fun p => p.2.2.1) (acc0_step_A V c t h0)
/-- The third accumulator after a point with k ≠ 0. -/
theorem accBC_3 (c : Dev nD) (t : Fin cfg0.N) (h0 : ¬t.val % 4 = 0) :
    (accAt0 V c t.val t.isLt).2.2.1 = k0_pay1 (k0_pay13 (slab0 (grid0.coords t) (iblk0 V c 4 t)) (accAt0 V c (t.val - 1) (Nat.lt_of_le_of_lt (Nat.sub_le _ _) t.isLt)).2.2.1 (iblk0 V c 2 t)) :=
  congrArg (fun p => p.2.2.1) (acc0_step_BC V c t h0)
/-- The third accumulation step at point t, at entry (r, j): the accumulator's entry plus the point's slab's
    contribution to the third gate's product. -/
theorem step0_3_apply (c : Dev nD) (t : Fin cfg0.N) (a : Vec Ideal S128x2048 .f32) (r : Fin 128) (j : Fin 2048) :
    (k0_pay1 (k0_pay13 (slab0 (grid0.coords t) (iblk0 V c 4 t)) a (iblk0 V c 2 t)) : Vec Ideal S128x2048 .f32) (ix2 r j)
      = a (ix2 r j) + part0 (mW3 V c) (mCat V c) (t.val / 4) (t.val % 4) r j :=
  (Pay.k0_pay13_apply (slab0 (grid0.coords t) (iblk0 V c 4 t)) a (iblk0 V c 2 t) r j).trans
    (congrArg (a (ix2 r j) + ·) (Finset.sum_congr rfl fun l _ => congrArg₂ (· * ·) (iblk0_2_apply V c t r l) (slab0_apply V c t l j)))
/-- After point n the third accumulator's entry (r, j) is the sum of the contributions of the slabs 0 … n % 4 of
    row block n / 4, the sum restarting at every k = 0. -/
theorem acc0_eq_3 (c : Dev nD) (r : Fin 128) (j : Fin 2048) (n : ℕ) (h : n < cfg0.N) :
    (accAt0 V c n h).2.2.1 (ix2 r j) = ∑ s ∈ Finset.range (n % 4 + 1), part0 (mW3 V c) (mCat V c) (n / 4) s r j :=
  sum_restart cfg0.N (fun n h => (accAt0 V c n h).2.2.1 (ix2 r j)) (fun i s => part0 (mW3 V c) (mCat V c) i s r j)
    (fun n h h0 => (congrFun (accA_3 V c ⟨n, h⟩ h0) (ix2 r j)).trans
      ((step0_3_apply V c ⟨n, h⟩ _ r j).trans (by rw [Pay.zero8_apply, zero_add])))
    (fun n h h0 => (congrFun (accBC_3 V c ⟨n + 1, h⟩ h0) (ix2 r j)).trans (step0_3_apply V c ⟨n + 1, h⟩ _ r j))
    n h
/-- At a point with k = 3 the finished third accumulator plus its bias block is the row block of the third gate. -/
theorem gate0_3 (c : Dev nD) (t : Fin cfg0.N) (h3 : t.val % 4 = 3) (r : Fin 128) (j : Fin 2048) :
    (accAt0 V c t.val t.isLt).2.2.1 (ix2 r j) + (iblk0 V c 8 t : Vec Ideal S128x2048 .f32) (ix2 r j)
      = Cert.Lstm.gate (mW3 V c) (mCat V c) (mB3 V c) (rowOf (t.val / 4) r) j := by
  rw [acc0_eq_3 V c r j t.val t.isLt, h3, parts0_sum (mW3 V c) (mCat V c) (t.val / 4) r j, iblk0_8_apply V c t r j]
  rfl

/-- The fourth accumulator after a point with k = 0. -/
theorem accA_4 (c : Dev nD) (t : Fin cfg0.N) (h0 : t.val % 4 = 0) :
    (accAt0 V c t.val t.isLt).2.2.2 = k0_pay2 (k0_pay10 (slab0 (grid0.coords t) (iblk0 V c 4 t))) (k0_pay9 (F := Ideal)) (iblk0 V c 3 t) :=
  congrArg (fun p => p.2.2.2) (acc0_step_A V c t h0)
/-- The fourth accumulator after a point with k ≠ 0. -/
theorem accBC_4 (c : Dev nD) (t : Fin cfg0.N) (h0 : ¬t.val % 4 = 0) :
    (accAt0 V c t.val t.isLt).2.2.2 = k0_pay2 (k0_pay10 (slab0 (grid0.coords t) (iblk0 V c 4 t))) (accAt0 V c (t.val - 1) (Nat.lt_of_le_of_lt (Nat.sub_le _ _) t.isLt)).2.2.2 (iblk0 V c 3 t) :=
  congrArg (fun p => p.2.2.2) (acc0_step_BC V c t h0)
/-- The fourth accumulation step at point t, at entry (r, j): the accumulator's entry plus the point's slab's
    contribution to the fourth gate's product. -/
theorem step0_4_apply (c : Dev nD) (t : Fin cfg0.N) (a : Vec Ideal S128x2048 .f32) (r : Fin 128) (j : Fin 2048) :
    (k0_pay2 (k0_pay10 (slab0 (grid0.coords t) (iblk0 V c 4 t))) a (iblk0 V c 3 t) : Vec Ideal S128x2048 .f32) (ix2 r j)
      = a (ix2 r j) + part0 (mW4 V c) (mCat V c) (t.val / 4) (t.val % 4) r j :=
  (Pay.k0_pay2_apply (slab0 (grid0.coords t) (iblk0 V c 4 t)) a (iblk0 V c 3 t) r j).trans
    (congrArg (a (ix2 r j) + ·) (Finset.sum_congr rfl fun l _ => congrArg₂ (· * ·) (iblk0_3_apply V c t r l) (slab0_apply V c t l j)))
/-- After point n the fourth accumulator's entry (r, j) is the sum of the contributions of the slabs 0 … n % 4 of
    row block n / 4, the sum restarting at every k = 0. -/
theorem acc0_eq_4 (c : Dev nD) (r : Fin 128) (j : Fin 2048) (n : ℕ) (h : n < cfg0.N) :
    (accAt0 V c n h).2.2.2 (ix2 r j) = ∑ s ∈ Finset.range (n % 4 + 1), part0 (mW4 V c) (mCat V c) (n / 4) s r j :=
  sum_restart cfg0.N (fun n h => (accAt0 V c n h).2.2.2 (ix2 r j)) (fun i s => part0 (mW4 V c) (mCat V c) i s r j)
    (fun n h h0 => (congrFun (accA_4 V c ⟨n, h⟩ h0) (ix2 r j)).trans
      ((step0_4_apply V c ⟨n, h⟩ _ r j).trans (by rw [Pay.zero9_apply, zero_add])))
    (fun n h h0 => (congrFun (accBC_4 V c ⟨n + 1, h⟩ h0) (ix2 r j)).trans (step0_4_apply V c ⟨n + 1, h⟩ _ r j))
    n h
/-- At a point with k = 3 the finished fourth accumulator plus its bias block is the row block of the fourth gate. -/
theorem gate0_4 (c : Dev nD) (t : Fin cfg0.N) (h3 : t.val % 4 = 3) (r : Fin 128) (j : Fin 2048) :
    (accAt0 V c t.val t.isLt).2.2.2 (ix2 r j) + (iblk0 V c 9 t : Vec Ideal S128x2048 .f32) (ix2 r j)
      = Cert.Lstm.gate (mW4 V c) (mCat V c) (mB4 V c) (rowOf (t.val / 4) r) j := by
  rw [acc0_eq_4 V c r j t.val t.isLt, h3, parts0_sum (mW4 V c) (mCat V c) (t.val / 4) r j, iblk0_9_apply V c t r j]
  rfl

/-! ## What a point with k = 3 stores -/

/-- The stored cell-state block. -/
theorem out0_10 (c : Dev nD) (t : Fin cfg0.N) (h3 : t.val % 4 = 3) :
    (outAt0 V c t).1 = k0_pay3 (accAt0 V c t.val t.isLt).1 (iblk0 V c 6 t) (accAt0 V c t.val t.isLt).2.1 (iblk0 V c 7 t) (accAt0 V c t.val t.isLt).2.2.1 (iblk0 V c 8 t) (iblk0 V c 5 t) :=
  congrArg Prod.fst (out0_step V c t h3)
/-- The stored hidden-state block. -/
theorem out0_11 (c : Dev nD) (t : Fin cfg0.N) (h3 : t.val % 4 = 3) :
    (outAt0 V c t).2.1 = k0_pay4 (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t) :=
  congrArg (fun p => p.2.1) (out0_step V c t h3)
/-- The stored narrow copy of the hidden-state block. -/
theorem out0_12 (c : Dev nD) (t : Fin cfg0.N) (h3 : t.val % 4 = 3) :
    (outAt0 V c t).2.2 = k0_pay5 (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t) :=
  congrArg (fun p => p.2.2) (out0_step V c t h3)

/-- The specification's cell matrix of the launch's operands. -/
def cell0 (c : Dev nD) : Cert.Lstm.Mat := Cert.Lstm.cellM (mC0 V c) (mCat V c) (mW1 V c) (mB1 V c) (mW2 V c) (mB2 V c) (mW3 V c) (mB3 V c)
/-- The specification's hidden matrix of the launch's operands. -/
def hidden0 (c : Dev nD) : Cert.Lstm.Mat := Cert.Lstm.hiddenM (mC0 V c) (mCat V c) (mW1 V c) (mB1 V c) (mW2 V c) (mB2 V c) (mW3 V c) (mB3 V c) (mW4 V c) (mB4 V c)

/-- The stored cell-state block's entry (r, j) is the cell matrix at row r of row block t / 4. -/
theorem cell0_apply (c : Dev nD) (t : Fin cfg0.N) (h3 : t.val % 4 = 3) (r : Fin 128) (j : Fin 2048) :
    k0_pay3 (F := Ideal) (accAt0 V c t.val t.isLt).1 (iblk0 V c 6 t) (accAt0 V c t.val t.isLt).2.1 (iblk0 V c 7 t) (accAt0 V c t.val t.isLt).2.2.1 (iblk0 V c 8 t) (iblk0 V c 5 t) (ix2 r j) = cell0 V c (ix2 (rowOf (t.val / 4) r) j) := by
  rw [Pay.k0_pay3_apply, gate0_1 V c t h3 r j, gate0_2 V c t h3 r j, gate0_3 V c t h3 r j, iblk0_5_apply V c t r j]
  rfl

/-- The stored hidden-state block's entry (r, j) is the hidden matrix at row r of row block t / 4. -/
theorem hidden0_apply (c : Dev nD) (t : Fin cfg0.N) (h3 : t.val % 4 = 3) (r : Fin 128) (j : Fin 2048) :
    k0_pay4 (F := Ideal) (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t) (ix2 r j) = hidden0 V c (ix2 (rowOf (t.val / 4) r) j) := by
  rw [Pay.k0_pay4_apply, gate0_1 V c t h3 r j, gate0_2 V c t h3 r j, gate0_3 V c t h3 r j, gate0_4 V c t h3 r j, iblk0_5_apply V c t r j]
  rfl

/-! ## Result window 10 -/

/-- What a point with k = 3 writes back through window 10 is its block of the cell matrix. -/
theorem flushed0_10_eq (c : Dev nD) (t : Fin cfg0.N) (hf : (cfg0.win 10).flush t = true) :
    (dat0 V c).flushed 10 t = ((cfg0.win 10).blk t).view.read (Elt Ideal) (cell0 V c) := by
  have hN : t.val < 64 := lt_of_lt_of_eq t.isLt (show cfg0.N = 64 from N_0)
  have h3 : t.val % 4 = 3 := (flush0_10 t).mp hf
  obtain ⟨hi0, hi1, -⟩ := idx0_results t
  show (cfg0.win 10).cut (grid0.coords t) ((dat0 V c).after 10 t) = _
  rw [after0_10, out0_10 V c t h3]
  funext y
  obtain ⟨r, j, rfl⟩ : ∃ (r : Fin 128) (j : Fin 2048), y = ix2 r j := ⟨y 0, y 1, eq_ix2 y⟩
  rw [View.read_apply]
  have hemb : ((cfg0.win 10).blk t).view.emb (ix2 r j) = (ix2 (rowOf (t.val / 4) r) j : S2048x2048.Idx) := by
    refine funext fun a => Fin.ext ?_
    match a with
    | ⟨0, _⟩ => show win0_10.index t 0 * 128 + 1 * r.val = (128 * (t.val / 4) + r.val) % 2048; rw [hi0]; have := r.isLt; omega
    | ⟨1, _⟩ => show win0_10.index t 1 * 2048 + 1 * j.val = j.val; rw [hi1]; omega
  rw [hemb]
  show k0_pay3 (F := Ideal) (accAt0 V c t.val t.isLt).1 (iblk0 V c 6 t) (accAt0 V c t.val t.isLt).2.1 (iblk0 V c 7 t) (accAt0 V c t.val t.isLt).2.2.1 (iblk0 V c 8 t) (iblk0 V c 5 t) (ix2 r j) = _
  exact cell0_apply V c t h3 r j

/-- An index of the result array lies in point t's block of window 10 iff each coordinate lies in the block's range. -/
theorem mem_blk0_10 (t : Fin cfg0.N) (i : S2048x2048.Idx) :
    i ∈ ((cfg0.win 10).blk t).view.set ↔ ∀ a : Fin 2, win0_10.index t a * S128x2048.size a ≤ (i a).val ∧ (i a).val < win0_10.index t a * S128x2048.size a + S128x2048.size a := by
  show i ∈ ((View.whole main_v3_0).slice (win0_10.rect t)).set ↔ _
  rw [View.set_slice_whole, Rect.mem_set_unit]
  exact Iff.rfl

/-- The points (i, 3) cover the result array of window 10: row p lies in the block of the point 4·(p / 128) + 3. -/
theorem cover0_10 (i : S2048x2048.Idx) :
    ∃ t : Fin cfg0.N, (cfg0.win 10).flush t = true ∧ i ∈ ((cfg0.win 10).blk t).view.set := by
  have h0 : (i 0).val < 2048 := (i 0).isLt
  have h1 : (i 1).val < 2048 := (i 1).isLt
  have hN : cfg0.N = 64 := N_0
  have hlt : 4 * ((i 0).val / 128) + 3 < cfg0.N := by rw [hN]; omega
  obtain ⟨hi0, hi1, -⟩ := idx0_results ⟨4 * ((i 0).val / 128) + 3, hlt⟩
  refine ⟨⟨4 * ((i 0).val / 128) + 3, hlt⟩, (flush0_10 _).mpr (by show (4 * ((i 0).val / 128) + 3) % 4 = 3; omega), ?_⟩
  rw [mem_blk0_10]
  intro a
  match a with
  | ⟨0, _⟩ =>
    show win0_10.index ⟨4 * ((i 0).val / 128) + 3, hlt⟩ 0 * 128 ≤ (i 0).val ∧ (i 0).val < win0_10.index ⟨4 * ((i 0).val / 128) + 3, hlt⟩ 0 * 128 + 128
    rw [hi0]
    show (4 * ((i 0).val / 128) + 3) / 4 * 128 ≤ (i 0).val ∧ (i 0).val < (4 * ((i 0).val / 128) + 3) / 4 * 128 + 128
    omega
  | ⟨1, _⟩ =>
    show win0_10.index ⟨4 * ((i 0).val / 128) + 3, hlt⟩ 1 * 2048 ≤ (i 1).val ∧ (i 1).val < win0_10.index ⟨4 * ((i 0).val / 128) + 3, hlt⟩ 1 * 2048 + 2048
    rw [hi1]
    omega

/-! ## Result window 11 -/

/-- What a point with k = 3 writes back through window 11 is its block of the hidden matrix. -/
theorem flushed0_11_eq (c : Dev nD) (t : Fin cfg0.N) (hf : (cfg0.win 11).flush t = true) :
    (dat0 V c).flushed 11 t = ((cfg0.win 11).blk t).view.read (Elt Ideal) (hidden0 V c) := by
  have hN : t.val < 64 := lt_of_lt_of_eq t.isLt (show cfg0.N = 64 from N_0)
  have h3 : t.val % 4 = 3 := (flush0_11 t).mp hf
  obtain ⟨-, -, hi0, hi1, -⟩ := idx0_results t
  show (cfg0.win 11).cut (grid0.coords t) ((dat0 V c).after 11 t) = _
  rw [after0_11, out0_11 V c t h3]
  funext y
  obtain ⟨r, j, rfl⟩ : ∃ (r : Fin 128) (j : Fin 2048), y = ix2 r j := ⟨y 0, y 1, eq_ix2 y⟩
  rw [View.read_apply]
  have hemb : ((cfg0.win 11).blk t).view.emb (ix2 r j) = (ix2 (rowOf (t.val / 4) r) j : S2048x2048.Idx) := by
    refine funext fun a => Fin.ext ?_
    match a with
    | ⟨0, _⟩ => show win0_11.index t 0 * 128 + 1 * r.val = (128 * (t.val / 4) + r.val) % 2048; rw [hi0]; have := r.isLt; omega
    | ⟨1, _⟩ => show win0_11.index t 1 * 2048 + 1 * j.val = j.val; rw [hi1]; omega
  rw [hemb]
  show k0_pay4 (F := Ideal) (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t) (ix2 r j) = _
  exact hidden0_apply V c t h3 r j

/-- An index of the result array lies in point t's block of window 11 iff each coordinate lies in the block's range. -/
theorem mem_blk0_11 (t : Fin cfg0.N) (i : S2048x2048.Idx) :
    i ∈ ((cfg0.win 11).blk t).view.set ↔ ∀ a : Fin 2, win0_11.index t a * S128x2048.size a ≤ (i a).val ∧ (i a).val < win0_11.index t a * S128x2048.size a + S128x2048.size a := by
  show i ∈ ((View.whole main_v3_1).slice (win0_11.rect t)).set ↔ _
  rw [View.set_slice_whole, Rect.mem_set_unit]
  exact Iff.rfl

/-- The points (i, 3) cover the result array of window 11: row p lies in the block of the point 4·(p / 128) + 3. -/
theorem cover0_11 (i : S2048x2048.Idx) :
    ∃ t : Fin cfg0.N, (cfg0.win 11).flush t = true ∧ i ∈ ((cfg0.win 11).blk t).view.set := by
  have h0 : (i 0).val < 2048 := (i 0).isLt
  have h1 : (i 1).val < 2048 := (i 1).isLt
  have hN : cfg0.N = 64 := N_0
  have hlt : 4 * ((i 0).val / 128) + 3 < cfg0.N := by rw [hN]; omega
  obtain ⟨-, -, hi0, hi1, -⟩ := idx0_results ⟨4 * ((i 0).val / 128) + 3, hlt⟩
  refine ⟨⟨4 * ((i 0).val / 128) + 3, hlt⟩, (flush0_11 _).mpr (by show (4 * ((i 0).val / 128) + 3) % 4 = 3; omega), ?_⟩
  rw [mem_blk0_11]
  intro a
  match a with
  | ⟨0, _⟩ =>
    show win0_11.index ⟨4 * ((i 0).val / 128) + 3, hlt⟩ 0 * 128 ≤ (i 0).val ∧ (i 0).val < win0_11.index ⟨4 * ((i 0).val / 128) + 3, hlt⟩ 0 * 128 + 128
    rw [hi0]
    show (4 * ((i 0).val / 128) + 3) / 4 * 128 ≤ (i 0).val ∧ (i 0).val < (4 * ((i 0).val / 128) + 3) / 4 * 128 + 128
    omega
  | ⟨1, _⟩ =>
    show win0_11.index ⟨4 * ((i 0).val / 128) + 3, hlt⟩ 1 * 2048 ≤ (i 1).val ∧ (i 1).val < win0_11.index ⟨4 * ((i 0).val / 128) + 3, hlt⟩ 1 * 2048 + 2048
    rw [hi1]
    omega

/-! ## Result window 12 -/

/-- What a point with k = 3 writes back through window 12 is its block of the hidden matrix. -/
theorem flushed0_12_eq (c : Dev nD) (t : Fin cfg0.N) (hf : (cfg0.win 12).flush t = true) :
    (dat0 V c).flushed 12 t = ((cfg0.win 12).blk t).view.read (Elt Ideal) (hidden0 V c) := by
  have hN : t.val < 64 := lt_of_lt_of_eq t.isLt (show cfg0.N = 64 from N_0)
  have h3 : t.val % 4 = 3 := (flush0_12 t).mp hf
  obtain ⟨-, -, -, -, hi0, hi1⟩ := idx0_results t
  show (cfg0.win 12).cut (grid0.coords t) ((dat0 V c).after 12 t) = _
  rw [after0_12, out0_12 V c t h3]
  funext y
  obtain ⟨r, j, rfl⟩ : ∃ (r : Fin 128) (j : Fin 2048), y = ix2 r j := ⟨y 0, y 1, eq_ix2 y⟩
  rw [View.read_apply]
  have hemb : ((cfg0.win 12).blk t).view.emb (ix2 r j) = (ix2 (rowOf (t.val / 4) r) j : S2048x2048.Idx) := by
    refine funext fun a => Fin.ext ?_
    match a with
    | ⟨0, _⟩ => show win0_12.index t 0 * 128 + 1 * r.val = (128 * (t.val / 4) + r.val) % 2048; rw [hi0]; have := r.isLt; omega
    | ⟨1, _⟩ => show win0_12.index t 1 * 2048 + 1 * j.val = j.val; rw [hi1]; omega
  rw [hemb]
  show k0_pay5 (F := Ideal) (accAt0 V c t.val t.isLt).1 (iblk0 V c 6 t) (accAt0 V c t.val t.isLt).2.1 (iblk0 V c 7 t) (accAt0 V c t.val t.isLt).2.2.1 (iblk0 V c 8 t) (accAt0 V c t.val t.isLt).2.2.2 (iblk0 V c 9 t) (iblk0 V c 5 t) (ix2 r j) = _
  exact (Pay.k0_pay5_apply _ _ _ _ _ _ _ _ _ (ix2 r j)).trans (hidden0_apply V c t h3 r j)

/-- An index of the result array lies in point t's block of window 12 iff each coordinate lies in the block's range. -/
theorem mem_blk0_12 (t : Fin cfg0.N) (i : S2048x2048.Idx) :
    i ∈ ((cfg0.win 12).blk t).view.set ↔ ∀ a : Fin 2, win0_12.index t a * S128x2048.size a ≤ (i a).val ∧ (i a).val < win0_12.index t a * S128x2048.size a + S128x2048.size a := by
  show i ∈ ((View.whole main_v3_2).slice (win0_12.rect t)).set ↔ _
  rw [View.set_slice_whole, Rect.mem_set_unit]
  exact Iff.rfl

/-- The points (i, 3) cover the result array of window 12: row p lies in the block of the point 4·(p / 128) + 3. -/
theorem cover0_12 (i : S2048x2048.Idx) :
    ∃ t : Fin cfg0.N, (cfg0.win 12).flush t = true ∧ i ∈ ((cfg0.win 12).blk t).view.set := by
  have h0 : (i 0).val < 2048 := (i 0).isLt
  have h1 : (i 1).val < 2048 := (i 1).isLt
  have hN : cfg0.N = 64 := N_0
  have hlt : 4 * ((i 0).val / 128) + 3 < cfg0.N := by rw [hN]; omega
  obtain ⟨-, -, -, -, hi0, hi1⟩ := idx0_results ⟨4 * ((i 0).val / 128) + 3, hlt⟩
  refine ⟨⟨4 * ((i 0).val / 128) + 3, hlt⟩, (flush0_12 _).mpr (by show (4 * ((i 0).val / 128) + 3) % 4 = 3; omega), ?_⟩
  rw [mem_blk0_12]
  intro a
  match a with
  | ⟨0, _⟩ =>
    show win0_12.index ⟨4 * ((i 0).val / 128) + 3, hlt⟩ 0 * 128 ≤ (i 0).val ∧ (i 0).val < win0_12.index ⟨4 * ((i 0).val / 128) + 3, hlt⟩ 0 * 128 + 128
    rw [hi0]
    show (4 * ((i 0).val / 128) + 3) / 4 * 128 ≤ (i 0).val ∧ (i 0).val < (4 * ((i 0).val / 128) + 3) / 4 * 128 + 128
    omega
  | ⟨1, _⟩ =>
    show win0_12.index ⟨4 * ((i 0).val / 128) + 3, hlt⟩ 1 * 2048 ≤ (i 1).val ∧ (i 1).val < win0_12.index ⟨4 * ((i 0).val / 128) + 3, hlt⟩ 1 * 2048 + 2048
    rw [hi1]
    omega

/-! ## The three result arrays -/

/-- The first result array ends holding the cell matrix of the launch's operands. -/
theorem final0_10 (c : Dev nD) :
    (dat0 V c).arrAt 10 cfg0.N = Cert.Lstm.cellM (mC0 V c) (mCat V c) (mW1 V c) (mB1 V c) (mW2 V c) (mB2 V c) (mW3 V c) (mB3 V c) :=
  (dat0 V c).arrAt_eq_of_cover 10 (cell0 V c) (flushed0_10_eq V c) cover0_10

/-- The second result array ends holding the hidden matrix of the launch's operands. -/
theorem final0_11 (c : Dev nD) :
    (dat0 V c).arrAt 11 cfg0.N = Cert.Lstm.hiddenM (mC0 V c) (mCat V c) (mW1 V c) (mB1 V c) (mW2 V c) (mB2 V c) (mW3 V c) (mB3 V c) (mW4 V c) (mB4 V c) :=
  (dat0 V c).arrAt_eq_of_cover 11 (hidden0 V c) (flushed0_11_eq V c) cover0_11

/-- The third result array, the narrow copy, ends holding the same hidden matrix. -/
theorem final0_12 (c : Dev nD) :
    (dat0 V c).arrAt 12 cfg0.N = Cert.Lstm.hiddenM (mC0 V c) (mCat V c) (mW1 V c) (mB1 V c) (mW2 V c) (mB2 V c) (mW3 V c) (mB3 V c) (mW4 V c) (mB4 V c) :=
  (dat0 V c).arrAt_eq_of_cover 12 (hidden0 V c) (flushed0_12_eq V c) cover0_12

end Region0

end Cert.KernelIdeal.Hand

end
-- ==== Proof.KI1Value.lean ====
/-
  What the softmax kernel's body leaves, as values. At every point the accumulator ends at
  (its contents before, or the zero block at k = 0) + w₅'s block times the 512-row slab of the resident matrix the
  point's k selects; at k = 3 the output block ends at the row-wise softmax of that accumulator plus the bias block.
-/
import proofs.«112212_j88502096101611_2_alg».proof.Proof.KI1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The 512-row slab of the resident matrix that a point with second coordinate k reads: rows 512·k onwards. -/
def slab1 (i : grid1.Coords) (x1 : Vec F S2048x2048 .bf16) : Vec F S512x2048 .bf16 :=
  View.ld x1 (Rect.unit (s := S2048x2048) (k1_off1 i) S512x2048.size (k1_off1_inb i))

theorem acc1_B_val (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S2048x2048 .bf16) (x2 : Vec F S128x2048 .f32) (xs0 : Vec F S128x2048 .f32) :
    View.canon (kernelRun1_B c i arg2 harg2 arg3 harg3 arg4 harg4 arg5 harg5 arg6 harg6 hc0 hc1 x0 x1 x2 xs0).2.1 = k1_pay2 (slab1 i x1) xs0 x0 := by
  unfold kernelRun1_B
  dsimp only
  rw [View.canon_unit_zero hz2]
  simp only [View.readAt_eq_ld, harg2.read_unread, harg3.read_unread, harg6.read_unread, View.ld_unit_zero (S := S128x2048) hz2, View.ld_unit_zero (S := S128x512) hz2]
  rfl

theorem acc1_A_val (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S2048x2048 .bf16) (x2 : Vec F S128x2048 .f32) :
    View.canon (kernelRun1_A c i arg2 harg2 arg3 harg3 arg4 harg4 arg5 harg5 arg6 harg6 hc0 hc1 x0 x1 x2).2.1 = k1_pay2 (slab1 i x1) (k1_pay1 (F := F)) x0 := by
  unfold kernelRun1_A
  dsimp only
  sl_unfold_run_names
  rw [View.canon_cons_unit_zero (S := S128x2048) hz2, View.readCov_unit_zero (S := S128x2048) _ hz2]
  simp only [View.readAt_eq_ld, harg2.read_unread, harg3.read_unread, View.ld_unit_zero (S := S128x512) hz2]
  rfl

theorem acc1_C_val (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) :
    View.canon (kernelRun1_C c i arg2 harg2 arg3 harg3 arg4 harg4 arg5 harg5 arg6 harg6 hc0 hc1 x0 x1 x2 xs0).2.1 = k1_pay2 (slab1 i x1) xs0 x0 := by
  unfold kernelRun1_C
  dsimp only
  sl_unfold_run_names
  rw [View.canon_unit_zero hz2]
  simp only [View.readAt_eq_ld, harg2.read_unread, harg3.read_unread, harg6.read_unread, View.ld_unit_zero (S := S128x2048) hz2, View.ld_unit_zero (S := S128x512) hz2]
  rfl

theorem out1_C_val (c : Dev nD) (i : grid1.Coords) (arg2 : Memref sig .tc .vmem S128x512 .f32) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S2048x2048 .bf16) (x2 : Vec F S128x2048 .f32) (xs0 : Vec F S128x2048 .f32) :
    View.canon (kernelRun1_C c i arg2 harg2 arg3 harg3 arg4 harg4 arg5 harg5 arg6 harg6 hc0 hc1 x0 x1 x2 xs0).1 = k1_pay3 (k1_pay2 (slab1 i x1) xs0 x0) x2 := by
  unfold kernelRun1_C
  dsimp only
  sl_unfold_run_names
  rw [View.canon_unit_zero hz2, View.readCov_unit_zero (S := S128x2048) _ hz2]
  simp only [View.readAt_eq_ld, harg2.read_unread, harg3.read_unread, harg4.read_unread, harg6.read_unread, View.ld_unit_zero (S := S128x2048) hz2, View.ld_unit_zero (S := S128x512) hz2]
  rfl

section Region1
variable (V : (c : Dev nD) → (b : Ref sig .tc) → Buf (Elt F) ((c : Thread nD τ).loc b))

/-- The accumulator after a point with k = 0: one accumulation step from the zero block. -/
theorem acc1_step_A (c : Dev nD) (t : Fin cfg1.N) (h0 : t.val % 4 = 0) :
    (outsAt1 V c t.val t.isLt).2
      = k1_pay2 (slab1 (grid1.coords t) (iblk1 V c 1 t)) (k1_pay1 (F := F)) (iblk1 V c 0 t) := by
  rw [outsAt1_A V c t h0]
  dsimp only
  unfold acc1_A
  exact acc1_A_val c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t)

/-- The accumulator after a point with k ≠ 0: one accumulation step from what the point before left. -/
theorem acc1_step_BC (c : Dev nD) (t : Fin cfg1.N) (h0 : ¬t.val % 4 = 0) :
    (outsAt1 V c t.val t.isLt).2
      = k1_pay2 (slab1 (grid1.coords t) (iblk1 V c 1 t))
          ((outsAt1 V c (t.val - 1) (Nat.lt_of_le_of_lt (Nat.sub_le _ _) t.isLt)).2) (iblk1 V c 0 t) := by
  by_cases h1 : t.val % 4 = 3
  · rw [outsAt1_C V c t h0 h1]
    dsimp only
    unfold acc1_C
    exact acc1_C_val c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t)
        ((outsAt1 V c (t.val - 1) (Nat.lt_of_le_of_lt (Nat.sub_le _ _) t.isLt)).2)
  · rw [outsAt1_B V c t h0 h1]
    dsimp only
    unfold acc1_B
    exact acc1_B_val c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t)
        ((outsAt1 V c (t.val - 1) (Nat.lt_of_le_of_lt (Nat.sub_le _ _) t.isLt)).2)

/-- The output block stored at a point with k = 3: the softmax of the finished accumulator plus the bias block. -/
theorem out1_step (c : Dev nD) (t : Fin cfg1.N) (h1 : t.val % 4 = 3) :
    (outsAt1 V c t.val t.isLt).1 = k1_pay3 ((outsAt1 V c t.val t.isLt).2) (iblk1 V c 2 t) := by
  have h0 : ¬t.val % 4 = 0 := by omega
  rw [acc1_step_BC V c t h0, outsAt1_C V c t h0 h1]
  dsimp only
  unfold out1_C
  exact out1_C_val c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t)
      ((outsAt1 V c (t.val - 1) (Nat.lt_of_le_of_lt (Nat.sub_le _ _) t.isLt)).2)

end Region1

end Cert.KernelIdeal.Hand

end
-- ==== Proof.KI1Final.lean ====
/-
  The softmax launch's result array on the extended reals. Row block i of the result is stored at the grid point
  (i, 3); by then the accumulator holds the four slab products of w₅'s row block with the hidden state, which sum
  to the full 2048-term products, and the stored block is the row-wise softmax of those plus the bias. Block by
  block the result array is therefore the specification's softmax matrix.
-/
import proofs.«112212_j88502096101611_2_alg».proof.Proof.KI1Value
import proofs.«112212_j88502096101611_2_alg».proof.Proof.KIPay
import proofs.«112212_j88502096101611_2_alg».proof.Proof.LibRectLoad
import proofs.«112212_j88502096101611_2_alg».proof.Proof.LibBlockSum
import proofs.«112212_j88502096101611_2_alg».proof.Proof.Spec
import proofs.«112212_j88502096101611_2_alg».proof.Proof.KIIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region1
variable (V : (c : Dev nD) → (b : Ref sig .tc) → Buf (Elt Ideal) ((c : Thread nD τ).loc b))

/-- The launch's three operand arrays as matrices of extended reals: the weights w₅, the hidden state, the bias b₅. -/
abbrev mW5 (c : Dev nD) : Cert.Lstm.Mat := V c main_arg11
abbrev mH (c : Dev nD) : Cert.Lstm.Mat := V c main_v3_2
abbrev mB5 (c : Dev nD) : Cert.Lstm.Mat := V c main_arg12

/-- Where the windows' blocks sit at each grid point, decided over the grid. -/
theorem idx1_facts : ∀ t : Fin cfg1.N, win1_0.index t 0 = t.val / 4 ∧ win1_0.index t 1 = t.val % 4
      ∧ win1_1.index t 0 = 0 ∧ win1_1.index t 1 = 0 ∧ win1_2.index t 0 = t.val / 4 ∧ win1_2.index t 1 = 0
      ∧ win1_3.index t 0 = t.val / 4 ∧ win1_3.index t 1 = 0
      ∧ k1_off1 (grid1.coords t) 0 = 512 * (t.val % 4) ∧ k1_off1 (grid1.coords t) 1 = 0 :=
  (by decide +kernel : ∀ t : Fin grid1.N, _)

/-- The weight block at point t, entry (r, l): the weight matrix at row r of row block t / 4, position l of slab t % 4. -/
theorem iblk1_0_apply (c : Dev nD) (t : Fin cfg1.N) (r : Fin 128) (l : Fin 512) :
    (iblk1 V c 0 t : Vec Ideal S128x512 .f32) (ix2 r l) = mW5 V c (ix2 (rowOf (t.val / 4) r) (colOf (t.val % 4) l)) := by
  have hN : t.val < 64 := lt_of_lt_of_eq t.isLt (show cfg1.N = 64 from N_1)
  obtain ⟨h0, h1, -⟩ := idx1_facts t
  unfold iblk1
  rw [View.read_apply]
  show mW5 V c _ = _
  refine congrArg _ (funext fun a => Fin.ext ?_)
  match a with
  | ⟨0, _⟩ => show win1_0.index t 0 * 128 + 1 * r.val = (128 * (t.val / 4) + r.val) % 2048; rw [h0]; have := r.isLt; omega
  | ⟨1, _⟩ => show win1_0.index t 1 * 512 + 1 * l.val = (512 * (t.val % 4) + l.val) % 2048; rw [h1]; have := l.isLt; omega

/-- The bias block at point t, entry (r, j). -/
theorem iblk1_2_apply (c : Dev nD) (t : Fin cfg1.N) (r : Fin 128) (j : Fin 2048) :
    (iblk1 V c 2 t : Vec Ideal S128x2048 .f32) (ix2 r j) = mB5 V c (ix2 (rowOf (t.val / 4) r) j) := by
  have hN : t.val < 64 := lt_of_lt_of_eq t.isLt (show cfg1.N = 64 from N_1)
  obtain ⟨-, -, -, -, h0, h1, -⟩ := idx1_facts t
  unfold iblk1
  rw [View.read_apply]
  show mB5 V c _ = _
  refine congrArg _ (funext fun a => Fin.ext ?_)
  match a with
  | ⟨0, _⟩ => show win1_2.index t 0 * 128 + 1 * r.val = (128 * (t.val / 4) + r.val) % 2048; rw [h0]; have := r.isLt; omega
  | ⟨1, _⟩ => show win1_2.index t 1 * 2048 + 1 * j.val = j.val; rw [h1]; omega

/-- The slab of the resident hidden state that point t reads, entry (l, j): the hidden state at position l of slab t % 4. -/
theorem slab1_apply (c : Dev nD) (t : Fin cfg1.N) (l : Fin 512) (j : Fin 2048) :
    (slab1 (grid1.coords t) (iblk1 V c 1 t) : Vec Ideal S512x2048 .bf16) (ix2 l j) = mH V c (ix2 (colOf (t.val % 4) l) j) := by
  have hN : t.val < 64 := lt_of_lt_of_eq t.isLt (show cfg1.N = 64 from N_1)
  obtain ⟨-, -, h0, h1, -, -, -, -, ho0, ho1⟩ := idx1_facts t
  unfold slab1
  refine (View.ld_unit_at (iblk1 V c 1 t : Vec Ideal S2048x2048 .bf16) (k1_off1 (grid1.coords t)) S512x2048.size (k1_off1_inb (grid1.coords t)) (ix2 l j) (ix2 (colOf (t.val % 4) l) j) ?_).trans ?_
  · intro a
    match a with
    | ⟨0, _⟩ => show (512 * (t.val % 4) + l.val) % 2048 = k1_off1 (grid1.coords t) 0 + l.val; rw [ho0]; have := l.isLt; omega
    | ⟨1, _⟩ => show j.val = k1_off1 (grid1.coords t) 1 + j.val; rw [ho1]; omega
  · unfold iblk1
    rw [View.read_apply]
    show mH V c _ = _
    refine congrArg _ (funext fun a => Fin.ext ?_)
    match a with
    | ⟨0, _⟩ => show win1_1.index t 0 * 2048 + 1 * ((512 * (t.val % 4) + l.val) % 2048) = (512 * (t.val % 4) + l.val) % 2048; rw [h0]; omega
    | ⟨1, _⟩ => show win1_1.index t 1 * 2048 + 1 * j.val = j.val; rw [h1]; omega

/-- One slab's contribution to entry (r, j) of row block i of w₅ · hidden: its 512-term partial product. -/
def part1 (c : Dev nD) (i s : ℕ) (r : Fin 128) (j : Fin 2048) : EReal :=
  ∑ l : Fin 512, mW5 V c (ix2 (rowOf i r) (colOf s l)) * mH V c (ix2 (colOf s l) j)

/-- One accumulation step at point t, at entry (r, j): the accumulator's entry plus the point's slab's contribution. -/
theorem step1_apply (c : Dev nD) (t : Fin cfg1.N) (a : Vec Ideal S128x2048 .f32) (r : Fin 128) (j : Fin 2048) :
    k1_pay2 (F := Ideal) (slab1 (grid1.coords t) (iblk1 V c 1 t)) a (iblk1 V c 0 t) (ix2 r j)
      = a (ix2 r j) + part1 V c (t.val / 4) (t.val % 4) r j :=
  (Pay.k1_pay2_apply (slab1 (grid1.coords t) (iblk1 V c 1 t)) a (iblk1 V c 0 t) r j).trans
    (congrArg (a (ix2 r j) + ·) (Finset.sum_congr rfl fun l _ => congrArg₂ (· * ·) (iblk1_0_apply V c t r l) (slab1_apply V c t l j)))

/-- After point n the accumulator's entry (r, j) is the sum of the contributions of the slabs 0 … n % 4 of row
    block n / 4: by induction on the point, the sum restarting at every k = 0. -/
theorem acc1_eq (c : Dev nD) : ∀ (n : ℕ) (h : n < cfg1.N) (r : Fin 128) (j : Fin 2048),
    (outsAt1 V c n h).2 (ix2 r j) = ∑ s ∈ Finset.range (n % 4 + 1), part1 V c (n / 4) s r j
  | 0, h, r, j => by
    refine (congrFun (acc1_step_A V c ⟨0, h⟩ rfl) (ix2 r j)).trans ?_
    refine (step1_apply V c ⟨0, h⟩ _ r j).trans ?_
    rw [Pay.zero_apply, zero_add]
    show part1 V c (0 / 4) (0 % 4) r j = ∑ s ∈ Finset.range 1, part1 V c (0 / 4) s r j
    rw [Finset.sum_range_one]
  | n + 1, h, r, j => by
    by_cases h0 : (n + 1) % 4 = 0
    · refine (congrFun (acc1_step_A V c ⟨n + 1, h⟩ h0) (ix2 r j)).trans ?_
      refine (step1_apply V c ⟨n + 1, h⟩ _ r j).trans ?_
      rw [Pay.zero_apply, zero_add]
      show part1 V c ((n + 1) / 4) ((n + 1) % 4) r j = _
      rw [h0, Finset.sum_range_one]
    · refine (congrFun (acc1_step_BC V c ⟨n + 1, h⟩ h0) (ix2 r j)).trans ?_
      refine (step1_apply V c ⟨n + 1, h⟩ _ r j).trans ?_
      show (outsAt1 V c n (Nat.lt_of_succ_lt h)).2 (ix2 r j) + part1 V c ((n + 1) / 4) ((n + 1) % 4) r j = _
      rw [acc1_eq c n (Nat.lt_of_succ_lt h) r j]
      have e1 : (n + 1) / 4 = n / 4 := by omega
      have e2 : (n + 1) % 4 = n % 4 + 1 := by omega
      rw [e1, e2]
      exact (Finset.sum_range_succ (fun s => part1 V c (n / 4) s r j) (n % 4 + 1)).symm

/-- The four slabs' contributions sum to the full 2048-term product. -/
theorem parts1_sum (c : Dev nD) (i : ℕ) (r : Fin 128) (j : Fin 2048) :
    ∑ s ∈ Finset.range 4, part1 V c i s r j
      = ∑ l : Fin 2048, mW5 V c (ix2 (rowOf i r) l) * mH V c (ix2 l j) := by
  have hb := Cert.Lib.BlockSum.sum_blocks 4 512 (fun q : Fin (4 * 512) =>
    mW5 V c (ix2 (rowOf i r) (q : Fin 2048)) * mH V c (ix2 (q : Fin 2048) j))
  refine Eq.trans ?_ hb.symm
  rw [Finset.sum_range]
  refine Finset.sum_congr rfl fun s _ => Finset.sum_congr rfl fun l _ => ?_
  have hc : colOf s.val l = (Cert.Lib.BlockSum.at_ s l : Fin 2048) := Fin.ext (by
    show (512 * s.val + l.val) % 2048 = s.val * 512 + l.val
    have := s.isLt; have := l.isLt; omega)
  rw [hc]

/-- The specification's softmax matrix of the launch's operands. -/
def G1 (c : Dev nD) : Cert.Lstm.Mat :=
  Cert.Lstm.softM (mW5 V c) (mH V c) (mB5 V c)

/-- At a point with k = 3 the finished accumulator plus the bias block is the row block of w₅ · hidden + b₅. -/
theorem logits1_apply (c : Dev nD) (t : Fin cfg1.N) (h3 : t.val % 4 = 3) (r : Fin 128) (k : Fin 2048) :
    (outsAt1 V c t.val t.isLt).2 (ix2 r k) + (iblk1 V c 2 t : Vec Ideal S128x2048 .f32) (ix2 r k)
      = Cert.Lstm.gate (mW5 V c) (mH V c) (mB5 V c) (rowOf (t.val / 4) r) k := by
  rw [acc1_eq V c t.val t.isLt r k, h3, parts1_sum V c (t.val / 4) r k, iblk1_2_apply V c t r k]
  rfl

/-- What a point with k = 3 writes back is its block of the softmax matrix. -/
theorem flushed1_eq (c : Dev nD) (t : Fin cfg1.N) (hf : (cfg1.win 3).flush t = true) :
    (dat1 V c).flushed 3 t = ((cfg1.win 3).blk t).view.read (Elt Ideal) (G1 V c) := by
  have hN : t.val < 64 := lt_of_lt_of_eq t.isLt (show cfg1.N = 64 from N_1)
  have h3 : t.val % 4 = 3 := (flush1_3 t).mp hf
  obtain ⟨-, -, -, -, -, -, hi0, hi1, -⟩ := idx1_facts t
  show (cfg1.win 3).cut (grid1.coords t) ((dat1 V c).after 3 t) = _
  rw [after1_3, out1_step V c t h3]
  funext y
  obtain ⟨r, j, rfl⟩ : ∃ (r : Fin 128) (j : Fin 2048), y = ix2 r j := ⟨y 0, y 1, eq_ix2 y⟩
  rw [View.read_apply]
  have hemb : ((cfg1.win 3).blk t).view.emb (ix2 r j) = (ix2 (rowOf (t.val / 4) r) j : S2048x2048.Idx) := by
    refine funext fun a => Fin.ext ?_
    match a with
    | ⟨0, _⟩ => show win1_3.index t 0 * 128 + 1 * r.val = (128 * (t.val / 4) + r.val) % 2048; rw [hi0]; have := r.isLt; omega
    | ⟨1, _⟩ => show win1_3.index t 1 * 2048 + 1 * j.val = j.val; rw [hi1]; omega
  rw [hemb]
  show k1_pay3 (F := Ideal) (outsAt1 V c t.val t.isLt).2 (iblk1 V c 2 t) (ix2 r j) = Cert.Lstm.softE _ _ _ (rowOf (t.val / 4) r) j
  refine (Pay.k1_pay3_apply (outsAt1 V c t.val t.isLt).2 (iblk1 V c 2 t) r j).trans ?_
  have hrow : (fun k : Fin 2048 => (outsAt1 V c t.val t.isLt).2 (ix2 r k) + (iblk1 V c 2 t : Vec Ideal S128x2048 .f32) (ix2 r k))
      = fun k => Cert.Lstm.gate (mW5 V c) (mH V c) (mB5 V c) (rowOf (t.val / 4) r) k :=
    funext fun k => logits1_apply V c t h3 r k
  unfold Cert.Lstm.softE Cert.Lstm.rowMax
  simp only [logits1_apply V c t h3 r, hrow]

/-- An index of the result array lies in point t's block iff each coordinate lies in the block's range. -/
theorem mem_blk1 (t : Fin cfg1.N) (i : S2048x2048.Idx) :
    i ∈ ((cfg1.win 3).blk t).view.set ↔ ∀ a : Fin 2, win1_3.index t a * S128x2048.size a ≤ (i a).val ∧ (i a).val < win1_3.index t a * S128x2048.size a + S128x2048.size a := by
  show i ∈ ((View.whole main_v4).slice (win1_3.rect t)).set ↔ _
  rw [View.set_slice_whole, Rect.mem_set_unit]
  exact Iff.rfl

/-- The points (i, 3) cover the result array: row p lies in the block of the point 4·(p / 128) + 3. -/
theorem cover1 (i : S2048x2048.Idx) :
    ∃ t : Fin cfg1.N, (cfg1.win 3).flush t = true ∧ i ∈ ((cfg1.win 3).blk t).view.set := by
  have h0 : (i 0).val < 2048 := (i 0).isLt
  have h1 : (i 1).val < 2048 := (i 1).isLt
  have hN : cfg1.N = 64 := N_1
  have hlt : 4 * ((i 0).val / 128) + 3 < cfg1.N := by rw [hN]; omega
  obtain ⟨-, -, -, -, -, -, hi0, hi1, -⟩ := idx1_facts ⟨4 * ((i 0).val / 128) + 3, hlt⟩
  refine ⟨⟨4 * ((i 0).val / 128) + 3, hlt⟩, (flush1_3 _).mpr (by show (4 * ((i 0).val / 128) + 3) % 4 = 3; omega), ?_⟩
  rw [mem_blk1]
  intro a
  match a with
  | ⟨0, _⟩ =>
    show win1_3.index ⟨4 * ((i 0).val / 128) + 3, hlt⟩ 0 * 128 ≤ (i 0).val ∧ (i 0).val < win1_3.index ⟨4 * ((i 0).val / 128) + 3, hlt⟩ 0 * 128 + 128
    rw [hi0]
    show (4 * ((i 0).val / 128) + 3) / 4 * 128 ≤ (i 0).val ∧ (i 0).val < (4 * ((i 0).val / 128) + 3) / 4 * 128 + 128
    omega
  | ⟨1, _⟩ =>
    show win1_3.index ⟨4 * ((i 0).val / 128) + 3, hlt⟩ 1 * 2048 ≤ (i 1).val ∧ (i 1).val < win1_3.index ⟨4 * ((i 0).val / 128) + 3, hlt⟩ 1 * 2048 + 2048
    rw [hi1]
    omega

/-- The second launch's result array ends holding the softmax matrix of its operands. -/
theorem final1 (c : Dev nD) : (dat1 V c).arrAt 3 cfg1.N = G1 V c :=
  (dat1 V c).arrAt_eq_of_cover 3 (G1 V c) (flushed1_eq V c) cover1

end Region1

end Cert.KernelIdeal.Hand

end
-- ==== Proof.KIFinal.lean ====
/-
  The idealized kernel's run, read: the three results are the specification's matrices of the launch memory's
  argument arrays. The first launch's entry contents are the launch memory's arguments and their stacked narrowed
  copy; its three result arrays are the cell state, the hidden state and the hidden state's narrow copy; the second
  launch reads that copy, the weights w₅ and the bias b₅, none of which the first launch's write-backs touch, and
  its result array is the softmax matrix.
-/
import proofs.«112212_j88502096101611_2_alg».proof.Proof.KIRun
import proofs.«112212_j88502096101611_2_alg».proof.Proof.KIHost
import proofs.«112212_j88502096101611_2_alg».proof.Proof.KI0Final
import proofs.«112212_j88502096101611_2_alg».proof.Proof.KI1Final
import proofs.«112212_j88502096101611_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lstm (cellM hiddenM softM)

variable (m : (ℓ : Loc nD τ sig) → Buf (Elt Ideal) ℓ) (ρ : Dev nD → PrngReg)

/-- The previous hidden state stacked on the input, as the program builds it. -/
def catK (c : Dev nD) : Cert.Lstm.Mat :=
  concatenate S2048x2048 0 [⟨S1024x2048, m ((c : Thread nD τ).loc main_arg1)⟩, ⟨S1024x2048, m ((c : Thread nD τ).loc main_arg2)⟩] concatenates_S1024x2048_S1024x2048_S2048x2048_d0

/-- The first launch's operands are the launch memory's. -/
theorem cell_entry (c : Dev nD) :
    cellM (mC0 (V1 m ρ) c) (mCat (V1 m ρ) c) (mW1 (V1 m ρ) c) (mB1 (V1 m ρ) c) (mW2 (V1 m ρ) c) (mB2 (V1 m ρ) c) (mW3 (V1 m ρ) c) (mB3 (V1 m ρ) c)
      = cellM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show cellM (V1 m ρ c main_arg0) (V1 m ρ c main_v2) (V1 m ρ c main_arg3) (V1 m ρ c main_arg4) (V1 m ρ c main_arg5) (V1 m ρ c main_arg6) (V1 m ρ c main_arg7) (V1 m ρ c main_arg8) = _
  rw [V1_arg0 m ρ c, V1_v2 m ρ c, V1_arg3 m ρ c, V1_arg4 m ρ c, V1_arg5 m ρ c, V1_arg6 m ρ c, V1_arg7 m ρ c, V1_arg8 m ρ c]
  rfl
theorem hidden_entry (c : Dev nD) :
    hiddenM (mC0 (V1 m ρ) c) (mCat (V1 m ρ) c) (mW1 (V1 m ρ) c) (mB1 (V1 m ρ) c) (mW2 (V1 m ρ) c) (mB2 (V1 m ρ) c) (mW3 (V1 m ρ) c) (mB3 (V1 m ρ) c) (mW4 (V1 m ρ) c) (mB4 (V1 m ρ) c)
      = hiddenM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show hiddenM (V1 m ρ c main_arg0) (V1 m ρ c main_v2) (V1 m ρ c main_arg3) (V1 m ρ c main_arg4) (V1 m ρ c main_arg5) (V1 m ρ c main_arg6) (V1 m ρ c main_arg7) (V1 m ρ c main_arg8) (V1 m ρ c main_arg9) (V1 m ρ c main_arg10) = _
  rw [V1_arg0 m ρ c, V1_v2 m ρ c, V1_arg3 m ρ c, V1_arg4 m ρ c, V1_arg5 m ρ c, V1_arg6 m ρ c, V1_arg7 m ρ c, V1_arg8 m ρ c, V1_arg9 m ρ c, V1_arg10 m ρ c]
  rfl

/-- The first result: the cell state. -/
theorem res_cell (c : Dev nD) : W3 m ρ c (Proc.devRef .tc main_v3_0) = cellM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W3_main_v3_0 m ρ c).trans ((final0_10 (V1 m ρ) c).trans (cell_entry m ρ c))
/-- The second result: the hidden state. -/
theorem res_hidden (c : Dev nD) : W3 m ρ c (Proc.devRef .tc main_v3_1) = hiddenM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W3_main_v3_1 m ρ c).trans ((final0_11 (V1 m ρ) c).trans (hidden_entry m ρ c))

/-- The second launch's operands: the hidden state's narrow copy, and the launch memory's w₅ and b₅. -/
theorem V2_hidden (c : Dev nD) : (V2 m ρ c main_v3_2 : Cert.Lstm.Mat) = hiddenM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W2_arr m ρ c 12).trans ((final0_12 (V1 m ρ) c).trans (hidden_entry m ρ c))
theorem V2_arg11 (c : Dev nD) : V2 m ρ c main_arg11 = m ((c : Thread nD τ).loc main_arg11) :=
  (W2_of_ne m ρ c main_arg11 (by decide)).trans (V1_arg11 m ρ c)
theorem V2_arg12 (c : Dev nD) : V2 m ρ c main_arg12 = m ((c : Thread nD τ).loc main_arg12) :=
  (W2_of_ne m ρ c main_arg12 (by decide)).trans (V1_arg12 m ρ c)

/-- The third result: the softmax matrix. -/
theorem res_soft (c : Dev nD) : W3 m ρ c (Proc.devRef .tc main_v4) = softM (m ((c : Thread nD τ).loc main_arg11)) (hiddenM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg12)) := by
  refine (W3_main_v4 m ρ c).trans ((final1 (V2 m ρ) c).trans ?_)
  show softM (V2 m ρ c main_arg11) (V2 m ρ c main_v3_2) (V2 m ρ c main_arg12) = _
  rw [V2_arg11 m ρ c, V2_hidden m ρ c, V2_arg12 m ρ c]

/-- Every weakly fair execution of the idealized kernel terminates with the three results at the specification's
    matrices of the launch memory's arguments, and the arguments unchanged. -/
theorem run_value : θ_run defs (onTc (τ := τ) (main (F := Ideal))) ⟨m, fun _ => 0, ρ⟩ (fun r => ∀ c : Dev nD,
      r.2.mem ((c.tc : Thread nD τ).loc main_v3_0) = cellM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v3_1) = hiddenM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v4) = softM (m ((c : Thread nD τ).loc main_arg11)) (hiddenM (m ((c : Thread nD τ).loc main_arg0)) (catK m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v3_0 (by decide))).trans (res_cell m ρ c),
     (h c _ (mem_uc main_v3_1 (by decide))).trans (res_hidden m ρ c),
     (h c _ (mem_uc main_v4 (by decide))).trans (res_soft m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩) (run_all m ρ)

end Cert.KernelIdeal.Hand

end
-- ==== Proof.RefOps.lean ====
/-
  The reference's operations read at an entry, on the extended reals: a matrix product plus a bias is the
  specification's gate; the expansion 1/(1 + exp(−x)), with the f32 word of 1, is the logistic function; a vector
  kept as a column and spread back over the rows is read at its row; the row maximum is the fold of max from −∞
  (taking the maximum with −∞ once more changes nothing); the row sum from the zero word is the plain sum.
-/
import proofs.«112212_j88502096101611_2_alg».proof.Proof.Gen.ReferenceIdeal.Read
import proofs.«112212_j88502096101611_2_alg».proof.Proof.Spec

noncomputable section

namespace Cert.ReferenceIdeal.RefOps

open Cert.ReferenceIdeal Cert.ReferenceIdeal.Gen Idealize.ShloMosaic Idealize.ShloMosaic.ValueIdx Cert.Lstm

/-- A full matrix of the program, at the ideal values. -/
abbrev MatV : Type := FVec Ideal S2048x2048 .f32
/-- A vector with one entry per row. -/
abbrev VecV : Type := FVec Ideal S2048 .f32

/-- The f32 word 0x3F800000 is 1. -/
theorem one_f32 : Ideal.ofBits .f32 0x3F800000#32 = 1 := by
  simp [Ideal.ofBits, Ideal.ieee, -EReal.coe_mul]; norm_num

/-- The f32 word 0xFF800000 is −∞, so the maximum with it is the other operand. -/
theorem max_neginf (y : EReal) : max (Ideal.ofBits .f32 0xFF800000#32) y = y := by
  simp [Ideal.ofBits, Ideal.ieee]

/-! ## The matrix product -/

/-- Entry (p, j) of the product w·c: the sum over the shared axis of w(p, l)·c(l, j). -/
theorem dot_apply (w c : MatV) (p j : Fin 2048) :
    Host.dotGeneral (F := Ideal) dot_S2048x2048_S2048x2048_S2048x2048_1_0_0_1_n_n none w c (ix2 p j)
      = ∑ l : Fin 2048, w (ix2 p l) * c (ix2 l j) := by
  simp only [Host.dotGeneral]
  rw [Ideal.dotGeneral_apply, ← Equiv.sum_comp (ValueIdx.contrEquiv1 dot_S2048x2048_S2048x2048_S2048x2048_1_0_0_1_n_n 2048 rfl rfl).symm]
  refine Finset.sum_congr rfl fun k _ => ?_
  have hk := ValueIdx.contrEquiv1_symm_val dot_S2048x2048_S2048x2048_S2048x2048_1_0_0_1_n_n 2048 rfl rfl k
  have el : dot_S2048x2048_S2048x2048_S2048x2048_1_0_0_1_n_n.lhsIdx (ix2 p j) ((ValueIdx.contrEquiv1 dot_S2048x2048_S2048x2048_S2048x2048_1_0_0_1_n_n 2048 rfl rfl).symm k) = ix2 p k := funext fun a => Fin.ext (by
    match a with
    | ⟨0, _⟩ => exact Read.lhs_main_v1_0 _ _
    | ⟨1, _⟩ => exact (Read.lhs_main_v1_1 _ _).trans hk)
  have er : dot_S2048x2048_S2048x2048_S2048x2048_1_0_0_1_n_n.rhsIdx (ix2 p j) ((ValueIdx.contrEquiv1 dot_S2048x2048_S2048x2048_S2048x2048_1_0_0_1_n_n 2048 rfl rfl).symm k) = ix2 k j := funext fun a => Fin.ext (by
    match a with
    | ⟨0, _⟩ => exact (Read.rhs_main_v1_0 _ _).trans hk
    | ⟨1, _⟩ => exact Read.rhs_main_v1_1 _ _)
  rw [el, er]

/-- w·c + b, as the program computes it. -/
def affine (w c b : MatV) : MatV := addf (Host.dotGeneral (F := Ideal) dot_S2048x2048_S2048x2048_S2048x2048_1_0_0_1_n_n none w c) b

/-- Its entry (p, j) is the specification's gate. -/
theorem affine_apply (w c b : MatV) (p j : Fin 2048) : affine w c b (ix2 p j) = gate w c b p j := by
  show Host.dotGeneral (F := Ideal) dot_S2048x2048_S2048x2048_S2048x2048_1_0_0_1_n_n none w c (ix2 p j) + b (ix2 p j) = _
  rw [dot_apply]; rfl

/-! ## The logistic function, expanded -/

/-- A scalar spread over the full matrix is that scalar everywhere. -/
theorem bcast0_apply (y : FVec Ideal S_ .f32) (i : S2048x2048.Idx) :
    broadcastInDim S2048x2048 ![] bcast_S_S2048x2048 y i = y ix0 :=
  broadcastInDim_apply _ bcast_S_S2048x2048 y i ix0 (fun a => a.elim0)

/-- 1 / (1 + exp(−x)) entry by entry, with the f32 word of 1 spread over the matrix. -/
def sigm (x : MatV) : MatV :=
  Host.divf (F := Ideal) (broadcastInDim S2048x2048 ![] bcast_S_S2048x2048 (constant (F := Ideal) S_ .f32 0x3F800000#32))
    (addf (broadcastInDim S2048x2048 ![] bcast_S_S2048x2048 (constant (F := Ideal) S_ .f32 0x3F800000#32))
      (Host.exp (F := Ideal) (Host.negf (F := Ideal) x)))

/-- Each entry is the logistic function of the entry. -/
theorem sigm_apply (x : MatV) (i : S2048x2048.Idx) : sigm x i = Ideal.logistic (x i) := by
  show Ideal.div (broadcastInDim S2048x2048 ![] bcast_S_S2048x2048 (constant (F := Ideal) S_ .f32 0x3F800000#32) i)
    (broadcastInDim S2048x2048 ![] bcast_S_S2048x2048 (constant (F := Ideal) S_ .f32 0x3F800000#32) i + Ideal.exp (-(x i))) = _
  rw [bcast0_apply, constant_apply, one_f32]; rfl

end Cert.ReferenceIdeal.RefOps

end
-- ==== Proof.RefSoft.lean ====
/-
  The reference's row-wise softmax read at an entry. A vector with one entry per row, kept as a column and spread
  back over the columns, is read at its row. The row maximum the reference takes — the maximum of −∞ with the
  reduction of max from −∞ along the row — is the fold of max from −∞ over the row's entries. The row sum from the
  zero word is the sum of the row's entries. So the reference's softmax of a matrix L has, at (p, j),
  exp(L(p, j) − max of row p) divided by the sum over k of exp(L(p, k) − max of row p).
-/
import proofs.«112212_j88502096101611_2_alg».proof.Proof.RefOps

noncomputable section

namespace Cert.ReferenceIdeal.RefOps

open Cert.ReferenceIdeal Cert.ReferenceIdeal.Gen Idealize.ShloMosaic Idealize.ShloMosaic.ValueIdx Cert.Lstm

/-! ## A per-row vector spread over the matrix -/

/-- A per-row vector as a column, then spread over the columns. -/
def keep (v : VecV) : MatV :=
  broadcastInDim S2048x2048 ![0, 1] bcast_S2048x1_S2048x2048_0_1 (broadcastInDim S2048x1 ![0] bcast_S2048_S2048x1_0 v)

/-- Its entry (p, j) is the vector's entry p. -/
theorem keep_apply (v : VecV) (p j : Fin 2048) : keep v (ix2 p j) = v (ix1 p) := by
  unfold keep
  refine (broadcastInDim_apply _ bcast_S2048x1_S2048x2048_0_1 _ (ix2 p j) (ix2 p (0 : Fin 1)) (fun a => match a with
    | ⟨0, _⟩ => by show p.val = if (2048 : Nat) = 1 then 0 else p.val; rw [if_neg (by decide)]
    | ⟨1, _⟩ => by show 0 = if (1 : Nat) = 1 then 0 else j.val; rw [if_pos rfl])).trans ?_
  exact broadcastInDim_apply _ bcast_S2048_S2048x1_0 v (ix2 p (0 : Fin 1)) (ix1 p) (fun a => match a with
    | ⟨0, _⟩ => by show p.val = if (2048 : Nat) = 1 then 0 else p.val; rw [if_neg (by decide)])

/-! ## Reductions along a row -/

/-- Dropping the column axis of the full matrix leaves one entry per row. -/
theorem reduces_d1 : S2048x2048.Reduces [1] S2048 := by decide

/-- Row p with column k put back is (p, k). -/
theorem lift_d1 (p : Fin 2048) (k : Fin (S2048x2048.size 1)) :
    reduces_d1.lift (ix1 p) k = ix2 p (⟨k.val, k.isLt⟩ : Fin 2048) :=
  funext fun a => Fin.ext (by match a with | ⟨0, _⟩ => rfl | ⟨1, _⟩ => rfl)

/-- The row maxima as the reference computes them: the maximum of −∞ with the reduction of max from −∞. -/
def rowMaxV (L : MatV) : VecV :=
  maximumf (broadcastInDim S2048 ![] bcast_S_S2048 (constant (F := Ideal) S_ .f32 0xFF800000#32))
    (Host.reduce FloatOps.maximumf L (constant (F := Ideal) S_ .f32 0xFF800000#32) reducesTo_S2048x2048_S2048_d1 h_S_)

/-- Entry p is the specification's fold of max from −∞ over row p. -/
theorem rowMaxV_apply (L : MatV) (p : Fin 2048) : rowMaxV L (ix1 p) = rowMax (fun q k => L (ix2 q k)) p := by
  unfold rowMaxV
  rw [maximumf_apply, Host.reduce_eq_fold_single FloatOps.maximumf L _ reducesTo_S2048x2048_S2048_d1 reduces_d1 h_S_]
  refine (max_neginf _).trans ?_
  unfold rowMax
  have hf : (L ∘ reduces_d1.lift (ix1 p)) = fun k : Fin 2048 => L (ix2 p k) := funext fun k => congrArg L (lift_d1 p k)
  exact congrArg (fun f => Finset.fold max (Ideal.ofBits .f32 0xFF800000#32) f (Finset.univ : Finset (Fin 2048))) hf

/-- The row sums from the zero word are the sums of the rows' entries. -/
theorem rowSum_apply (E : MatV) (p : Fin 2048) :
    Host.reduceAdd (F := Ideal) E (constant (F := Ideal) S_ .f32 0x00000000#32) reducesTo_S2048x2048_S2048_d1 h_S_ (ix1 p)
      = ∑ k : Fin 2048, E (ix2 p k) := by
  simp only [Host.reduceAdd, Ideal.hostReduceAdd_def]
  rw [Ideal.hostReduceAdd_single reducesTo_S2048x2048_S2048_d1 reduces_d1]
  refine (congrArg (_ + ·) (Finset.sum_congr rfl fun k _ => congrArg E (lift_d1 p k))).trans ?_
  rw [constant_apply, Ideal.ofBits_zero_f32, zero_add]
  rfl

/-! ## The softmax -/

/-- exp(L − row maximum), entry by entry. -/
def expShift (L : MatV) : MatV := Host.exp (F := Ideal) (subf L (keep (rowMaxV L)))

theorem expShift_apply (L : MatV) (p j : Fin 2048) :
    expShift L (ix2 p j) = Ideal.exp (L (ix2 p j) - rowMax (fun q k => L (ix2 q k)) p) := by
  show Ideal.exp (L (ix2 p j) - keep (rowMaxV L) (ix2 p j)) = _
  rw [keep_apply, rowMaxV_apply]

/-- The reference's softmax along the rows. -/
def softV (L : MatV) : MatV :=
  Host.divf (F := Ideal) (expShift L)
    (keep (Host.reduceAdd (F := Ideal) (expShift L) (constant (F := Ideal) S_ .f32 0x00000000#32) reducesTo_S2048x2048_S2048_d1 h_S_))

theorem softV_apply (L : MatV) (p j : Fin 2048) :
    softV L (ix2 p j) = Ideal.div (Ideal.exp (L (ix2 p j) - rowMax (fun q k => L (ix2 q k)) p))
      (∑ k : Fin 2048, Ideal.exp (L (ix2 p k) - rowMax (fun q k => L (ix2 q k)) p)) := by
  show Ideal.div (expShift L (ix2 p j))
    (keep (Host.reduceAdd (F := Ideal) (expShift L) (constant (F := Ideal) S_ .f32 0x00000000#32) reducesTo_S2048x2048_S2048_d1 h_S_) (ix2 p j)) = _
  rw [keep_apply, rowSum_apply]
  simp only [expShift_apply]

end Cert.ReferenceIdeal.RefOps

end
-- ==== Proof.RefValue.lean ====
/-
  The reference's run read back: each of its three results is the specification's matrix of the argument arrays.

  With c the previous hidden state stacked on the input, the program forms four gates w·c + b, passes three of them
  through 1/(1 + exp(−x)) and one through tanh, and combines them into the new cell and hidden states; these are the
  specification's cellE and hiddenE entry by entry, because the expansion 1/(1 + exp(−x)) is the logistic function.
  The third result is the reference's row-wise softmax of w₅·hidden + b₅, which at each entry is the specification's
  softE: the row maximum taken from −∞ is the fold of max from −∞, and the row sum from zero is the plain sum.
-/
import proofs.«112212_j88502096101611_2_alg».proof.Defs
import proofs.«112212_j88502096101611_2_alg».proof.Proof.Gen.ReferenceIdeal.Run
import proofs.«112212_j88502096101611_2_alg».proof.Proof.Gen.ReferenceIdeal.Read
import proofs.«112212_j88502096101611_2_alg».proof.Proof.Spec
import proofs.«112212_j88502096101611_2_alg».proof.Proof.RefOps
import proofs.«112212_j88502096101611_2_alg».proof.Proof.RefSoft

noncomputable section

namespace Cert.ReferenceIdeal.RefValue

open Idealize.ShloMosaic Idealize.ShloMosaic.TcCoe Idealize.SL.Sem Cert.ReferenceIdeal Cert.ReferenceIdeal.Gen
open Idealize.ShloMosaic.ValueIdx Cert.ReferenceIdeal.RefOps Cert.Lstm

/-- the concatenation of the previous hidden state and the input, kept as the program's own operation -/
def cat (h x : (⟨S1024x2048, .f32⟩ : BufTy).Contents (Elt Ideal)) : Cert.Lstm.Mat :=
  concatenate S2048x2048 0 [⟨S1024x2048, h⟩, ⟨S1024x2048, x⟩] concatenates_S1024x2048_S1024x2048_S2048x2048_d0

/-! ## The three results as the program's stages over the stacked matrix -/

/-- The new cell state is σ(w₁c + b₁)·cell₀ + σ(w₂c + b₂)·tanh(w₃c + b₃), entry by entry. -/
theorem cell_stage (x0 : (⟨S2048x2048, .f32⟩ : BufTy).Contents (Elt Ideal)) (x1 x2 : (⟨S1024x2048, .f32⟩ : BufTy).Contents (Elt Ideal)) (x3 x4 x5 x6 x7 x8 : (⟨S2048x2048, .f32⟩ : BufTy).Contents (Elt Ideal)) :
    Read.val_main_v30 (F := Ideal) x0 x1 x2 x3 x4 x5 x6 x7 x8
      = addf (mulf (sigm (affine x3 (cat x1 x2) x4)) x0)
          (mulf (sigm (affine x5 (cat x1 x2) x6)) (Host.tanh (F := Ideal) (affine x7 (cat x1 x2) x8))) := rfl

/-- The new hidden state is σ(w₄c + b₄)·tanh(cell), entry by entry. -/
theorem hidden_stage (x0 : (⟨S2048x2048, .f32⟩ : BufTy).Contents (Elt Ideal)) (x1 x2 : (⟨S1024x2048, .f32⟩ : BufTy).Contents (Elt Ideal)) (x3 x4 x5 x6 x7 x8 x9 x10 : (⟨S2048x2048, .f32⟩ : BufTy).Contents (Elt Ideal)) :
    Read.val_main_v32 (F := Ideal) x0 x1 x2 x3 x4 x5 x6 x7 x8 x9 x10
      = mulf (sigm (affine x9 (cat x1 x2) x10)) (Host.tanh (F := Ideal) (Read.val_main_v30 (F := Ideal) x0 x1 x2 x3 x4 x5 x6 x7 x8)) := rfl

/-- The third result is the row-wise softmax of w₅·hidden + b₅. -/
theorem soft_stage (x0 : (⟨S2048x2048, .f32⟩ : BufTy).Contents (Elt Ideal)) (x1 x2 : (⟨S1024x2048, .f32⟩ : BufTy).Contents (Elt Ideal)) (x3 x4 x5 x6 x7 x8 x9 x10 x11 x12 : (⟨S2048x2048, .f32⟩ : BufTy).Contents (Elt Ideal)) :
    Read.val_main_v45 (F := Ideal) x0 x1 x2 x3 x4 x5 x6 x7 x8 x9 x10 x11 x12
      = softV (affine x11 (Read.val_main_v32 (F := Ideal) x0 x1 x2 x3 x4 x5 x6 x7 x8 x9 x10) x12) := rfl

/-! ## The stages are the specification's matrices -/

theorem cell_eq (x0 : (⟨S2048x2048, .f32⟩ : BufTy).Contents (Elt Ideal)) (x1 x2 : (⟨S1024x2048, .f32⟩ : BufTy).Contents (Elt Ideal)) (x3 x4 x5 x6 x7 x8 : (⟨S2048x2048, .f32⟩ : BufTy).Contents (Elt Ideal)) :
    Read.val_main_v30 (F := Ideal) x0 x1 x2 x3 x4 x5 x6 x7 x8 = cellM x0 (cat x1 x2) x3 x4 x5 x6 x7 x8 := by
  rw [cell_stage]
  funext i
  obtain ⟨p, j, rfl⟩ : ∃ (p j : Fin 2048), i = ix2 p j := ⟨i 0, i 1, eq_ix2 i⟩
  rw [cellM_ix2]
  show sigm (affine x3 (cat x1 x2) x4) (ix2 p j) * x0 (ix2 p j)
    + sigm (affine x5 (cat x1 x2) x6) (ix2 p j) * Ideal.tanh (affine x7 (cat x1 x2) x8 (ix2 p j)) = _
  rw [sigm_apply, sigm_apply, affine_apply, affine_apply, affine_apply]
  rfl

theorem hidden_eq (x0 : (⟨S2048x2048, .f32⟩ : BufTy).Contents (Elt Ideal)) (x1 x2 : (⟨S1024x2048, .f32⟩ : BufTy).Contents (Elt Ideal)) (x3 x4 x5 x6 x7 x8 x9 x10 : (⟨S2048x2048, .f32⟩ : BufTy).Contents (Elt Ideal)) :
    Read.val_main_v32 (F := Ideal) x0 x1 x2 x3 x4 x5 x6 x7 x8 x9 x10 = hiddenM x0 (cat x1 x2) x3 x4 x5 x6 x7 x8 x9 x10 := by
  rw [hidden_stage, cell_eq]
  funext i
  obtain ⟨p, j, rfl⟩ : ∃ (p j : Fin 2048), i = ix2 p j := ⟨i 0, i 1, eq_ix2 i⟩
  rw [hiddenM_ix2]
  show sigm (affine x9 (cat x1 x2) x10) (ix2 p j) * Ideal.tanh (cellM x0 (cat x1 x2) x3 x4 x5 x6 x7 x8 (ix2 p j)) = _
  rw [sigm_apply, affine_apply, cellM_ix2]
  rfl

theorem soft_eq (x0 : (⟨S2048x2048, .f32⟩ : BufTy).Contents (Elt Ideal)) (x1 x2 : (⟨S1024x2048, .f32⟩ : BufTy).Contents (Elt Ideal)) (x3 x4 x5 x6 x7 x8 x9 x10 x11 x12 : (⟨S2048x2048, .f32⟩ : BufTy).Contents (Elt Ideal)) :
    Read.val_main_v45 (F := Ideal) x0 x1 x2 x3 x4 x5 x6 x7 x8 x9 x10 x11 x12
      = softM x11 (hiddenM x0 (cat x1 x2) x3 x4 x5 x6 x7 x8 x9 x10) x12 := by
  rw [soft_stage, hidden_eq]
  generalize hiddenM x0 (cat x1 x2) x3 x4 x5 x6 x7 x8 x9 x10 = H
  funext i
  obtain ⟨p, j, rfl⟩ : ∃ (p j : Fin 2048), i = ix2 p j := ⟨i 0, i 1, eq_ix2 i⟩
  rw [softM_ix2, softV_apply]
  simp only [affine_apply]
  rfl

/-! ## The run -/

/-- On every device, every weakly fair execution of the reference terminates with the three results at the
    specification's cell, hidden and softmax matrices of the launch memory's arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = Cert.Lstm.cellM (m ((c.tc : Thread nD τ).loc main_arg0)) (cat (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v32) = Cert.Lstm.hiddenM (m ((c.tc : Thread nD τ).loc main_arg0)) (cat (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v45) = Cert.Lstm.softM (m ((c.tc : Thread nD τ).loc main_arg11)) (Cert.Lstm.hiddenM (m ((c.tc : Thread nD τ).loc main_arg0)) (cat (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      ⟨(h c).1.trans ((Read.val_main_v30_eq (F := Ideal) _ _ _ _ _ _ _ _ _).trans (cell_eq _ _ _ _ _ _ _ _ _)),
       (h c).2.1.trans ((Read.val_main_v32_eq (F := Ideal) _ _ _ _ _ _ _ _ _ _ _).trans (hidden_eq _ _ _ _ _ _ _ _ _ _ _)),
       (h c).2.2.1.trans ((Read.val_main_v45_eq (F := Ideal) m c).trans (soft_eq _ _ _ _ _ _ _ _ _ _ _ _ _)),
       (h c).2.2.2⟩)
    (Cert.ReferenceIdeal.Value.run (F := Ideal) m ρ)

end Cert.ReferenceIdeal.RefValue

end
-- ==== Proof.lean ====
/-
  The certificate of an LSTM-style cell computed by two kernels against its plain reference.

  The kernel narrows and stacks the previous hidden state and the input on the host, then launches a gates kernel
  that accumulates four matrix products slab by slab over a grid axis and combines them into the cell state and the
  hidden state, and a softmax kernel that accumulates w₅ · hidden the same way and normalises each row. On the
  extended reals a narrowing is the identity, a product accumulated over four 512-wide slabs from a zero block is the
  2048-term product (addition there is associative and commutative, infinities included), the logistic function is
  the reference's 1 / (1 + exp(−x)), and the kernel's row maximum and row sum are the reference's reductions; so
  both programs compute the specification's three matrices of the argument arrays, and no finiteness of the inputs
  is used.

  The frames of the two printed kernels are proved from the same text read at both instances: each launch is run
  point by point in three cases of the second grid coordinate (first, middle, last), the accumulators carried
  between the points of a row block in the region's invariant; the program's three items are chained by following
  the unscoped buffers' contents. The reference's frame is its run with the results dropped.
-/
import proofs.«112212_j88502096101611_2_alg».proof.Defs
import proofs.«112212_j88502096101611_2_alg».proof.Proof.Gen.Kernel
import proofs.«112212_j88502096101611_2_alg».proof.Proof.Gen.KernelIdeal
import proofs.«112212_j88502096101611_2_alg».proof.Proof.Gen.ReferenceIdeal
import proofs.«112212_j88502096101611_2_alg».proof.Proof.Gen.Pre_finite_inputs
import proofs.«112212_j88502096101611_2_alg».proof.Proof.KBRun
import proofs.«112212_j88502096101611_2_alg».proof.Proof.KIFinal
import proofs.«112212_j88502096101611_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

theorem preserves : Cert.preserves_Kernel_KernelIdeal := trivial

/-- Both idealized programs end with the specification's three matrices of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.KernelIdeal.Hand.run_value m ρ, ?_⟩
  refine (θ_run Cert.ReferenceIdeal.defs _ _).mono (fun _ h c => ?_) (Cert.ReferenceIdeal.RefValue.run m' ρ')
  obtain ⟨h30, h32, h45, hargs⟩ := h c
  obtain ⟨a0, a1, a2, a3, a4, a5, a6, a7, a8, a9, a10, a11, a12⟩ := hagree c
  refine ⟨h30.trans ?_, h32.trans ?_, h45.trans ?_, hargs⟩
  · rw [a0, a1, a2, a3, a4, a5, a6, a7, a8]; rfl
  · rw [a0, a1, a2, a3, a4, a5, a6, a7, a8, a9, a10]; rfl
  · rw [a0, a1, a2, a3, a4, a5, a6, a7, a8, a9, a10, a11, a12]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
